-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x3 : Shape := ⟨2, ![512, 3]⟩
abbrev S512 : Shape := ⟨1, ![512]⟩
abbrev S32x3 : Shape := ⟨2, ![32, 3]⟩
abbrev S4x4x12 : Shape := ⟨3, ![4, 4, 12]⟩
abbrev S4 : Shape := ⟨1, ![4]⟩
abbrev S81x3 : Shape := ⟨2, ![81, 3]⟩
abbrev S_ : Shape := ⟨0, ![]⟩

class Facts : Prop where
  bcast_S_S512x3 : S_.BroadcastsInDim S512x3 (![] : Fin 0 → Fin S512x3.rank)
  reducesTo_S512x3_S_d0_1 : S512x3.ReducesTo [0, 1] S_
  h_S_ : 0 < S_.numel
  bcast_S_S32x3 : S_.BroadcastsInDim S32x3 (![] : Fin 0 → Fin S32x3.rank)
  reducesTo_S32x3_S_d0_1 : S32x3.ReducesTo [0, 1] S_
  bcast_S_S4x4x12 : S_.BroadcastsInDim S4x4x12 (![] : Fin 0 → Fin S4x4x12.rank)
  reducesTo_S4x4x12_S_d0_1_2 : S4x4x12.ReducesTo [0, 1, 2] S_
  bcast_S_S4 : S_.BroadcastsInDim S4 (![] : Fin 0 → Fin S4.rank)
  reducesTo_S4_S_d0 : S4.ReducesTo [0] S_
  bcast_S_S81x3 : S_.BroadcastsInDim S81x3 (![] : Fin 0 → Fin S81x3.rank)
  reducesTo_S81x3_S_d0_1 : S81x3.ReducesTo [0, 1] S_

variable [Facts]

def fn_part1 {F : FTy → Type} [FloatOps F] (main_arg5 : FVec F S81x3 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S81x3 .f32 := Host.absf main_arg5
  let main_cst_6 : FVec F S_ .f32 := constant S_ .f32 0x7F800000#32
  let main_v20 : FVec F S81x3 .f32 := broadcastInDim S81x3 ![] bcast_S_S81x3 main_cst_6
  let main_v21 : IVec S81x3 1 := cmpf .olt main_v19 main_v20
  let main_c_7 : IVec S_ 1 := constantI S_ 1 1#1
  let main_v22 : IVec S_ 1 := (fun x v => Host.reduce IntOp.andi x v reducesTo_S81x3_S_d0_1 h_S_) main_v21 main_c_7
  let main_v23 : IVec S_ 1 := andi main_v18 main_v22
  main_v23

def fn {F : FTy → Type} [FloatOps F] (main_arg0 : FVec F S512x3 .f32) (main_arg1 : IVec S512 32) (main_arg2 : FVec F S32x3 .f32) (main_arg3 : FVec F S4x4x12 .f32) (main_arg4 : FVec F S4 .f32) (main_arg5 : FVec F S81x3 .f32) : IVec S_ 1 :=
  let main_v0 : FVec F S512x3 .f32 := Host.absf main_arg0
  let main_cst : FVec F S_ .f32 := constant S_ .f32 0x7F800000#32
  let main_v1 : FVec F S512x3 .f32 := broadcastInDim S512x3 ![] bcast_S_S512x3 main_cst
  let main_v2 : IVec S512x3 1 := cmpf .olt main_v0 main_v1
  let main_c : IVec S_ 1 := constantI S_ 1 1#1
  let main_v3 : IVec S_ 1 := (fun x v => Host.reduce IntOp.andi x v reducesTo_S512x3_S_d0_1 h_S_) main_v2 main_c
  let main_v4 : FVec F S32x3 .f32 := Host.absf main_arg2
  let main_cst_0 : FVec F S_ .f32 := constant S_ .f32 0x7F800000#32
  let main_v5 : FVec F S32x3 .f32 := broadcastInDim S32x3 ![] bcast_S_S32x3 main_cst_0
  let main_v6 : IVec S32x3 1 := cmpf .olt main_v4 main_v5
  let main_c_1 : IVec S_ 1 := constantI S_ 1 1#1
  let main_v7 : IVec S_ 1 := (fun x v => Host.reduce IntOp.andi x v reducesTo_S32x3_S_d0_1 h_S_) main_v6 main_c_1
  let main_v8 : IVec S_ 1 := andi main_v3 main_v7
  let main_v9 : FVec F S4x4x12 .f32 := Host.absf main_arg3
  let main_cst_2 : FVec F S_ .f32 := constant S_ .f32 0x7F800000#32
  let main_v10 : FVec F S4x4x12 .f32 := broadcastInDim S4x4x12 ![] bcast_S_S4x4x12 main_cst_2
  let main_v11 : IVec S4x4x12 1 := cmpf .olt main_v9 main_v10
  let main_c_3 : IVec S_ 1 := constantI S_ 1 1#1
  let main_v12 : IVec S_ 1 := (fun x v => Host.reduce IntOp.andi x v reducesTo_S4x4x12_S_d0_1_2 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_v13 main_v16
-- ==== Kernel.lean ====
abbrev S512x3 : Shape := ⟨2, ![512, 3]⟩
abbrev S512 : Shape := ⟨1, ![512]⟩
abbrev S32x3 : Shape := ⟨2, ![32, 3]⟩
abbrev S4x4x12 : Shape := ⟨3, ![4, 4, 12]⟩
abbrev S4 : Shape := ⟨1, ![4]⟩
abbrev S81x3 : Shape := ⟨2, ![81, 3]⟩
abbrev S3x3 : Shape := ⟨2, ![3, 3]⟩
abbrev S512x1 : Shape := ⟨2, ![512, 1]⟩
abbrev S1x512 : Shape := ⟨2, ![1, 512]⟩
abbrev S_ : Shape := ⟨0, ![]⟩
abbrev S512x512 : Shape := ⟨2, ![512, 512]⟩
abbrev S512x512x1 : Shape := ⟨3, ![512, 512, 1]⟩
abbrev S512x512x2 : Shape := ⟨3, ![512, 512, 2]⟩
abbrev S512x512x12 : Shape := ⟨3, ![512, 512, 12]⟩
abbrev S12x512x512 : Shape := ⟨3, ![12, 512, 512]⟩
abbrev S3x81 : Shape := ⟨2, ![3, 81]⟩
abbrev S32x81 : Shape := ⟨2, ![32, 81]⟩
abbrev S81x32 : Shape := ⟨2, ![81, 32]⟩
abbrev S32x512x512 : Shape := ⟨3, ![32, 512, 512]⟩
abbrev S128x3 : Shape := ⟨2, ![128, 3]⟩
abbrev S12x32x128 : Shape := ⟨3, ![12, 32, 128]⟩
abbrev S32x32x128 : Shape := ⟨3, ![32, 32, 128]⟩
abbrev S32x128x81 : Shape := ⟨3, ![32, 128, 81]⟩
abbrev S32x1 : Shape := ⟨2, ![32, 1]⟩
abbrev S32 : Shape := ⟨1, ![32]⟩
abbrev S32x1x1 : Shape := ⟨3, ![32, 1, 1]⟩
abbrev S128x1 : Shape := ⟨2, ![128, 1]⟩
abbrev S128 : Shape := ⟨1, ![128]⟩
abbrev S1x128x1 : Shape := ⟨3, ![1, 128, 1]⟩
abbrev S81x1 : Shape := ⟨2, ![81, 1]⟩
abbrev S81 : Shape := ⟨1, ![81]⟩
abbrev S1x1x81 : Shape := ⟨3, ![1, 1, 81]⟩
abbrev S1x128x81 : Shape := ⟨3, ![1, 128, 81]⟩
abbrev S1x32x128 : Shape := ⟨3, ![1, 32, 128]⟩
abbrev S32x128 : Shape := ⟨2, ![32, 128]⟩
abbrev S32x128x1 : Shape := ⟨3, ![32, 128, 1]⟩
abbrev S4096x81 : Shape := ⟨2, ![4096, 81]⟩
abbrev S4096x32 : Shape := ⟨2, ![4096, 32]⟩
abbrev S32x128x32 : Shape := ⟨3, ![32, 128, 32]⟩
abbrev S1x512x512 : Shape := ⟨3, ![1, 512, 512]⟩
abbrev S1x512x1 : Shape := ⟨3, ![1, 512, 1]⟩
abbrev S1x32x512x512 : Shape := ⟨4, ![1, 32, 512, 512]⟩
abbrev S2x32x512x512 : Shape := ⟨4, ![2, 32, 512, 512]⟩

abbrev nBuf : Space → Nat
  | .hbm => 68
  | .vmem => 13
  | .smem => 0
  | _ => 0

abbrev bufTy : (tb : Table) → Fin (tcTables nBuf tb) → BufTy
  | .hbm, ⟨0, _⟩ => ⟨S512x3, .f32⟩
  | .hbm, ⟨1, _⟩ => ⟨S512, .i32⟩
  | .hbm, ⟨2, _⟩ => ⟨S32x3, .f32⟩
  | .hbm, ⟨3, _⟩ => ⟨S4x4x12, .f32⟩
  | .hbm, ⟨4, _⟩ => ⟨S4, .f32⟩
  | .hbm, ⟨5, _⟩ => ⟨S81x3, .f32⟩
  | .hbm, ⟨6, _⟩ => ⟨S3x3, .f32⟩
  | .hbm, ⟨7, _⟩ => ⟨S512x1, .i32⟩
  | .hbm, ⟨8, _⟩ => ⟨S1x512, .i32⟩
  | .hbm, ⟨9, _⟩ => ⟨S_, .i32⟩
  | .hbm, ⟨10, _⟩ => ⟨S512x1, .i32⟩
  | .hbm, ⟨11, _⟩ => ⟨S512x1, .i1⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S1x512, .i32⟩
  | .hbm, ⟨18, _⟩ => ⟨S1x512, .i1⟩
  | .hbm, ⟨19, _⟩ => ⟨S_, .i32⟩
  | .hbm, ⟨20, _⟩ => ⟨S1x512, .i32⟩
  | .hbm, ⟨21, _⟩ => ⟨S1x512, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512x1, .i32⟩
  | .hbm, ⟨26, _⟩ => ⟨S512x512x1, .i32⟩
  | .hbm, ⟨27, _⟩ => ⟨S512x512x2, .i32⟩
  | .hbm, ⟨28, _⟩ => ⟨S512x512x12, .f32⟩
  | .hbm, ⟨29, _⟩ => ⟨S12x512x512, .f32⟩
  | .hbm, ⟨30, _⟩ => ⟨S3x3, .f32⟩
  | .hbm, ⟨31, _⟩ => ⟨S32x3, .f32⟩
  | .hbm, ⟨32, _⟩ => ⟨S3x81, .f32⟩
  | .hbm, ⟨33, _⟩ => ⟨S32x81, .f32⟩
  | .hbm, ⟨34, _⟩ => ⟨S_, .f32⟩
  | .hbm, ⟨35, _⟩ => ⟨S32x81, .f32⟩
  | .hbm, ⟨36, _⟩ => ⟨S32x81, .f32⟩
  | .hbm, ⟨37, _⟩ => ⟨S32x81, .f32⟩
  | .hbm, ⟨38, _⟩ => ⟨S81x32, .f32⟩
  | .hbm, ⟨39, _⟩ => ⟨S32x81, .f32⟩
  | .hbm, ⟨40, _⟩ => ⟨S81x32, .f32⟩
  | .hbm, ⟨41, _⟩ => ⟨S32x512x512, .f32⟩
  | .hbm, ⟨42, _⟩ => ⟨S32x512x512, .f32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S512, .f32⟩
  | .hbm, ⟨52, _⟩ => ⟨S512x512, .i32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .f32⟩
  | .hbm, ⟨59, _⟩ => ⟨S1x512x512, .f32⟩
  | .hbm, ⟨60, _⟩ => ⟨S1x512x1, .f32⟩
  | .hbm, ⟨61, _⟩ => ⟨S1x512x512, .f32⟩
  | .hbm, ⟨62, _⟩ => ⟨S1x512x512, .f32⟩
  | .hbm, ⟨63, _⟩ => ⟨S32x512x512, .f32⟩
  | .hbm, ⟨64, _⟩ => ⟨S32x512x512, .f32⟩
  | .hbm, ⟨65, _⟩ => ⟨S1x32x512x512, .f32⟩
  | .hbm, ⟨66, _⟩ => ⟨S1x32x512x512, .f32⟩
  | .hbm, ⟨67, _⟩ => ⟨S2x32x512x512, .f32⟩
  | .local _ .vmem, ⟨0, _⟩ => ⟨S32x3, .f32⟩
  | .local _ .vmem, ⟨1, _⟩ => ⟨S32x3, .f32⟩
  | .local _ .vmem, ⟨2, _⟩ => ⟨S128x3, .f32⟩
  | .local _ .vmem, ⟨3, _⟩ => ⟨S128x3, .f32⟩
  | .local _ .vmem, ⟨4, _⟩ => ⟨S81x3, .f32⟩
  | .local _ .vmem, ⟨5, _⟩ => ⟨S12x32x128, .f32⟩
  | .local _ .vmem, ⟨6, _⟩ => ⟨S12x32x128, .f32⟩
  | .local _ .vmem, ⟨7, _⟩ => ⟨S81x32, .f32⟩
  | .local _ .vmem, ⟨8, _⟩ => ⟨S81x32, .f32⟩
  | .local _ .vmem, ⟨9, _⟩ => ⟨S32x32x128, .f32⟩
  | .local _ .vmem, ⟨10, _⟩ => ⟨S32x32x128, .f32⟩
  | .local _ .vmem, ⟨11, _⟩ => ⟨S32x32x128, .f32⟩
  | .local _ .vmem, ⟨12, _⟩ => ⟨S32x32x128, .f32⟩
  | _, _ => ⟨S512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S81x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S12x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S81x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S81x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  transposes_S512x512x12_S12x512x512_2_0_1 : S512x512x12.Transposes [2, 0, 1] S12x512x512
  transposes_S3x3_S3x3_1_0 : S3x3.Transposes [1, 0] S3x3
  transposes_S81x3_S3x81_1_0 : S81x3.Transposes [1, 0] S3x81
  bcast_S_S32x81 : S_.BroadcastsInDim S32x81 (![] : Fin 0 → Fin S32x81.rank)
  transposes_S32x81_S81x32_1_0 : S32x81.Transposes [1, 0] S81x32
  inb_S32x3_S32x3_0_0 : ∀ a, (![0, 0] : Fin 2 → Nat) a + S32x3.size a ≤ S32x3.size a
  h_S32x3 : 0 < S32x3.numel
  inb_S128x3_S128x3_0_0 : ∀ a, (![0, 0] : Fin 2 → Nat) a + S128x3.size a ≤ S128x3.size a
  h_S128x3 : 0 < S128x3.numel
  inb_S81x3_S81x3_0_0 : ∀ a, (![0, 0] : Fin 2 → Nat) a + S81x3.size a ≤ S81x3.size a
  h_S81x3 : 0 < S81x3.numel
  slices_S32x3_o0_0_S32x1 : S32x3.Slices ![0, 0] S32x1
  shapeCasts_S32x1_S32 : S32x1.ShapeCasts S32
  shapeCasts_S32_S32x1x1 : S32.ShapeCasts S32x1x1
  slices_S128x3_o0_0_S128x1 : S128x3.Slices ![0, 0] S128x1
  shapeCasts_S128x1_S128 : S128x1.ShapeCasts S128
  shapeCasts_S128_S1x128x1 : S128.ShapeCasts S1x128x1
  slices_S81x3_o0_0_S81x1 : S81x3.Slices ![0, 0] S81x1
  shapeCasts_S81x1_S81 : S81x1.ShapeCasts S81
  shapeCasts_S81_S1x1x81 : S81.ShapeCasts S1x1x81
  broadcasts_S1x128x1_S1x128x81 : S1x128x1.Broadcasts S1x128x81
  broadcasts_S1x1x81_S1x128x81 : S1x1x81.Broadcasts S1x128x81
  broadcasts_S1x128x81_S32x128x81 : S1x128x81.Broadcasts S32x128x81
  broadcasts_S32x1x1_S32x128x81 : S32x1x1.Broadcasts S32x128x81
  slices_S32x3_o0_1_S32x1 : S32x3.Slices ![0, 1] S32x1
  slices_S128x3_o0_1_S128x1 : S128x3.Slices ![0, 1] S128x1
  slices_S81x3_o0_1_S81x1 : S81x3.Slices ![0, 1] S81x1
  slices_S32x3_o0_2_S32x1 : S32x3.Slices ![0, 2] S32x1
  slices_S128x3_o0_2_S128x1 : S128x3.Slices ![0, 2] S128x1
  slices_S81x3_o0_2_S81x1 : S81x3.Slices ![0, 2] S81x1
  inb_S12x32x128_S1x32x128_11_0_0 : ∀ a, (![11, 0, 0] : Fin 3 → Nat) a + S1x32x128.size a ≤ S12x32x128.size a
  h_S1x32x128 : 0 < S1x32x128.numel
  shapeCasts_S1x32x128_S32x128 : S1x32x128.ShapeCasts S32x128
  shapeCasts_S32x128_S32x128x1 : S32x128.ShapeCasts S32x128x1
  broadcasts_S32x128x1_S32x128x81 : S32x128x1.Broadcasts S32x128x81
  inb_S12x32x128_S1x32x128_10_0_0 : ∀ a, (![10, 0, 0] : Fin 3 → Nat) a + S1x32x128.size a ≤ S12x32x128.size a
  inb_S12x32x128_S1x32x128_9_0_0 : ∀ a, (![9, 0, 0] : Fin 3 → Nat) a + S1x32x128.size a ≤ S12x32x128.size a
  inb_S12x32x128_S1x32x128_8_0_0 : ∀ a, (![8, 0, 0] : Fin 3 → Nat) a + S1x32x128.size a ≤ S12x32x128.size a
  inb_S12x32x128_S1x32x128_7_0_0 : ∀ a, (![7, 0, 0] : Fin 3 → Nat) a + S1x32x128.size a ≤ S12x32x128.size a
  inb_S12x32x128_S1x32x128_6_0_0 : ∀ a, (![6, 0, 0] : Fin 3 → Nat) a + S1x32x128.size a ≤ S12x32x128.size a
  inb_S12x32x128_S1x32x128_5_0_0 : ∀ a, (![5, 0, 0] : Fin 3 → Nat) a + S1x32x128.size a ≤ S12x32x128.size a
  inb_S12x32x128_S1x32x128_4_0_0 : ∀ a, (![4, 0, 0] : Fin 3 → Nat) a + S1x32x128.size a ≤ S12x32x128.size a
  inb_S12x32x128_S1x32x128_3_0_0 : ∀ a, (![3, 0, 0] : Fin 3 → Nat) a + S1x32x128.size a ≤ S12x32x128.size a
  inb_S12x32x128_S1x32x128_2_0_0 : ∀ a, (![2, 0, 0] : Fin 3 → Nat) a + S1x32x128.size a ≤ S12x32x128.size a
  inb_S12x32x128_S1x32x128_1_0_0 : ∀ a, (![1, 0, 0] : Fin 3 → Nat) a + S1x32x128.size a ≤ S12x32x128.size a
  inb_S12x32x128_S1x32x128_0_0_0 : ∀ a, (![0, 0, 0] : Fin 3 → Nat) a + S1x32x128.size a ≤ S12x32x128.size a
  shapeCasts_S32x128x81_S4096x81 : S32x128x81.ShapeCasts S4096x81
  inb_S81x32_S81x32_0_0 : ∀ a, (![0, 0] : Fin 2 → Nat) a + S81x32.size a ≤ S81x32.size a
  h_S81x32 : 0 < S81x32.numel
  shapeCasts_S81x32_S81x32 : S81x32.ShapeCasts S81x32
  shapeCasts_S4096x32_S32x128x32 : S4096x32.ShapeCasts S32x128x32
  transposes_S32x128x32_p2_0_1_S32x32x128 : S32x128x32.Transposes [2, 0, 1] S32x32x128
  inb_S32x32x128_S32x32x128_0_0_0 : ∀ a, (![0, 0, 0] : Fin 3 → Nat) a + S32x32x128.size a ≤ S32x32x128.size a
  h_S32x32x128 : 0 < S32x32x128.numel
  bcast_S_S512 : S_.BroadcastsInDim S512 (![] : Fin 0 → Fin S512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S512_S1x512x1_1 : S512.BroadcastsInDim S1x512x1 (![1] : Fin 1 → Fin S1x512x1.rank)
  bcast_S1x512x1_S1x512x512_0_1_2 : S1x512x1.BroadcastsInDim S1x512x512 (![0, 1, 2] : Fin 3 → Fin S1x512x512.rank)
  bcast_S1x512x512_S32x512x512_0_1_2 : S1x512x512.BroadcastsInDim S32x512x512 (![0, 1, 2] : Fin 3 → Fin S32x512x512.rank)
  bcast_S32x512x512_S1x32x512x512_1_2_3 : S32x512x512.BroadcastsInDim S1x32x512x512 (![1, 2, 3] : Fin 3 → Fin S1x32x512x512.rank)
  concatenates_S1x32x512x512_S1x32x512x512_S2x32x512x512_d0 : Shape.Concatenates [S1x32x512x512, S1x32x512x512] S2x32x512x512 0
  gather_S4x4x12_S512x512x2_S512x512x12_2_01_n_n_01_2_1112_wf : GatherDims.WF S4x4x12 S512x512x2 S512x512x12 [2] [0, 1] [] [0, 1] [] 2 ![1, 1, 12]
  dot_S32x3_S3x3_S32x3_1_0_0_1_n_n_wf : DotDims.WF S32x3 S3x3 S32x3 [1] [0] [0] [1] [] []
  dot_S32x3_S3x81_S32x81_1_0_0_1_n_n_wf : DotDims.WF S32x3 S3x81 S32x81 [1] [0] [0] [1] [] []
  dot_S4096x81_S81x32_S4096x32_1_0_0_1_n_n_wf : DotDims.WF S4096x81 S81x32 S4096x32 [1] [0] [0] [1] [] []
  gather_S4_S512x1_S512_n_0_n_n_0_1_1_wf : GatherDims.WF S4 S512x1 S512 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3.size a ≤ S512x3.size a
  hwx0_0 : ∀ i : grid0.Coords, EltTy.bits .f32 = 32 ∨ (Rect.block (s := S512x3) S32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S512x3.size a
  hwx0_1 : ∀ i : grid0.Coords, EltTy.bits .f32 = 32 ∨ (Rect.block (s := S512x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S81x3.size a ≤ S81x3.size a
  hwx0_2 : ∀ i : grid0.Coords, EltTy.bits .f32 = 32 ∨ (Rect.block (s := S81x3) S81x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12x32x128.size a ≤ S12x512x512.size a
  hwx0_3 : ∀ i : grid0.Coords, EltTy.bits .f32 = 32 ∨ (Rect.block (s := S12x512x512) S12x32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S81x32.size a ≤ S81x32.size a
  hwx0_4 : ∀ i : grid0.Coords, EltTy.bits .f32 = 32 ∨ (Rect.block (s := S81x32) S81x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S81x32.size a ≤ S81x32.size a
  hwx0_5 : ∀ i : grid0.Coords, EltTy.bits .f32 = 32 ∨ (Rect.block (s := S81x32) S81x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x32x128.size a ≤ S32x512x512.size a
  hwx0_6 : ∀ i : grid0.Coords, EltTy.bits .f32 = 32 ∨ (Rect.block (s := S32x512x512) S32x32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x32x128.size a ≤ S32x512x512.size a
  hwx0_7 : ∀ i : grid0.Coords, EltTy.bits .f32 = 32 ∨ (Rect.block (s := S32x512x512) S32x32x128.size (cc0_transform_7 i) (hinb0_7 i)).WholeWords (EltTy.packing .f32)

variable [Facts₀]

def gather_S4x4x12_S512x512x2_S512x512x12_2_01_n_n_01_2_1112 : GatherDims S4x4x12 S512x512x2 S512x512x12 where
  offsetDims := [2]
  collapsedSliceDims := [0, 1]
  operandBatchingDims := []
  startIndicesBatchingDims := []
  startIndexMap := [0, 1]
  indexVectorDim := 2
  sliceSizes := ![1, 1, 12]
  wf := gather_S4x4x12_S512x512x2_S512x512x12_2_01_n_n_01_2_1112_wf
def dot_S32x3_S3x3_S32x3_1_0_0_1_n_n : DotDims S32x3 S3x3 S32x3 where
  lhsContracting := [1]
  rhsContracting := [0]
  lhsNonContracting := [0]
  rhsNonContracting := [1]
  lhsBatch := []
  rhsBatch := []
  wf := dot_S32x3_S3x3_S32x3_1_0_0_1_n_n_wf
def dot_S32x3_S3x81_S32x81_1_0_0_1_n_n : DotDims S32x3 S3x81 S32x81 where
  lhsContracting := [1]
  rhsContracting := [0]
  lhsNonContracting := [0]
  rhsNonContracting := [1]
  lhsBatch := []
  rhsBatch := []
  wf := dot_S32x3_S3x81_S32x81_1_0_0_1_n_n_wf
def dot_S4096x81_S81x32_S4096x32_1_0_0_1_n_n : DotDims S4096x81 S81x32 S4096x32 where
  lhsContracting := [1]
  rhsContracting := [0]
  lhsNonContracting := [0]
  rhsNonContracting := [1]
  lhsBatch := []
  rhsBatch := []
  wf := dot_S4096x81_S81x32_S4096x32_1_0_0_1_n_n_wf
def gather_S4_S512x1_S512_n_0_n_n_0_1_1 : GatherDims S4 S512x1 S512 where
  offsetDims := []
  collapsedSliceDims := [0]
  operandBatchingDims := []
  startIndicesBatchingDims := []
  startIndexMap := [0]
  indexVectorDim := 1
  sliceSizes := ![1]
  wf := gather_S4_S512x1_S512_n_0_n_n_0_1_1_wf

abbrev win0_0 : Pipeline.Window sig grid0 :=
  Pipeline.Window.ofSpec (Memref.whole main_arg0) S32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S81x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S12x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S81x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S81x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S32x32x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S32x32x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x3 : Shape := ⟨2, ![512, 3]⟩
abbrev S512 : Shape := ⟨1, ![512]⟩
abbrev S32x3 : Shape := ⟨2, ![32, 3]⟩
abbrev S4x4x12 : Shape := ⟨3, ![4, 4, 12]⟩
abbrev S4 : Shape := ⟨1, ![4]⟩
abbrev S81x3 : Shape := ⟨2, ![81, 3]⟩
abbrev S3x3 : Shape := ⟨2, ![3, 3]⟩
abbrev S1x512x1x3 : Shape := ⟨4, ![1, 512, 1, 3]⟩
abbrev S1x1x81x3 : Shape := ⟨4, ![1, 1, 81, 3]⟩
abbrev S1x512x81x3 : Shape := ⟨4, ![1, 512, 81, 3]⟩
abbrev S512x3x1 : Shape := ⟨3, ![512, 3, 1]⟩
abbrev S512x1x3x1 : Shape := ⟨4, ![512, 1, 3, 1]⟩
abbrev S512x1x1x3 : Shape := ⟨4, ![512, 1, 1, 3]⟩
abbrev S512x512x81x3 : Shape := ⟨4, ![512, 512, 81, 3]⟩
abbrev S_ : Shape := ⟨0, ![]⟩
abbrev S512x512x81 : Shape := ⟨3, ![512, 512, 81]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x512x2 : Shape := ⟨3, ![512, 512, 2]⟩
abbrev S512x512x12 : Shape := ⟨3, ![512, 512, 12]⟩
abbrev S3x81 : Shape := ⟨2, ![3, 81]⟩
abbrev S32x81 : Shape := ⟨2, ![32, 81]⟩
abbrev S32x512x512 : Shape := ⟨3, ![32, 512, 512]⟩
abbrev S1x512x512 : Shape := ⟨3, ![1, 512, 512]⟩
abbrev S1x32x512x512 : Shape := ⟨4, ![1, 32, 512, 512]⟩
abbrev S2x32x512x512 : Shape := ⟨4, ![2, 32, 512, 512]⟩

abbrev nBuf : Space → Nat
  | .hbm => 194
  | .vmem => 0
  | .smem => 0
  | _ => 0

abbrev hbmTy0_0 (i : Nat) : BufTy := match i % 128 with
  | 0 => ⟨S512x3, .f32⟩
  | 1 => ⟨S512, .i32⟩
  | 2 => ⟨S32x3, .f32⟩
  | 3 => ⟨S4x4x12, .f32⟩
  | 4 => ⟨S4, .f32⟩
  | 5 => ⟨S81x3, .f32⟩
  | 6 => ⟨S3x3, .f32⟩
  | 7 => ⟨S1x512x1x3, .f32⟩
  | 8 => ⟨S1x1x81x3, .f32⟩
  | 9 => ⟨S1x512x81x3, .f32⟩
  | 10 => ⟨S1x512x81x3, .f32⟩
  | 11 => ⟨S1x512x81x3, .f32⟩
  | 12 => ⟨S512x3x1, .f32⟩
  | 13 => ⟨S512x1x3x1, .f32⟩
  | 14 => ⟨S512x1x1x3, .f32⟩
  | 15 => ⟨S512x512x81x3, .f32⟩
  | 16 => ⟨S512x512x81x3, .f32⟩
  | 17 => ⟨S512x512x81x3, .f32⟩
  | 18 => ⟨S1x512x1x3, .f32⟩
  | 19 => ⟨S1x1x81x3, .f32⟩
  | 20 => ⟨S1x512x81x3, .f32⟩
  | 21 => ⟨S1x512x81x3, .f32⟩
  | 22 => ⟨S1x512x81x3, .f32⟩
  | 23 => ⟨S512x1x1x3, .f32⟩
  | 24 => ⟨S512x512x81x3, .f32⟩
  | 25 => ⟨S512x512x81x3, .f32⟩
  | 26 => ⟨S512x512x81x3, .f32⟩
  | 27 => ⟨S512x512x81x3, .f32⟩
  | 28 => ⟨S_, .f32⟩
  | 29 => ⟨S512x512x81, .f32⟩
  | 30 => ⟨S_, .f32⟩
  | 31 => ⟨S512x512x81, .f32⟩
  | 32 => ⟨S512x512x81, .i1⟩
  | 33 => ⟨S_, .f32⟩
  | 34 => ⟨S_, .f32⟩
  | 35 => ⟨S512x512x81, .f32⟩
  | 36 => ⟨S512x512x81, .f32⟩
  | 37 => ⟨S512x512x81, .f32⟩
  | 38 => ⟨S_, .f32⟩
  | 39 => ⟨S512x512x81, .f32⟩
  | 40 => ⟨S512x512x81, .i1⟩
  | 41 => ⟨S_, .f32⟩
  | 42 => ⟨S_, .f32⟩
  | 43 => ⟨S512x512x81, .f32⟩
  | 44 => ⟨S512x512x81, .f32⟩
  | 45 => ⟨S_, .f32⟩
  | 46 => ⟨S512x512x81, .f32⟩
  | 47 => ⟨S512x512x81, .f32⟩
  | 48 => ⟨S512x1, .i32⟩
  | 49 => ⟨S1x512, .i32⟩
  | 50 => ⟨S_, .i32⟩
  | 51 => ⟨S512x1, .i32⟩
  | 52 => ⟨S512x1, .i1⟩
  | 53 => ⟨S_, .i32⟩
  | 54 => ⟨S512x1, .i32⟩
  | 55 => ⟨S512x1, .i32⟩
  | 56 => ⟨S512x1, .i32⟩
  | 57 => ⟨S_, .i32⟩
  | 58 => ⟨S1x512, .i32⟩
  | 59 => ⟨S1x512, .i1⟩
  | 60 => ⟨S_, .i32⟩
  | 61 => ⟨S1x512, .i32⟩
  | 62 => ⟨S1x512, .i32⟩
  | 63 => ⟨S1x512, .i32⟩
  | 64 => ⟨S512x512, .i32⟩
  | 65 => ⟨S512x512, .i32⟩
  | 66 => ⟨S512x512x1, .i32⟩
  | 67 => ⟨S512x512x1, .i32⟩
  | 68 => ⟨S512x512x2, .i32⟩
  | 69 => ⟨S512x512x12, .f32⟩
  | 70 => ⟨S_, .f32⟩
  | 71 => ⟨S512x512x81, .f32⟩
  | 72 => ⟨S512x512x81, .f32⟩
  | 73 => ⟨S512x512x1, .f32⟩
  | 74 => ⟨S512x512, .f32⟩
  | 75 => ⟨S512x512x1, .f32⟩
  | 76 => ⟨S512x512x81, .f32⟩
  | 77 => ⟨S512x512x81, .f32⟩
  | 78 => ⟨S512x512x81, .f32⟩
  | 79 => ⟨S512x512x1, .f32⟩
  | 80 => ⟨S512x512, .f32⟩
  | 81 => ⟨S512x512x1, .f32⟩
  | 82 => ⟨S512x512x81, .f32⟩
  | 83 => ⟨S512x512x81, .f32⟩
  | 84 => ⟨S512x512x81, .f32⟩
  | 85 => ⟨S512x512x1, .f32⟩
  | 86 => ⟨S512x512, .f32⟩
  | 87 => ⟨S512x512x1, .f32⟩
  | 88 => ⟨S512x512x81, .f32⟩
  | 89 => ⟨S512x512x81, .f32⟩
  | 90 => ⟨S512x512x81, .f32⟩
  | 91 => ⟨S512x512x1, .f32⟩
  | 92 => ⟨S512x512, .f32⟩
  | 93 => ⟨S512x512x1, .f32⟩
  | 94 => ⟨S512x512x81, .f32⟩
  | 95 => ⟨S512x512x81, .f32⟩
  | 96 => ⟨S512x512x81, .f32⟩
  | 97 => ⟨S512x512x1, .f32⟩
  | 98 => ⟨S512x512, .f32⟩
  | 99 => ⟨S512x512x1, .f32⟩
  | 100 => ⟨S512x512x81, .f32⟩
  | 101 => ⟨S512x512x81, .f32⟩
  | 102 => ⟨S512x512x81, .f32⟩
  | 103 => ⟨S512x512x1, .f32⟩
  | 104 => ⟨S512x512, .f32⟩
  | 105 => ⟨S512x512x1, .f32⟩
  | 106 => ⟨S512x512x81, .f32⟩
  | 107 => ⟨S512x512x81, .f32⟩
  | 108 => ⟨S512x512x81, .f32⟩
  | 109 => ⟨S512x512x1, .f32⟩
  | 110 => ⟨S512x512, .f32⟩
  | 111 => ⟨S512x512x1, .f32⟩
  | 112 => ⟨S512x512x81, .f32⟩
  | 113 => ⟨S512x512x81, .f32⟩
  | 114 => ⟨S512x512x81, .f32⟩
  | 115 => ⟨S512x512x1, .f32⟩
  | 116 => ⟨S512x512, .f32⟩
  | 117 => ⟨S512x512x1, .f32⟩
  | 118 => ⟨S512x512x81, .f32⟩
  | 119 => ⟨S512x512x81, .f32⟩
  | 120 => ⟨S512x512x81, .f32⟩
  | 121 => ⟨S512x512x1, .f32⟩
  | 122 => ⟨S512x512, .f32⟩
  | 123 => ⟨S512x512x1, .f32⟩
  | 124 => ⟨S512x512x81, .f32⟩
  | 125 => ⟨S512x512x81, .f32⟩
  | 126 => ⟨S512x512x81, .f32⟩
  | 127 => ⟨S512x512x1, .f32⟩
  | _ => ⟨S512x3, .f32⟩

abbrev hbmTy0_1 (i : Nat) : BufTy := match i % 128 with
  | 0 => ⟨S512x512, .f32⟩
  | 1 => ⟨S512x512x1, .f32⟩
  | 2 => ⟨S512x512x81, .f32⟩
  | 3 => ⟨S512x512x81, .f32⟩
  | 4 => ⟨S512x512x81, .f32⟩
  | 5 => ⟨S512x512x1, .f32⟩
  | 6 => ⟨S512x512, .f32⟩
  | 7 => ⟨S512x512x1, .f32⟩
  | 8 => ⟨S512x512x81, .f32⟩
  | 9 => ⟨S512x512x81, .f32⟩
  | 10 => ⟨S512x512x81, .f32⟩
  | 11 => ⟨S512x512x1, .f32⟩
  | 12 => ⟨S512x512, .f32⟩
  | 13 => ⟨S512x512x1, .f32⟩
  | 14 => ⟨S512x512x81, .f32⟩
  | 15 => ⟨S512x512x81, .f32⟩
  | 16 => ⟨S_, .f32⟩
  | 17 => ⟨S512x512x81, .f32⟩
  | 18 => ⟨S512x512x81, .i1⟩
  | 19 => ⟨S_, .f32⟩
  | 20 => ⟨S512x512x81, .f32⟩
  | 21 => ⟨S512x512x81, .i1⟩
  | 22 => ⟨S512x512x81, .i1⟩
  | 23 => ⟨S_, .f32⟩
  | 24 => ⟨S_, .f32⟩
  | 25 => ⟨S512x512x81, .f32⟩
  | 26 => ⟨S512x512x81, .f32⟩
  | 27 => ⟨S3x3, .f32⟩
  | 28 => ⟨S32x3, .f32⟩
  | 29 => ⟨S3x81, .f32⟩
  | 30 => ⟨S32x81, .f32⟩
  | 31 => ⟨S_, .f32⟩
  | 32 => ⟨S32x81, .f32⟩
  | 33 => ⟨S32x81, .f32⟩
  | 34 => ⟨S32x81, .f32⟩
  | 35 => ⟨S32x512x512, .f32⟩
  | 36 => ⟨S32x81, .f32⟩
  | 37 => ⟨S32x512x512, .f32⟩
  | 38 => ⟨S_, .i32⟩
  | 39 => ⟨S512, .i32⟩
  | 40 => ⟨S512, .i1⟩
  | 41 => ⟨S_, .i32⟩
  | 42 => ⟨S512, .i32⟩
  | 43 => ⟨S512, .i32⟩
  | 44 => ⟨S512, .i32⟩
  | 45 => ⟨S512x1, .i32⟩
  | 46 => ⟨S512, .f32⟩
  | 47 => ⟨S_, .f32⟩
  | 48 => ⟨S512, .f32⟩
  | 49 => ⟨S512x512, .i32⟩
  | 50 => ⟨S512x512, .i32⟩
  | 51 => ⟨S_, .i32⟩
  | 52 => ⟨S512x512, .i32⟩
  | 53 => ⟨S512x512, .i32⟩
  | 54 => ⟨S512x512, .i1⟩
  | 55 => ⟨S512x1, .f32⟩
  | 56 => ⟨S_, .f32⟩
  | 57 => ⟨S512x512, .f32⟩
  | 58 => ⟨S512x512, .f32⟩
  | 59 => ⟨S512x512, .f32⟩
  | 60 => ⟨S1x512x512, .f32⟩
  | 61 => ⟨S32x512x512, .f32⟩
  | 62 => ⟨S32x512x512, .f32⟩
  | 63 => ⟨S1x32x512x512, .f32⟩
  | 64 => ⟨S1x32x512x512, .f32⟩
  | 65 => ⟨S2x32x512x512, .f32⟩
  | _ => ⟨S512x3, .f32⟩

abbrev hbmTy (i : Nat) : BufTy := match i / 128 with
  | 0 => hbmTy0_0 i
  | 1 => hbmTy0_1 i
  | _ => ⟨S512x3, .f32⟩

abbrev bufTy : (tb : Table) → Fin (tcTables nBuf tb) → BufTy
  | .hbm, ⟨i, _⟩ => hbmTy i
  | _, _ => ⟨S512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_10 : Ref sig .tc := ⟨.hbm, 144, rfl⟩
abbrev main_v122 : Ref sig .tc := ⟨.hbm, 145, rfl⟩
abbrev main_v123 : Ref sig .tc := ⟨.hbm, 146, rfl⟩
abbrev main_cst_11 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_12 : Ref sig .tc := ⟨.hbm, 151, rfl⟩
abbrev main_call2_v0 : Ref sig .tc := ⟨.hbm, 152, rfl⟩
abbrev main_call2_v1 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_13 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_c_14 : Ref sig .tc := ⟨.hbm, 166, rfl⟩
abbrev main_v138 : Ref sig .tc := ⟨.hbm, 167, rfl⟩
abbrev main_v139 : Ref sig .tc := ⟨.hbm, 168, rfl⟩
abbrev main_c_15 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_call3_cst : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_call3_c : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_v6 : Ref sig .tc := ⟨.hbm, 183, rfl⟩
abbrev main_call3_cst_0 : Ref sig .tc := ⟨.hbm, 184, rfl⟩
abbrev main_call3_call0_v0 : Ref sig .tc := ⟨.hbm, 185, rfl⟩
abbrev main_call3_call0_v1 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩

abbrev nD : Nat := 1
abbrev τ : Topo := Topo.v7x

variable {F : FTy → Type} [FloatOps F]

class Facts₀ : Prop where
  bcast_S512x3_S1x512x1x3_1_3 : S512x3.BroadcastsInDim S1x512x1x3 (![1, 3] : Fin 2 → Fin S1x512x1x3.rank)
  bcast_S81x3_S1x1x81x3_2_3 : S81x3.BroadcastsInDim S1x1x81x3 (![2, 3] : Fin 2 → Fin S1x1x81x3.rank)
  bcast_S1x512x1x3_S1x512x81x3_0_1_2_3 : S1x512x1x3.BroadcastsInDim S1x512x81x3 (![0, 1, 2, 3] : Fin 4 → Fin S1x512x81x3.rank)
  bcast_S1x1x81x3_S1x512x81x3_0_1_2_3 : S1x1x81x3.BroadcastsInDim S1x512x81x3 (![0, 1, 2, 3] : Fin 4 → Fin S1x512x81x3.rank)
  bcast_S512x3_S512x3x1_0_1 : S512x3.BroadcastsInDim S512x3x1 (![0, 1] : Fin 2 → Fin S512x3x1.rank)
  bcast_S512x3x1_S512x1x3x1_0_2_3 : S512x3x1.BroadcastsInDim S512x1x3x1 (![0, 2, 3] : Fin 3 → Fin S512x1x3x1.rank)
  shapeCasts_S512x1x3x1_S512x1x1x3 : S512x1x3x1.ShapeCasts S512x1x1x3
  bcast_S1x512x81x3_S512x512x81x3_0_1_2_3 : S1x512x81x3.BroadcastsInDim S512x512x81x3 (![0, 1, 2, 3] : Fin 4 → Fin S512x512x81x3.rank)
  bcast_S512x1x1x3_S512x512x81x3_0_1_2_3 : S512x1x1x3.BroadcastsInDim S512x512x81x3 (![0, 1, 2, 3] : Fin 4 → Fin S512x512x81x3.rank)
  bcast_S512x3_S512x1x1x3_0_3 : S512x3.BroadcastsInDim S512x1x1x3 (![0, 3] : Fin 2 → Fin S512x1x1x3.rank)
  reducesTo_S512x512x81x3_S512x512x81_d3 : S512x512x81x3.ReducesTo [3] S512x512x81
  h_S_ : 0 < S_.numel
  bcast_S_S512x512x81 : S_.BroadcastsInDim S512x512x81 (![] : Fin 0 → Fin S512x512x81.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  slices_S512x512x12_S512x512x1_0_0_11 : S512x512x12.Slices ![0, 0, 11] S512x512x1
  shapeCasts_S512x512x1_S512x512 : S512x512x1.ShapeCasts S512x512
  bcast_S512x512x1_S512x512x81_0_1_2 : S512x512x1.BroadcastsInDim S512x512x81 (![0, 1, 2] : Fin 3 → Fin S512x512x81.rank)
  slices_S512x512x12_S512x512x1_0_0_10 : S512x512x12.Slices ![0, 0, 10] S512x512x1
  slices_S512x512x12_S512x512x1_0_0_9 : S512x512x12.Slices ![0, 0, 9] S512x512x1
  slices_S512x512x12_S512x512x1_0_0_8 : S512x512x12.Slices ![0, 0, 8] S512x512x1
  slices_S512x512x12_S512x512x1_0_0_7 : S512x512x12.Slices ![0, 0, 7] S512x512x1
  slices_S512x512x12_S512x512x1_0_0_6 : S512x512x12.Slices ![0, 0, 6] S512x512x1
  slices_S512x512x12_S512x512x1_0_0_5 : S512x512x12.Slices ![0, 0, 5] S512x512x1
  slices_S512x512x12_S512x512x1_0_0_4 : S512x512x12.Slices ![0, 0, 4] S512x512x1
  slices_S512x512x12_S512x512x1_0_0_3 : S512x512x12.Slices ![0, 0, 3] S512x512x1
  slices_S512x512x12_S512x512x1_0_0_2 : S512x512x12.Slices ![0, 0, 2] S512x512x1
  slices_S512x512x12_S512x512x1_0_0_1 : S512x512x12.Slices ![0, 0, 1] S512x512x1
  slices_S512x512x12_S512x512x1_0_0_0 : S512x512x12.Slices ![0, 0, 0] S512x512x1
  transposes_S3x3_S3x3_1_0 : S3x3.Transposes [1, 0] S3x3
  transposes_S81x3_S3x81_1_0 : S81x3.Transposes [1, 0] S3x81
  bcast_S_S32x81 : S_.BroadcastsInDim S32x81 (![] : Fin 0 → Fin S32x81.rank)
  bcast_S_S512 : S_.BroadcastsInDim S512 (![] : Fin 0 → Fin S512.rank)
  pads_S512_S512_000 : S512.Pads (![0] : Fin 1 → Nat) ![0] ![0] S512
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  bcast_S32x512x512_S1x32x512x512_1_2_3 : S32x512x512.BroadcastsInDim S1x32x512x512 (![1, 2, 3] : Fin 3 → Fin S1x32x512x512.rank)
  concatenates_S1x32x512x512_S1x32x512x512_S2x32x512x512_d0 : Shape.Concatenates [S1x32x512x512, S1x32x512x512] S2x32x512x512 0
  gather_S4x4x12_S512x512x2_S512x512x12_2_01_n_n_01_2_1112_wf : GatherDims.WF S4x4x12 S512x512x2 S512x512x12 [2] [0, 1] [] [0, 1] [] 2 ![1, 1, 12]
  dot_S32x3_S3x3_S32x3_1_0_0_1_n_n_wf : DotDims.WF S32x3 S3x3 S32x3 [1] [0] [0] [1] [] []
  dot_S32x3_S3x81_S32x81_1_0_0_1_n_n_wf : DotDims.WF S32x3 S3x81 S32x81 [1] [0] [0] [1] [] []
  dot_S32x81_S512x512x81_S32x512x512_1_2_0_01_n_n_wf : DotDims.WF S32x81 S512x512x81 S32x512x512 [1] [2] [0] [0, 1] [] []
  gather_S4_S512x1_S512_n_0_n_n_0_1_1_wf : GatherDims.WF S4 S512x1 S512 [] [0] [] [0] [] 1 ![1]

variable [Facts₀]

def gather_S4x4x12_S512x512x2_S512x512x12_2_01_n_n_01_2_1112 : GatherDims S4x4x12 S512x512x2 S512x512x12 where
  offsetDims := [2]
  collapsedSliceDims := [0, 1]
  operandBatchingDims := []
  startIndicesBatchingDims := []
  startIndexMap := [0, 1]
  indexVectorDim := 2
  sliceSizes := ![1, 1, 12]
  wf := gather_S4x4x12_S512x512x2_S512x512x12_2_01_n_n_01_2_1112_wf
def dot_S32x3_S3x3_S32x3_1_0_0_1_n_n : DotDims S32x3 S3x3 S32x3 where
  lhsContracting := [1]
  rhsContracting := [0]
  lhsNonContracting := [0]
  rhsNonContracting := [1]
  lhsBatch := []
  rhsBatch := []
  wf := dot_S32x3_S3x3_S32x3_1_0_0_1_n_n_wf
def dot_S32x3_S3x81_S32x81_1_0_0_1_n_n : DotDims S32x3 S3x81 S32x81 where
  lhsContracting := [1]
  rhsContracting := [0]
  lhsNonContracting := [0]
  rhsNonContracting := [1]
  lhsBatch := []
  rhsBatch := []
  wf := dot_S32x3_S3x81_S32x81_1_0_0_1_n_n_wf
def dot_S32x81_S512x512x81_S32x512x512_1_2_0_01_n_n : DotDims S32x81 S512x512x81 S32x512x512 where
  lhsContracting := [1]
  rhsContracting := [2]
  lhsNonContracting := [0]
  rhsNonContracting := [0, 1]
  lhsBatch := []
  rhsBatch := []
  wf := dot_S32x81_S512x512x81_S32x512x512_1_2_0_01_n_n_wf
def gather_S4_S512x1_S512_n_0_n_n_0_1_1 : GatherDims S4 S512x1 S512 where
  offsetDims := []
  collapsedSliceDims := [0]
  operandBatchingDims := []
  startIndicesBatchingDims := []
  startIndexMap := [0]
  indexVectorDim := 1
  sliceSizes := ![1]
  wf := gather_S4_S512x1_S512_n_0_n_n_0_1_1_wf

class Facts : Prop extends Facts₀ where

variable [Facts]
-- ==== Proof.KRun.lean ====
import proofs.«129299_j34935263986162_1_alg».proof.Proof.Gen.KernelIdeal.Launch
import proofs.«129299_j34935263986162_1_alg».proof.Proof.Gen.KernelIdeal.Skeleton
import proofs.«129299_j34935263986162_1_alg».proof.Proof.Gen.KernelIdeal.Points
import Idealize.ShloMosaic.Lib.Pipeline.FrameBody
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation. -/
abbrev V₀ (c : Dev nD) : Valuation τ sig (Elt F) := fun b => m (c, b)

/-- Core `c`'s buffers when the region is entered: the host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is through one of these literal rectangles -/

abbrev rA : Rect S32x3 := Rect.unit (s := S32x3) ![0, 0] S32x3.size inb_S32x3_S32x3_0_0
abbrev rB : Rect S128x3 := Rect.unit (s := S128x3) ![0, 0] S128x3.size inb_S128x3_S128x3_0_0
abbrev rC : Rect S81x3 := Rect.unit (s := S81x3) ![0, 0] S81x3.size inb_S81x3_S81x3_0_0
abbrev rD : Rect S81x32 := Rect.unit (s := S81x32) ![0, 0] S81x32.size inb_S81x32_S81x32_0_0
abbrev rO : Rect S32x32x128 := Rect.unit (s := S32x32x128) ![0, 0, 0] S32x32x128.size inb_S32x32x128_S32x32x128_0_0_0
abbrev rP0 : Rect S12x32x128 := Rect.unit (s := S12x32x128) ![0, 0, 0] S1x32x128.size inb_S12x32x128_S1x32x128_0_0_0
abbrev rP1 : Rect S12x32x128 := Rect.unit (s := S12x32x128) ![1, 0, 0] S1x32x128.size inb_S12x32x128_S1x32x128_1_0_0
abbrev rP2 : Rect S12x32x128 := Rect.unit (s := S12x32x128) ![2, 0, 0] S1x32x128.size inb_S12x32x128_S1x32x128_2_0_0
abbrev rP3 : Rect S12x32x128 := Rect.unit (s := S12x32x128) ![3, 0, 0] S1x32x128.size inb_S12x32x128_S1x32x128_3_0_0
abbrev rP4 : Rect S12x32x128 := Rect.unit (s := S12x32x128) ![4, 0, 0] S1x32x128.size inb_S12x32x128_S1x32x128_4_0_0
abbrev rP5 : Rect S12x32x128 := Rect.unit (s := S12x32x128) ![5, 0, 0] S1x32x128.size inb_S12x32x128_S1x32x128_5_0_0
abbrev rP6 : Rect S12x32x128 := Rect.unit (s := S12x32x128) ![6, 0, 0] S1x32x128.size inb_S12x32x128_S1x32x128_6_0_0
abbrev rP7 : Rect S12x32x128 := Rect.unit (s := S12x32x128) ![7, 0, 0] S1x32x128.size inb_S12x32x128_S1x32x128_7_0_0
abbrev rP8 : Rect S12x32x128 := Rect.unit (s := S12x32x128) ![8, 0, 0] S1x32x128.size inb_S12x32x128_S1x32x128_8_0_0
abbrev rP9 : Rect S12x32x128 := Rect.unit (s := S12x32x128) ![9, 0, 0] S1x32x128.size inb_S12x32x128_S1x32x128_9_0_0
abbrev rP10 : Rect S12x32x128 := Rect.unit (s := S12x32x128) ![10, 0, 0] S1x32x128.size inb_S12x32x128_S1x32x128_10_0_0
abbrev rP11 : Rect S12x32x128 := Rect.unit (s := S12x32x128) ![11, 0, 0] S1x32x128.size inb_S12x32x128_S1x32x128_11_0_0

/-! ## What the body computes from the six input blocks, payload by payload

`x0 … x5` are the contents of the input windows' staging buffers (windows 0 … 5). -/

def p37 (x0 : Vec F S32x3 .f32) (x1 : Vec F S128x3 .f32) (x2 : Vec F S81x3 .f32) : FVec F S32x128x81 .f32 :=
  k0_pay4 (View.ld x0 rA) (View.ld x1 rB) (View.ld x2 rC)
def p40 (x0 : Vec F S32x3 .f32) : FVec F S32x1x1 .f32 := k0_pay5 (View.ld x0 rA)
def p50 (x1 : Vec F S128x3 .f32) (x2 : Vec F S81x3 .f32) : FVec F S32x128x81 .f32 := k0_pay6 (View.ld x1 rB) (View.ld x2 rC)
def p63 (x0 : Vec F S32x3 .f32) (x1 : Vec F S128x3 .f32) (x2 : Vec F S81x3 .f32) : FVec F S32x128x81 .f32 :=
  k0_pay7 (p37 x0 x1 x2) (p40 x0) (p50 x1 x2)
def p65 (x0 : Vec F S32x3 .f32) (x1 : Vec F S128x3 .f32) (x2 : Vec F S81x3 .f32) : FVec F S32x128x81 .f32 :=
  k0_pay8 (p37 x0 x1 x2) (p40 x0) (p50 x1 x2)
def p90 (x0 : Vec F S32x3 .f32) (x1 : Vec F S128x3 .f32) (x2 : Vec F S81x3 .f32) (x3 : Vec F S12x32x128 .f32) : FVec F S32x128x81 .f32 :=
  k0_pay9 (p37 x0 x1 x2) (p40 x0) (p50 x1 x2) (View.ld x3 rP11) (View.ld x3 rP10) (View.ld x3 rP9) (View.ld x3 rP8)
def p130 (x0 : Vec F S32x3 .f32) (x1 : Vec F S128x3 .f32) (x2 : Vec F S81x3 .f32) (x3 : Vec F S12x32x128 .f32) : FVec F S32x128x81 .f32 :=
  k0_pay10 (p65 x0 x1 x2) (p90 x0 x1 x2 x3) (View.ld x3 rP7) (View.ld x3 rP6) (View.ld x3 rP5) (View.ld x3 rP4) (View.ld x3 rP3) (View.ld x3 rP2)
def p131 (x3 : Vec F S12x32x128 .f32) : FVec F S32x128x81 .f32 := k0_pay11 (View.ld x3 rP1)

/-- What the body stores into output window 6's buffer, -/
def pay6 (x0 : Vec F S32x3 .f32) (x1 : Vec F S128x3 .f32) (x2 : Vec F S81x3 .f32) (x3 : Vec F S12x32x128 .f32) (x4 : Vec F S81x32 .f32) : FVec F S32x32x128 .f32 :=
  k0_pay2 (p63 x0 x1 x2) (p65 x0 x1 x2) (p130 x0 x1 x2 x3) (p131 x3) (View.ld x3 rP0) (View.ld x4 rD)
/-- and into output window 7's. -/
def pay7 (x0 : Vec F S32x3 .f32) (x1 : Vec F S128x3 .f32) (x2 : Vec F S81x3 .f32) (x3 : Vec F S12x32x128 .f32) (x5 : Vec F S81x32 .f32) : FVec F S32x32x128 .f32 :=
  k0_pay3 (p63 x0 x1 x2) (p65 x0 x1 x2) (p130 x0 x1 x2 x3) (p131 x3) (View.ld x3 rP0) (View.ld x5 rD)

/-- Window 6's staging buffer after the body: its one store, through the whole block. -/
def body6 (x0 : Vec F S32x3 .f32) (x1 : Vec F S128x3 .f32) (x2 : Vec F S81x3 .f32) (x3 : Vec F S12x32x128 .f32) (x4 : Vec F S81x32 .f32) : Vec F S32x32x128 .f32 :=
  View.canon [⟨rO, pay6 x0 x1 x2 x3 x4⟩]
/-- Window 7's staging buffer after the body: its one store, through the whole block. -/
def body7 (x0 : Vec F S32x3 .f32) (x1 : Vec F S128x3 .f32) (x2 : Vec F S81x3 .f32) (x3 : Vec F S12x32x128 .f32) (x5 : Vec F S81x32 .f32) : Vec F S32x32x128 .f32 :=
  View.canon [⟨rO, pay7 x0 x1 x2 x3 x5⟩]

/-- The one store covers the block. -/
theorem coverO (p0 : Vec F S32x32x128 .f32) (y : S32x32x128.Idx) :
    ∃ pc ∈ ([⟨rO, p0⟩] : List (View.Piece (Elt F) S32x32x128 .f32)), y ∈ pc.1.set :=
  View.cover_of_tiled [⟨rO, p0⟩] S32x32x128.size (by rfl) y

/-- What point `t` leaves in output window 6's buffer, from the point's input blocks; -/
def out6 (c : Dev nD) (t : Fin cfg0.N) : Vec F S32x32x128 .f32 :=
  body6 (iblk m c 0 t) (iblk m c 1 t) (iblk m c 2 t) (iblk m c 3 t) (iblk m c 4 t)
/-- and in output window 7's. -/
def out7 (c : Dev nD) (t : Fin cfg0.N) : Vec F S32x32x128 .f32 :=
  body7 (iblk m c 0 t) (iblk m c 1 t) (iblk m c 2 t) (iblk m c 3 t) (iblk m c 5 t)

/-! ## The pipeline's proof data -/

/-- The proof data of the one pipeline on core `c`: the arrays as the region finds them; after the body at point `t` each
    input's buffer at its block and each output's at what the body stored; the invariant the scoped rest and the generator
    register; nothing owed. Windows 0 and 1 read ONE array: each holds half of it; every other input the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; dsimp only [dats]; rfl
theorem share4 (c : Dev nD) : (dats m 0 c).share 4 = fullShare := by unfold Dat.share; dsimp only [dats]; rfl
theorem share5 (c : Dev nD) : (dats m 0 c).share 5 = fullShare := by unfold Dat.share; dsimp only [dats]; rfl
theorem share6 (c : Dev nD) : (dats m 0 c).share 6 = fullShare := by unfold Dat.share; rfl
theorem share7 (c : Dev nD) : (dats m 0 c).share 7 = fullShare := by unfold Dat.share; rfl

/-! ## What the body finds in the inputs' buffers -/

/-- Input window 0's current staging buffer holds its block at every point, fetched there or not: unfetched, the block index
    has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not: unfetched, the block index
    has not moved and the body left the block in place. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not: unfetched, the block index
    has not moved and the body left the block in place. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not: unfetched, the block index
    has not moved and the body left the block in place. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not: unfetched, the block index
    has not moved and the body left the block in place. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not: unfetched, the block index
    has not moved and the body left the block in place. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

end Cert.KernelIdeal.KRun

end
-- ==== Proof.KRunSplit.lean ====
import proofs.«129299_j34935263986162_1_alg».proof.Proof.Gen.KernelIdeal.Launch
import proofs.«129299_j34935263986162_1_alg».proof.Proof.Gen.KernelIdeal.Skeleton
import proofs.«129299_j34935263986162_1_alg».proof.Proof.Gen.KernelIdeal.Points
import proofs.«129299_j34935263986162_1_alg».proof.Proof.KRun
import Idealize.ShloMosaic.Lib.Pipeline.Regions

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## One array behind two input windows: the buffers behind the arrays and the pipeline's arrays -/

/-- The distinct buffers behind the eight windows' arrays are seven. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0)
          ∗ (((c : Thread nD τ).loc main_arg5) ↦{fullShare} V' main_arg5)
          ∗ (((c : Thread nD τ).loc main_v18) ↦{fullShare} V' main_v18)
          ∗ (((c : Thread nD τ).loc main_v26) ↦{fullShare} V' main_v26)
          ∗ (((c : Thread nD τ).loc main_v28) ↦{fullShare} V' main_v28)
          ∗ (((c : Thread nD τ).loc main_v29_0) ↦{fullShare} V' main_v29_0)
          ∗ (((c : Thread nD τ).loc main_v29_1) ↦{fullShare} V' main_v29_1)) := by
  unfold Pipeline.arrBufs
  rw [bigSep_eq_bigSepL_of_eq [main_arg0, main_arg5, main_v18, main_v26, main_v28, main_v29_0, main_v29_1] (by decide +kernel) (by decide +kernel)]
  rfl

set_option maxHeartbeats 2000000 in
/-- The pipeline's arrays at contents `G`, window by window: windows 0 and 1 each hold a half of the one array they read. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0)
          ∗ (((c : Thread nD τ).loc main_arg0) ↦{fullShare.right} G 1)
          ∗ (((c : Thread nD τ).loc main_arg5) ↦{fullShare} G 2)
          ∗ (((c : Thread nD τ).loc main_v18) ↦{fullShare} G 3)
          ∗ (((c : Thread nD τ).loc main_v26) ↦{fullShare} G 4)
          ∗ (((c : Thread nD τ).loc main_v28) ↦{fullShare} G 5)
          ∗ (((c : Thread nD τ).loc main_v29_0) ↦{fullShare} G 6)
          ∗ (((c : Thread nD τ).loc main_v29_1) ↦{fullShare} G 7)) := by
  unfold Dat.arrays
  rw [bigSep_W0, share0, share1, share2, share3, share4, share5, share6, share7,
    (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]

/-- The seven buffers at contents `V'`, each whole, ARE the eight windows' arrays at the contents read off `V'`: the one
    array behind windows 0 and 1 splits into its two halves, and the halves join back. -/
theorem arrays_iff_arrBufs (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊣⊢ (dats m 0 c).arrays fun w => V' (Pipeline.arrRef spec0 w) := by
  rw [arrBufs_list, arrays_list]
  constructor
  · iintro ⟨H0, H2, H3, H4, H5, H6, H7⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    isplitl [H6]; · iexact H6
    iexact H7
  · iintro ⟨Hl, Hr, H2, H3, H4, H5, H6, H7⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    isplitl [H6]; · iexact H6
    iexact H7

end Cert.KernelIdeal.KRun

end
-- ==== Proof.KRunBody.lean ====
import proofs.«129299_j34935263986162_1_alg».proof.Proof.Gen.KernelIdeal.Launch
import proofs.«129299_j34935263986162_1_alg».proof.Proof.Gen.KernelIdeal.Skeleton
import proofs.«129299_j34935263986162_1_alg».proof.Proof.Gen.KernelIdeal.Points
import proofs.«129299_j34935263986162_1_alg».proof.Proof.KRun

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body's triple -/

set_option maxHeartbeats 4000000 in
/-- The kernel body on whole staging memrefs, the six inputs' at read contents `x0 … x5` and the two outputs' at anything, runs
    to the continuation holding the inputs' as they were and the outputs' at `body6` / `body7` of the inputs': the body is its
    four parts in sequence, each a line of loads, then the loads and the two whole-block stores of the root. -/
theorem sound_kernel (c : Dev nD) (E : Set ℕ) (i : grid0.Coords) (arg2 : Memref sig .tc .vmem S32x3 .f32) (harg2 : arg2.IsWhole) (arg3 : Memref sig .tc .vmem S128x3 .f32) (harg3 : arg3.IsWhole) (arg4 : Memref sig .tc .vmem S81x3 .f32) (harg4 : arg4.IsWhole) (arg5 : Memref sig .tc .vmem S12x32x128 .f32) (harg5 : arg5.IsWhole) (arg6 : Memref sig .tc .vmem S81x32 .f32) (harg6 : arg6.IsWhole) (arg7 : Memref sig .tc .vmem S81x32 .f32) (harg7 : arg7.IsWhole) (arg8 : Memref sig .tc .vmem S32x32x128 .f32) (harg8 : arg8.IsWhole) (arg9 : Memref sig .tc .vmem S32x32x128 .f32) (harg9 : arg9.IsWhole)
    (x0 : Vec F S32x3 .f32) (x1 : Vec F S128x3 .f32) (x2 : Vec F S81x3 .f32) (x3 : Vec F S12x32x128 .f32) (x4 : Vec F S81x32 .f32) (x5 : Vec F S81x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (body6 x0 x1 x2 x3 x4) ∗ owns (c : Thread nD τ) arg9 fullShare (body7 x0 x1 x2 x3 x5)) -∗ K ⟨⟩))
      ⊢ wp frame (wpE (defs₀ (F := F)) Variants.none c none) E (cc0__assembly_kernel i arg2 harg2 arg3 harg3 arg4 harg4 arg5 harg5 arg6 harg6 arg7 harg7 arg8 harg8 arg9 harg9) K := by
  simp only [cc0__assembly_kernel_eq_skeleton]; unfold cc0__assembly_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The body obligation, at a generic point -/

/-- What the body is called with at point `t`: the invariant, the core owing nothing, every window's current buffer; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the core's
    `owes` pass through unread, the outputs' buffers are taken at whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- The same as the pipeline's loop takes it. -/
theorem body_obligation_loose (c : Dev nD) : BodyObligationLoose (dats (F := F) m 0 c) (defs₀ (F := F)) Variants.none () Set.univ :=
  (body_obligation m c).loose

end Cert.KernelIdeal.KRun

end
-- ==== Proof.KRunMain.lean ====
import proofs.«129299_j34935263986162_1_alg».proof.Proof.Gen.KernelIdeal.Launch
import proofs.«129299_j34935263986162_1_alg».proof.Proof.Gen.KernelIdeal.Skeleton
import proofs.«129299_j34935263986162_1_alg».proof.Proof.Gen.KernelIdeal.Points
import proofs.«129299_j34935263986162_1_alg».proof.Proof.KRunSplit
import proofs.«129299_j34935263986162_1_alg».proof.Proof.KRunBody
import Idealize.ShloMosaic.Lib.Pipeline.Regions
import Idealize.ShloMosaic.Lib.Pipeline.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

variable (g : Dev nD → PrngReg)

/-! ## @main as three segments: the host operations before the region, the region, the host operations after it -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁

/-- What rides beside the buffers through the host operations: the core owing nothing, and its generator register. -/
abbrev R (c : Dev nD) : sProp 𝕄 :=
  iprop((∃ W, owes (c : Thread nD τ) (0 : CellTallies nD τ sig Unit) W) ∗ ∃ r, prngReg c r)

/-- Core `c`'s buffers when the region is left: as it found them, but the two output windows' arrays, which hold what the
    pipeline wrote back. Spelt as two more operations after the host operations before the region. -/
abbrev V₁ (c : Dev nD) : Valuation τ sig (Elt F) :=
  StableHlo.after [StableHlo.nullary main_v29_0 ((dats m 0 c).arrAt 6 cfg0.N), StableHlo.nullary main_v29_1 ((dats m 0 c).arrAt 7 cfg0.N)]
    (StableHlo.after hostOps0 (V₀ m c))

/-- and at the end: the host operations after the region have run. -/
abbrev V₂ (c : Dev nD) : Valuation τ sig (Elt F) := StableHlo.after hostOps1 (V₁ m c)

/-- A buffer that is neither output array is, when the region is left, as the region found it. -/
theorem V₁_of_ne (c : Dev nD) (b : Ref sig .tc) (h0 : b ≠ main_v29_0) (h1 : b ≠ main_v29_1) : V₁ m c b = V m c b :=
  (StableHlo.nullary_result_ne _ _ _ _ h1).trans (StableHlo.nullary_result_ne _ _ _ _ h0)

theorem V₁_out6 (c : Dev nD) : V₁ m c main_v29_0 = (dats m 0 c).arrAt 6 cfg0.N := by
  simp only [StableHlo.after_cons, StableHlo.after_nil]
  rw [StableHlo.nullary_result_ne _ _ _ _ (by decide : main_v29_0 ≠ main_v29_1), StableHlo.nullary_result]

theorem V₁_out7 (c : Dev nD) : V₁ m c main_v29_1 = (dats m 0 c).arrAt 7 cfg0.N := by
  simp only [StableHlo.after_cons, StableHlo.after_nil]
  rw [StableHlo.nullary_result]

/-- The arrays when the region is left, window by window: an input's as found, an output's as written back. -/
theorem arrAt_N (c : Dev nD) (w : Fin cfg0.W) : (dats m 0 c).arrAt w cfg0.N = V₁ m c (Pipeline.arrRef spec0 w) :=
  match w with
  | ⟨0, _⟩ => ((dats m 0 c).arrAt_in 0 rfl _).trans ((A_eq m c 0).trans (V₁_of_ne m c main_arg0 (by decide) (by decide)).symm)
  | ⟨1, _⟩ => ((dats m 0 c).arrAt_in 1 rfl _).trans ((A_eq m c 1).trans (V₁_of_ne m c main_arg0 (by decide) (by decide)).symm)
  | ⟨2, _⟩ => ((dats m 0 c).arrAt_in 2 rfl _).trans ((A_eq m c 2).trans (V₁_of_ne m c main_arg5 (by decide) (by decide)).symm)
  | ⟨3, _⟩ => ((dats m 0 c).arrAt_in 3 rfl _).trans ((A_eq m c 3).trans (V₁_of_ne m c main_v18 (by decide) (by decide)).symm)
  | ⟨4, _⟩ => ((dats m 0 c).arrAt_in 4 rfl _).trans ((A_eq m c 4).trans (V₁_of_ne m c main_v26 (by decide) (by decide)).symm)
  | ⟨5, _⟩ => ((dats m 0 c).arrAt_in 5 rfl _).trans ((A_eq m c 5).trans (V₁_of_ne m c main_v28 (by decide) (by decide)).symm)
  | ⟨6, _⟩ => (V₁_out6 m c).symm
  | ⟨7, _⟩ => (V₁_out7 m c).symm

/-! ## The segments -/

/-- The core's unscoped buffers split into the buffers behind the windows' arrays and the rest. -/
theorem unscopedBufs_eq (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec0 c V' ∗ Pipeline.unscopedRest spec0 c V') :=
  Pipeline.unscopedBufs_split₀ cfgs 0 winFacts₀0.arr_unscoped c V'

/-- The buffers that are no window's array are, when the region is left, as the region found them. -/
theorem unscopedRest_V₁ (c : Dev nD) :
    (Pipeline.unscopedRest (Ix := Unit) (Name := ℕ) (U := UR sig nD τ) (Lvl := ℕ) spec0 c (fun b => V₁ m c b) : sProp 𝕄)
      = Pipeline.unscopedRest spec0 c (V m c) := by
  unfold Pipeline.unscopedRest
  refine bigSep_congr fun b hb => ?_
  have hb' := (Finset.mem_sdiff.mp hb).2
  have h := V₁_of_ne m c b (fun h => hb' (Finset.mem_image.mpr ⟨6, Finset.mem_univ _, h ▸ rfl⟩))
    (fun h => hb' (Finset.mem_image.mpr ⟨7, Finset.mem_univ _, h ▸ rfl⟩))
  show (((c : Thread nD τ).loc b) ↦{fullShare} V₁ m c b : sProp 𝕄) = _
  rw [h]

/-- THE HOST SEGMENT before the region: its operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- THE HOST SEGMENT after the region, from the buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

set_option backward.isDefEq.respectTransparency.types false in
/-- THE REGION: entered from what the first host segment left — the buffers behind the windows' arrays into the pipeline (the
    one array behind windows 0 and 1 as its two halves), the generator register into the invariant, every other buffer
    bypassing —, left with the halves joined back and the two output arrays at what the pipeline wrote. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := body_obligation_loose m c
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      unscopedBufs_eq, show (fun w => (dats m 0 c).arrAt w 0) = fun w => V m c (Pipeline.arrRef spec0 w) from funext (A_eq m c)]
    iintro ⟨⟨⟨Ha, Hrest⟩, ⟨HO, Hp⟩⟩, -, -⟩
    imodintro
    isplitl [Ha]; · iapply (arrays_iff_arrBufs m c (V m c)).1; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (V₁ m c) = unscopedBufs c (fun b => V₁ m c b) from (Pipeline.unscopedBufs_held c _).symm,
      unscopedBufs_eq, unscopedRest_V₁, show (fun w => (dats m 0 c).arrAt w cfg0.N) = fun w => V₁ m c (Pipeline.arrRef spec0 w) from funext (arrAt_N m c)]
    iintro ⟨Ha, HO, HY, HZ⟩
    imodintro
    isplitl [Ha HZ]
    · isplitl [Ha]; · iapply (arrays_iff_arrBufs m c (fun b => V₁ m c b)).2; iexact Ha
      iexact HZ
    isplitl [HO]
    · unfold Pipeline.Dat.owesAt Pipeline.owesWithin
      icases HO with ⟨%W, -, HO⟩; iexists W; iexact HO
    iexact HY

/-! ## The arguments at the end -/

/-- No host operation writes `main_arg0`, and it is no output array: it ends as launched. -/
theorem V₂_main_arg0 (c : Dev nD) : V₂ m c main_arg0 = m ((c : Thread nD τ).loc main_arg0) :=
  (StableHlo.after_of_forall_not_mem (b := Proc.devRef .tc main_arg0) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg0 (by decide) (by decide)).trans
  (StableHlo.after_of_forall_not_mem (b := Proc.devRef .tc main_arg0) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg1`, and it is no output array: it ends as launched. -/
theorem V₂_main_arg1 (c : Dev nD) : V₂ m c main_arg1 = m ((c : Thread nD τ).loc main_arg1) :=
  (StableHlo.after_of_forall_not_mem (b := Proc.devRef .tc main_arg1) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg1 (by decide) (by decide)).trans
  (StableHlo.after_of_forall_not_mem (b := Proc.devRef .tc main_arg1) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg2`, and it is no output array: it ends as launched. -/
theorem V₂_main_arg2 (c : Dev nD) : V₂ m c main_arg2 = m ((c : Thread nD τ).loc main_arg2) :=
  (StableHlo.after_of_forall_not_mem (b := Proc.devRef .tc main_arg2) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg2 (by decide) (by decide)).trans
  (StableHlo.after_of_forall_not_mem (b := Proc.devRef .tc main_arg2) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg3`, and it is no output array: it ends as launched. -/
theorem V₂_main_arg3 (c : Dev nD) : V₂ m c main_arg3 = m ((c : Thread nD τ).loc main_arg3) :=
  (StableHlo.after_of_forall_not_mem (b := Proc.devRef .tc main_arg3) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg3 (by decide) (by decide)).trans
  (StableHlo.after_of_forall_not_mem (b := Proc.devRef .tc main_arg3) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg4`, and it is no output array: it ends as launched. -/
theorem V₂_main_arg4 (c : Dev nD) : V₂ m c main_arg4 = m ((c : Thread nD τ).loc main_arg4) :=
  (StableHlo.after_of_forall_not_mem (b := Proc.devRef .tc main_arg4) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg4 (by decide) (by decide)).trans
  (StableHlo.after_of_forall_not_mem (b := Proc.devRef .tc main_arg4) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg5`, and it is no output array: it ends as launched. -/
theorem V₂_main_arg5 (c : Dev nD) : V₂ m c main_arg5 = m ((c : Thread nD τ).loc main_arg5) :=
  (StableHlo.after_of_forall_not_mem (b := Proc.devRef .tc main_arg5) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg5 (by decide) (by decide)).trans
  (StableHlo.after_of_forall_not_mem (b := Proc.devRef .tc main_arg5) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

theorem mem_main_v51 : (Proc.devRef .tc main_v51 : DevRef τ sig) ∈ Pipeline.ucRefs τ sig :=
  Finset.mem_filter.mpr ⟨StableHlo.devRef_mem_tcRefs _, by decide⟩
theorem mem_main_arg0 : (Proc.devRef .tc main_arg0 : DevRef τ sig) ∈ Pipeline.ucRefs τ sig :=
  Finset.mem_filter.mpr ⟨StableHlo.devRef_mem_tcRefs _, by decide⟩
theorem mem_main_arg1 : (Proc.devRef .tc main_arg1 : DevRef τ sig) ∈ Pipeline.ucRefs τ sig :=
  Finset.mem_filter.mpr ⟨StableHlo.devRef_mem_tcRefs _, by decide⟩
theorem mem_main_arg2 : (Proc.devRef .tc main_arg2 : DevRef τ sig) ∈ Pipeline.ucRefs τ sig :=
  Finset.mem_filter.mpr ⟨StableHlo.devRef_mem_tcRefs _, by decide⟩
theorem mem_main_arg3 : (Proc.devRef .tc main_arg3 : DevRef τ sig) ∈ Pipeline.ucRefs τ sig :=
  Finset.mem_filter.mpr ⟨StableHlo.devRef_mem_tcRefs _, by decide⟩
theorem mem_main_arg4 : (Proc.devRef .tc main_arg4 : DevRef τ sig) ∈ Pipeline.ucRefs τ sig :=
  Finset.mem_filter.mpr ⟨StableHlo.devRef_mem_tcRefs _, by decide⟩
theorem mem_main_arg5 : (Proc.devRef .tc main_arg5 : DevRef τ sig) ∈ Pipeline.ucRefs τ sig :=
  Finset.mem_filter.mpr ⟨StableHlo.devRef_mem_tcRefs _, by decide⟩

/-! ## The run -/

/-- @main as the list of the three. -/
abbrev segs : List (Pipeline.Seg (pcfgs (F := F)) adm (dats m) () defs₀ 𝒱₀ L lv) :=
  [.host (seg0 m), .region (reg0 m), .host (seg1 m)]

/-- What is left at the end: the unscoped buffers as the last host operations left them, and the generator register. -/
abbrev Tₙ (c : Dev nD) : sProp 𝕄 :=
  iprop(StableHlo.held (c : Thread nD τ) (Pipeline.ucRefs τ sig) (V₂ m c) ∗ ∃ r, prngReg c r)

set_option backward.isDefEq.respectTransparency.types false in
/-- At the compiled mesh, from any memory with zero counters: every weakly fair execution of @main on the TensorCores
    terminates, nothing faulting, and every final state has the result at what the host operations after the region compute
    from the buffers as the region left them (`V₂`: the two output arrays at what the pipeline wrote back, everything else as
    the host operations before the region left it), and the six arguments as launched. -/
theorem run_main : θ_run (defs (F := F)) (onTc (τ := τ) (main (F := F))) ⟨m, fun _ => 0, g⟩ (fun r => ∀ c : Dev nD,
      r.2.mem ((c.tc : Thread nD τ).loc main_v51) = V₂ m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (dats m) () cellOf_inj EP defs₀ 𝒱₀ L lv m g main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (V₁ m c)) ∗ R c) ⊢ _
      iintro ⟨Hh, HO, Hp⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v51) = V₂ m c main_v51
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      dsimp only [Tₙ]; unfold StableHlo.held
      iintro ⟨⟨Hh, -⟩, HSI⟩
      ihave Hr := (pointsTo_read_all (Pipeline.ucRefs τ sig) (fun b => ((c.tc : Thread nD τ).1, b)) (V₂ m c) s') $$ [Hh HSI]
      · isplitl [Hh] <;> iassumption
      icases Hr with ⟨%hr, HSI⟩
      imodintro
      isplitr
      · ipureintro
        exact ⟨hr _ mem_main_v51, (hr _ mem_main_arg0).trans (V₂_main_arg0 m c), (hr _ mem_main_arg1).trans (V₂_main_arg1 m c),
          (hr _ mem_main_arg2).trans (V₂_main_arg2 m c), (hr _ mem_main_arg3).trans (V₂_main_arg3 m c),
          (hr _ mem_main_arg4).trans (V₂_main_arg4 m c), (hr _ mem_main_arg5).trans (V₂_main_arg5 m c)⟩
      iexact HSI)
    (hQ := fun _ h => h)

end Cert.KernelIdeal.KRun

end
-- ==== Proof.KRunFrame.lean ====
import proofs.«129299_j34935263986162_1_alg».proof.Proof.Gen.KernelIdeal.Launch
import proofs.«129299_j34935263986162_1_alg».proof.Proof.Gen.KernelIdeal.Skeleton
import proofs.«129299_j34935263986162_1_alg».proof.Proof.Gen.KernelIdeal.Points
import proofs.«129299_j34935263986162_1_alg».proof.Proof.KRunMain

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

variable (g : Dev nD → PrngReg)

/-- THE FRAME: @main runs to the end, faulting nowhere, and leaves its six arguments as launched — the run's post with the
    result's clause dropped. -/
theorem frame : θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m g)

end Cert.KernelIdeal.KRun

end
-- ==== Proof.KRunBits.lean ====
import proofs.«129299_j34935263986162_1_alg».proof.Proof.Gen.Kernel.Launch
import proofs.«129299_j34935263986162_1_alg».proof.Proof.Gen.Kernel.Skeleton
import proofs.«129299_j34935263986162_1_alg».proof.Proof.Gen.Kernel.Points
import Idealize.ShloMosaic.Lib.Pipeline.FrameBody
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation. -/
abbrev V₀ (c : Dev nD) : Valuation τ sig (Elt F) := fun b => m (c, b)

/-- Core `c`'s buffers when the region is entered: the host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is through one of these literal rectangles -/

abbrev rA : Rect S32x3 := Rect.unit (s := S32x3) ![0, 0] S32x3.size inb_S32x3_S32x3_0_0
abbrev rB : Rect S128x3 := Rect.unit (s := S128x3) ![0, 0] S128x3.size inb_S128x3_S128x3_0_0
abbrev rC : Rect S81x3 := Rect.unit (s := S81x3) ![0, 0] S81x3.size inb_S81x3_S81x3_0_0
abbrev rD : Rect S81x32 := Rect.unit (s := S81x32) ![0, 0] S81x32.size inb_S81x32_S81x32_0_0
abbrev rO : Rect S32x32x128 := Rect.unit (s := S32x32x128) ![0, 0, 0] S32x32x128.size inb_S32x32x128_S32x32x128_0_0_0
abbrev rP0 : Rect S12x32x128 := Rect.unit (s := S12x32x128) ![0, 0, 0] S1x32x128.size inb_S12x32x128_S1x32x128_0_0_0
abbrev rP1 : Rect S12x32x128 := Rect.unit (s := S12x32x128) ![1, 0, 0] S1x32x128.size inb_S12x32x128_S1x32x128_1_0_0
abbrev rP2 : Rect S12x32x128 := Rect.unit (s := S12x32x128) ![2, 0, 0] S1x32x128.size inb_S12x32x128_S1x32x128_2_0_0
abbrev rP3 : Rect S12x32x128 := Rect.unit (s := S12x32x128) ![3, 0, 0] S1x32x128.size inb_S12x32x128_S1x32x128_3_0_0
abbrev rP4 : Rect S12x32x128 := Rect.unit (s := S12x32x128) ![4, 0, 0] S1x32x128.size inb_S12x32x128_S1x32x128_4_0_0
abbrev rP5 : Rect S12x32x128 := Rect.unit (s := S12x32x128) ![5, 0, 0] S1x32x128.size inb_S12x32x128_S1x32x128_5_0_0
abbrev rP6 : Rect S12x32x128 := Rect.unit (s := S12x32x128) ![6, 0, 0] S1x32x128.size inb_S12x32x128_S1x32x128_6_0_0
abbrev rP7 : Rect S12x32x128 := Rect.unit (s := S12x32x128) ![7, 0, 0] S1x32x128.size inb_S12x32x128_S1x32x128_7_0_0
abbrev rP8 : Rect S12x32x128 := Rect.unit (s := S12x32x128) ![8, 0, 0] S1x32x128.size inb_S12x32x128_S1x32x128_8_0_0
abbrev rP9 : Rect S12x32x128 := Rect.unit (s := S12x32x128) ![9, 0, 0] S1x32x128.size inb_S12x32x128_S1x32x128_9_0_0
abbrev rP10 : Rect S12x32x128 := Rect.unit (s := S12x32x128) ![10, 0, 0] S1x32x128.size inb_S12x32x128_S1x32x128_10_0_0
abbrev rP11 : Rect S12x32x128 := Rect.unit (s := S12x32x128) ![11, 0, 0] S1x32x128.size inb_S12x32x128_S1x32x128_11_0_0

/-! ## What the body computes from the six input blocks, payload by payload

`x0 … x5` are the contents of the input windows' staging buffers (windows 0 … 5). -/

def p37 (x0 : Vec F S32x3 .f32) (x1 : Vec F S128x3 .f32) (x2 : Vec F S81x3 .f32) : FVec F S32x128x81 .f32 :=
  k0_pay4 (View.ld x0 rA) (View.ld x1 rB) (View.ld x2 rC)
def p40 (x0 : Vec F S32x3 .f32) : FVec F S32x1x1 .f32 := k0_pay5 (View.ld x0 rA)
def p50 (x1 : Vec F S128x3 .f32) (x2 : Vec F S81x3 .f32) : FVec F S32x128x81 .f32 := k0_pay6 (View.ld x1 rB) (View.ld x2 rC)
def p63 (x0 : Vec F S32x3 .f32) (x1 : Vec F S128x3 .f32) (x2 : Vec F S81x3 .f32) : FVec F S32x128x81 .f32 :=
  k0_pay7 (p37 x0 x1 x2) (p40 x0) (p50 x1 x2)
def p65 (x0 : Vec F S32x3 .f32) (x1 : Vec F S128x3 .f32) (x2 : Vec F S81x3 .f32) : FVec F S32x128x81 .f32 :=
  k0_pay8 (p37 x0 x1 x2) (p40 x0) (p50 x1 x2)
def p90 (x0 : Vec F S32x3 .f32) (x1 : Vec F S128x3 .f32) (x2 : Vec F S81x3 .f32) (x3 : Vec F S12x32x128 .f32) : FVec F S32x128x81 .f32 :=
  k0_pay9 (p37 x0 x1 x2) (p40 x0) (p50 x1 x2) (View.ld x3 rP11) (View.ld x3 rP10) (View.ld x3 rP9) (View.ld x3 rP8)
def p130 (x0 : Vec F S32x3 .f32) (x1 : Vec F S128x3 .f32) (x2 : Vec F S81x3 .f32) (x3 : Vec F S12x32x128 .f32) : FVec F S32x128x81 .f32 :=
  k0_pay10 (p65 x0 x1 x2) (p90 x0 x1 x2 x3) (View.ld x3 rP7) (View.ld x3 rP6) (View.ld x3 rP5) (View.ld x3 rP4) (View.ld x3 rP3) (View.ld x3 rP2)
def p131 (x3 : Vec F S12x32x128 .f32) : FVec F S32x128x81 .f32 := k0_pay11 (View.ld x3 rP1)

/-- What the body stores into output window 6's buffer, -/
def pay6 (x0 : Vec F S32x3 .f32) (x1 : Vec F S128x3 .f32) (x2 : Vec F S81x3 .f32) (x3 : Vec F S12x32x128 .f32) (x4 : Vec F S81x32 .f32) : FVec F S32x32x128 .f32 :=
  k0_pay2 (p63 x0 x1 x2) (p65 x0 x1 x2) (p130 x0 x1 x2 x3) (p131 x3) (View.ld x3 rP0) (View.ld x4 rD)
/-- and into output window 7's. -/
def pay7 (x0 : Vec F S32x3 .f32) (x1 : Vec F S128x3 .f32) (x2 : Vec F S81x3 .f32) (x3 : Vec F S12x32x128 .f32) (x5 : Vec F S81x32 .f32) : FVec F S32x32x128 .f32 :=
  k0_pay3 (p63 x0 x1 x2) (p65 x0 x1 x2) (p130 x0 x1 x2 x3) (p131 x3) (View.ld x3 rP0) (View.ld x5 rD)

/-- Window 6's staging buffer after the body: its one store, through the whole block. -/
def body6 (x0 : Vec F S32x3 .f32) (x1 : Vec F S128x3 .f32) (x2 : Vec F S81x3 .f32) (x3 : Vec F S12x32x128 .f32) (x4 : Vec F S81x32 .f32) : Vec F S32x32x128 .f32 :=
  View.canon [⟨rO, pay6 x0 x1 x2 x3 x4⟩]
/-- Window 7's staging buffer after the body: its one store, through the whole block. -/
def body7 (x0 : Vec F S32x3 .f32) (x1 : Vec F S128x3 .f32) (x2 : Vec F S81x3 .f32) (x3 : Vec F S12x32x128 .f32) (x5 : Vec F S81x32 .f32) : Vec F S32x32x128 .f32 :=
  View.canon [⟨rO, pay7 x0 x1 x2 x3 x5⟩]

/-- The one store covers the block. -/
theorem coverO (p0 : Vec F S32x32x128 .f32) (y : S32x32x128.Idx) :
    ∃ pc ∈ ([⟨rO, p0⟩] : List (View.Piece (Elt F) S32x32x128 .f32)), y ∈ pc.1.set :=
  View.cover_of_tiled [⟨rO, p0⟩] S32x32x128.size (by rfl) y

/-- What point `t` leaves in output window 6's buffer, from the point's input blocks; -/
def out6 (c : Dev nD) (t : Fin cfg0.N) : Vec F S32x32x128 .f32 :=
  body6 (iblk m c 0 t) (iblk m c 1 t) (iblk m c 2 t) (iblk m c 3 t) (iblk m c 4 t)
/-- and in output window 7's. -/
def out7 (c : Dev nD) (t : Fin cfg0.N) : Vec F S32x32x128 .f32 :=
  body7 (iblk m c 0 t) (iblk m c 1 t) (iblk m c 2 t) (iblk m c 3 t) (iblk m c 5 t)

/-! ## The pipeline's proof data -/

/-- The proof data of the one pipeline on core `c`: the arrays as the region finds them; after the body at point `t` each
    input's buffer at its block and each output's at what the body stored; the invariant the scoped rest and the generator
    register; nothing owed. Windows 0 and 1 read ONE array: each holds half of it; every other input the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; dsimp only [dats]; rfl
theorem share4 (c : Dev nD) : (dats m 0 c).share 4 = fullShare := by unfold Dat.share; dsimp only [dats]; rfl
theorem share5 (c : Dev nD) : (dats m 0 c).share 5 = fullShare := by unfold Dat.share; dsimp only [dats]; rfl
theorem share6 (c : Dev nD) : (dats m 0 c).share 6 = fullShare := by unfold Dat.share; rfl
theorem share7 (c : Dev nD) : (dats m 0 c).share 7 = fullShare := by unfold Dat.share; rfl

/-! ## What the body finds in the inputs' buffers -/

/-- Input window 0's current staging buffer holds its block at every point, fetched there or not: unfetched, the block index
    has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not: unfetched, the block index
    has not moved and the body left the block in place. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not: unfetched, the block index
    has not moved and the body left the block in place. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not: unfetched, the block index
    has not moved and the body left the block in place. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not: unfetched, the block index
    has not moved and the body left the block in place. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not: unfetched, the block index
    has not moved and the body left the block in place. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

end Cert.Kernel.KRun

end
-- ==== Proof.KRunBitsSplit.lean ====
import proofs.«129299_j34935263986162_1_alg».proof.Proof.Gen.Kernel.Launch
import proofs.«129299_j34935263986162_1_alg».proof.Proof.Gen.Kernel.Skeleton
import proofs.«129299_j34935263986162_1_alg».proof.Proof.Gen.Kernel.Points
import proofs.«129299_j34935263986162_1_alg».proof.Proof.KRunBits
import Idealize.ShloMosaic.Lib.Pipeline.Regions

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## One array behind two input windows: the buffers behind the arrays and the pipeline's arrays -/

/-- The distinct buffers behind the eight windows' arrays are seven. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0)
          ∗ (((c : Thread nD τ).loc main_arg5) ↦{fullShare} V' main_arg5)
          ∗ (((c : Thread nD τ).loc main_v18) ↦{fullShare} V' main_v18)
          ∗ (((c : Thread nD τ).loc main_v26) ↦{fullShare} V' main_v26)
          ∗ (((c : Thread nD τ).loc main_v28) ↦{fullShare} V' main_v28)
          ∗ (((c : Thread nD τ).loc main_v29_0) ↦{fullShare} V' main_v29_0)
          ∗ (((c : Thread nD τ).loc main_v29_1) ↦{fullShare} V' main_v29_1)) := by
  unfold Pipeline.arrBufs
  rw [bigSep_eq_bigSepL_of_eq [main_arg0, main_arg5, main_v18, main_v26, main_v28, main_v29_0, main_v29_1] (by decide +kernel) (by decide +kernel)]
  rfl

set_option maxHeartbeats 2000000 in
/-- The pipeline's arrays at contents `G`, window by window: windows 0 and 1 each hold a half of the one array they read. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0)
          ∗ (((c : Thread nD τ).loc main_arg0) ↦{fullShare.right} G 1)
          ∗ (((c : Thread nD τ).loc main_arg5) ↦{fullShare} G 2)
          ∗ (((c : Thread nD τ).loc main_v18) ↦{fullShare} G 3)
          ∗ (((c : Thread nD τ).loc main_v26) ↦{fullShare} G 4)
          ∗ (((c : Thread nD τ).loc main_v28) ↦{fullShare} G 5)
          ∗ (((c : Thread nD τ).loc main_v29_0) ↦{fullShare} G 6)
          ∗ (((c : Thread nD τ).loc main_v29_1) ↦{fullShare} G 7)) := by
  unfold Dat.arrays
  rw [bigSep_W0, share0, share1, share2, share3, share4, share5, share6, share7,
    (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]

/-- The seven buffers at contents `V'`, each whole, ARE the eight windows' arrays at the contents read off `V'`: the one
    array behind windows 0 and 1 splits into its two halves, and the halves join back. -/
theorem arrays_iff_arrBufs (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊣⊢ (dats m 0 c).arrays fun w => V' (Pipeline.arrRef spec0 w) := by
  rw [arrBufs_list, arrays_list]
  constructor
  · iintro ⟨H0, H2, H3, H4, H5, H6, H7⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    isplitl [H3]; · iexact H3
    isplitl [H4]; · iexact H4
    isplitl [H5]; · iexact H5
    isplitl [H6]; · iexact H6
    iexact H7
  · iintro ⟨Hl, Hr, H2, H3, H4, H5, H6, H7⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    isplitl [H5]; · iexact H5
    isplitl [H6]; · iexact H6
    iexact H7

end Cert.Kernel.KRun

end
-- ==== Proof.KRunBitsBody.lean ====
import proofs.«129299_j34935263986162_1_alg».proof.Proof.Gen.Kernel.Launch
import proofs.«129299_j34935263986162_1_alg».proof.Proof.Gen.Kernel.Skeleton
import proofs.«129299_j34935263986162_1_alg».proof.Proof.Gen.Kernel.Points
import proofs.«129299_j34935263986162_1_alg».proof.Proof.KRunBits

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body's triple -/

set_option maxHeartbeats 4000000 in
/-- The kernel body on whole staging memrefs, the six inputs' at read contents `x0 … x5` and the two outputs' at anything, runs
    to the continuation holding the inputs' as they were and the outputs' at `body6` / `body7` of the inputs': the body is its
    four parts in sequence, each a line of loads, then the loads and the two whole-block stores of the root. -/
theorem sound_kernel (c : Dev nD) (E : Set ℕ) (i : grid0.Coords) (arg2 : Memref sig .tc .vmem S32x3 .f32) (harg2 : arg2.IsWhole) (arg3 : Memref sig .tc .vmem S128x3 .f32) (harg3 : arg3.IsWhole) (arg4 : Memref sig .tc .vmem S81x3 .f32) (harg4 : arg4.IsWhole) (arg5 : Memref sig .tc .vmem S12x32x128 .f32) (harg5 : arg5.IsWhole) (arg6 : Memref sig .tc .vmem S81x32 .f32) (harg6 : arg6.IsWhole) (arg7 : Memref sig .tc .vmem S81x32 .f32) (harg7 : arg7.IsWhole) (arg8 : Memref sig .tc .vmem S32x32x128 .f32) (harg8 : arg8.IsWhole) (arg9 : Memref sig .tc .vmem S32x32x128 .f32) (harg9 : arg9.IsWhole)
    (x0 : Vec F S32x3 .f32) (x1 : Vec F S128x3 .f32) (x2 : Vec F S81x3 .f32) (x3 : Vec F S12x32x128 .f32) (x4 : Vec F S81x32 .f32) (x5 : Vec F S81x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (body6 x0 x1 x2 x3 x4) ∗ owns (c : Thread nD τ) arg9 fullShare (body7 x0 x1 x2 x3 x5)) -∗ K ⟨⟩))
      ⊢ wp frame (wpE (defs₀ (F := F)) Variants.none c none) E (cc0__assembly_kernel i arg2 harg2 arg3 harg3 arg4 harg4 arg5 harg5 arg6 harg6 arg7 harg7 arg8 harg8 arg9 harg9) K := by
  simp only [cc0__assembly_kernel_eq_skeleton]; unfold cc0__assembly_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The body obligation, at a generic point -/

/-- What the body is called with at point `t`: the invariant, the core owing nothing, every window's current buffer; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the core's
    `owes` pass through unread, the outputs' buffers are taken at whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- The same as the pipeline's loop takes it. -/
theorem body_obligation_loose (c : Dev nD) : BodyObligationLoose (dats (F := F) m 0 c) (defs₀ (F := F)) Variants.none () Set.univ :=
  (body_obligation m c).loose

end Cert.Kernel.KRun

end
-- ==== Proof.KRunBitsMain.lean ====
import proofs.«129299_j34935263986162_1_alg».proof.Proof.Gen.Kernel.Launch
import proofs.«129299_j34935263986162_1_alg».proof.Proof.Gen.Kernel.Skeleton
import proofs.«129299_j34935263986162_1_alg».proof.Proof.Gen.Kernel.Points
import proofs.«129299_j34935263986162_1_alg».proof.Proof.KRunBitsSplit
import proofs.«129299_j34935263986162_1_alg».proof.Proof.KRunBitsBody
import Idealize.ShloMosaic.Lib.Pipeline.Regions
import Idealize.ShloMosaic.Lib.Pipeline.Frame

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

variable (g : Dev nD → PrngReg)

/-! ## @main as three segments: the host operations before the region, the region, the host operations after it -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁

/-- What rides beside the buffers through the host operations: the core owing nothing, and its generator register. -/
abbrev R (c : Dev nD) : sProp 𝕄 :=
  iprop((∃ W, owes (c : Thread nD τ) (0 : CellTallies nD τ sig Unit) W) ∗ ∃ r, prngReg c r)

/-- Core `c`'s buffers when the region is left: as it found them, but the two output windows' arrays, which hold what the
    pipeline wrote back. Spelt as two more operations after the host operations before the region. -/
abbrev V₁ (c : Dev nD) : Valuation τ sig (Elt F) :=
  StableHlo.after [StableHlo.nullary main_v29_0 ((dats m 0 c).arrAt 6 cfg0.N), StableHlo.nullary main_v29_1 ((dats m 0 c).arrAt 7 cfg0.N)]
    (StableHlo.after hostOps0 (V₀ m c))

/-- and at the end: the host operations after the region have run. -/
abbrev V₂ (c : Dev nD) : Valuation τ sig (Elt F) := StableHlo.after hostOps1 (V₁ m c)

/-- A buffer that is neither output array is, when the region is left, as the region found it. -/
theorem V₁_of_ne (c : Dev nD) (b : Ref sig .tc) (h0 : b ≠ main_v29_0) (h1 : b ≠ main_v29_1) : V₁ m c b = V m c b :=
  (StableHlo.nullary_result_ne _ _ _ _ h1).trans (StableHlo.nullary_result_ne _ _ _ _ h0)

theorem V₁_out6 (c : Dev nD) : V₁ m c main_v29_0 = (dats m 0 c).arrAt 6 cfg0.N := by
  simp only [StableHlo.after_cons, StableHlo.after_nil]
  rw [StableHlo.nullary_result_ne _ _ _ _ (by decide : main_v29_0 ≠ main_v29_1), StableHlo.nullary_result]

theorem V₁_out7 (c : Dev nD) : V₁ m c main_v29_1 = (dats m 0 c).arrAt 7 cfg0.N := by
  simp only [StableHlo.after_cons, StableHlo.after_nil]
  rw [StableHlo.nullary_result]

/-- The arrays when the region is left, window by window: an input's as found, an output's as written back. -/
theorem arrAt_N (c : Dev nD) (w : Fin cfg0.W) : (dats m 0 c).arrAt w cfg0.N = V₁ m c (Pipeline.arrRef spec0 w) :=
  match w with
  | ⟨0, _⟩ => ((dats m 0 c).arrAt_in 0 rfl _).trans ((A_eq m c 0).trans (V₁_of_ne m c main_arg0 (by decide) (by decide)).symm)
  | ⟨1, _⟩ => ((dats m 0 c).arrAt_in 1 rfl _).trans ((A_eq m c 1).trans (V₁_of_ne m c main_arg0 (by decide) (by decide)).symm)
  | ⟨2, _⟩ => ((dats m 0 c).arrAt_in 2 rfl _).trans ((A_eq m c 2).trans (V₁_of_ne m c main_arg5 (by decide) (by decide)).symm)
  | ⟨3, _⟩ => ((dats m 0 c).arrAt_in 3 rfl _).trans ((A_eq m c 3).trans (V₁_of_ne m c main_v18 (by decide) (by decide)).symm)
  | ⟨4, _⟩ => ((dats m 0 c).arrAt_in 4 rfl _).trans ((A_eq m c 4).trans (V₁_of_ne m c main_v26 (by decide) (by decide)).symm)
  | ⟨5, _⟩ => ((dats m 0 c).arrAt_in 5 rfl _).trans ((A_eq m c 5).trans (V₁_of_ne m c main_v28 (by decide) (by decide)).symm)
  | ⟨6, _⟩ => (V₁_out6 m c).symm
  | ⟨7, _⟩ => (V₁_out7 m c).symm

/-! ## The segments -/

/-- The core's unscoped buffers split into the buffers behind the windows' arrays and the rest. -/
theorem unscopedBufs_eq (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec0 c V' ∗ Pipeline.unscopedRest spec0 c V') :=
  Pipeline.unscopedBufs_split₀ cfgs 0 winFacts₀0.arr_unscoped c V'

/-- The buffers that are no window's array are, when the region is left, as the region found them. -/
theorem unscopedRest_V₁ (c : Dev nD) :
    (Pipeline.unscopedRest (Ix := Unit) (Name := ℕ) (U := UR sig nD τ) (Lvl := ℕ) spec0 c (fun b => V₁ m c b) : sProp 𝕄)
      = Pipeline.unscopedRest spec0 c (V m c) := by
  unfold Pipeline.unscopedRest
  refine bigSep_congr fun b hb => ?_
  have hb' := (Finset.mem_sdiff.mp hb).2
  have h := V₁_of_ne m c b (fun h => hb' (Finset.mem_image.mpr ⟨6, Finset.mem_univ _, h ▸ rfl⟩))
    (fun h => hb' (Finset.mem_image.mpr ⟨7, Finset.mem_univ _, h ▸ rfl⟩))
  show (((c : Thread nD τ).loc b) ↦{fullShare} V₁ m c b : sProp 𝕄) = _
  rw [h]

/-- THE HOST SEGMENT before the region: its operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- THE HOST SEGMENT after the region, from the buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

set_option backward.isDefEq.respectTransparency.types false in
/-- THE REGION: entered from what the first host segment left — the buffers behind the windows' arrays into the pipeline (the
    one array behind windows 0 and 1 as its two halves), the generator register into the invariant, every other buffer
    bypassing —, left with the halves joined back and the two output arrays at what the pipeline wrote. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := body_obligation_loose m c
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      unscopedBufs_eq, show (fun w => (dats m 0 c).arrAt w 0) = fun w => V m c (Pipeline.arrRef spec0 w) from funext (A_eq m c)]
    iintro ⟨⟨⟨Ha, Hrest⟩, ⟨HO, Hp⟩⟩, -, -⟩
    imodintro
    isplitl [Ha]; · iapply (arrays_iff_arrBufs m c (V m c)).1; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (V₁ m c) = unscopedBufs c (fun b => V₁ m c b) from (Pipeline.unscopedBufs_held c _).symm,
      unscopedBufs_eq, unscopedRest_V₁, show (fun w => (dats m 0 c).arrAt w cfg0.N) = fun w => V₁ m c (Pipeline.arrRef spec0 w) from funext (arrAt_N m c)]
    iintro ⟨Ha, HO, HY, HZ⟩
    imodintro
    isplitl [Ha HZ]
    · isplitl [Ha]; · iapply (arrays_iff_arrBufs m c (fun b => V₁ m c b)).2; iexact Ha
      iexact HZ
    isplitl [HO]
    · unfold Pipeline.Dat.owesAt Pipeline.owesWithin
      icases HO with ⟨%W, -, HO⟩; iexists W; iexact HO
    iexact HY

/-! ## The arguments at the end -/

/-- No host operation writes `main_arg0`, and it is no output array: it ends as launched. -/
theorem V₂_main_arg0 (c : Dev nD) : V₂ m c main_arg0 = m ((c : Thread nD τ).loc main_arg0) :=
  (StableHlo.after_of_forall_not_mem (b := Proc.devRef .tc main_arg0) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg0 (by decide) (by decide)).trans
  (StableHlo.after_of_forall_not_mem (b := Proc.devRef .tc main_arg0) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg1`, and it is no output array: it ends as launched. -/
theorem V₂_main_arg1 (c : Dev nD) : V₂ m c main_arg1 = m ((c : Thread nD τ).loc main_arg1) :=
  (StableHlo.after_of_forall_not_mem (b := Proc.devRef .tc main_arg1) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg1 (by decide) (by decide)).trans
  (StableHlo.after_of_forall_not_mem (b := Proc.devRef .tc main_arg1) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg2`, and it is no output array: it ends as launched. -/
theorem V₂_main_arg2 (c : Dev nD) : V₂ m c main_arg2 = m ((c : Thread nD τ).loc main_arg2) :=
  (StableHlo.after_of_forall_not_mem (b := Proc.devRef .tc main_arg2) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg2 (by decide) (by decide)).trans
  (StableHlo.after_of_forall_not_mem (b := Proc.devRef .tc main_arg2) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg3`, and it is no output array: it ends as launched. -/
theorem V₂_main_arg3 (c : Dev nD) : V₂ m c main_arg3 = m ((c : Thread nD τ).loc main_arg3) :=
  (StableHlo.after_of_forall_not_mem (b := Proc.devRef .tc main_arg3) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg3 (by decide) (by decide)).trans
  (StableHlo.after_of_forall_not_mem (b := Proc.devRef .tc main_arg3) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg4`, and it is no output array: it ends as launched. -/
theorem V₂_main_arg4 (c : Dev nD) : V₂ m c main_arg4 = m ((c : Thread nD τ).loc main_arg4) :=
  (StableHlo.after_of_forall_not_mem (b := Proc.devRef .tc main_arg4) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg4 (by decide) (by decide)).trans
  (StableHlo.after_of_forall_not_mem (b := Proc.devRef .tc main_arg4) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

/-- No host operation writes `main_arg5`, and it is no output array: it ends as launched. -/
theorem V₂_main_arg5 (c : Dev nD) : V₂ m c main_arg5 = m ((c : Thread nD τ).loc main_arg5) :=
  (StableHlo.after_of_forall_not_mem (b := Proc.devRef .tc main_arg5) hostOps1 _ (List.forall_iff_forall_mem.mp (by
    simp only [hostOps1, List.Forall, StableHlo.nullary_writes, StableHlo.unary_writes, StableHlo.binary_writes, StableHlo.ternary_writes, Finset.mem_singleton]
    repeat' apply And.intro
    all_goals exact StableHlo.devRef_ne_of_ne (by decide)))).trans
  ((V₁_of_ne m c main_arg5 (by decide) (by decide)).trans
  (StableHlo.after_of_forall_not_mem (b := Proc.devRef .tc main_arg5) hostOps0 _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))))

theorem mem_main_v51 : (Proc.devRef .tc main_v51 : DevRef τ sig) ∈ Pipeline.ucRefs τ sig :=
  Finset.mem_filter.mpr ⟨StableHlo.devRef_mem_tcRefs _, by decide⟩
theorem mem_main_arg0 : (Proc.devRef .tc main_arg0 : DevRef τ sig) ∈ Pipeline.ucRefs τ sig :=
  Finset.mem_filter.mpr ⟨StableHlo.devRef_mem_tcRefs _, by decide⟩
theorem mem_main_arg1 : (Proc.devRef .tc main_arg1 : DevRef τ sig) ∈ Pipeline.ucRefs τ sig :=
  Finset.mem_filter.mpr ⟨StableHlo.devRef_mem_tcRefs _, by decide⟩
theorem mem_main_arg2 : (Proc.devRef .tc main_arg2 : DevRef τ sig) ∈ Pipeline.ucRefs τ sig :=
  Finset.mem_filter.mpr ⟨StableHlo.devRef_mem_tcRefs _, by decide⟩
theorem mem_main_arg3 : (Proc.devRef .tc main_arg3 : DevRef τ sig) ∈ Pipeline.ucRefs τ sig :=
  Finset.mem_filter.mpr ⟨StableHlo.devRef_mem_tcRefs _, by decide⟩
theorem mem_main_arg4 : (Proc.devRef .tc main_arg4 : DevRef τ sig) ∈ Pipeline.ucRefs τ sig :=
  Finset.mem_filter.mpr ⟨StableHlo.devRef_mem_tcRefs _, by decide⟩
theorem mem_main_arg5 : (Proc.devRef .tc main_arg5 : DevRef τ sig) ∈ Pipeline.ucRefs τ sig :=
  Finset.mem_filter.mpr ⟨StableHlo.devRef_mem_tcRefs _, by decide⟩

/-! ## The run -/

/-- @main as the list of the three. -/
abbrev segs : List (Pipeline.Seg (pcfgs (F := F)) adm (dats m) () defs₀ 𝒱₀ L lv) :=
  [.host (seg0 m), .region (reg0 m), .host (seg1 m)]

/-- What is left at the end: the unscoped buffers as the last host operations left them, and the generator register. -/
abbrev Tₙ (c : Dev nD) : sProp 𝕄 :=
  iprop(StableHlo.held (c : Thread nD τ) (Pipeline.ucRefs τ sig) (V₂ m c) ∗ ∃ r, prngReg c r)

set_option backward.isDefEq.respectTransparency.types false in
/-- At the compiled mesh, from any memory with zero counters: every weakly fair execution of @main on the TensorCores
    terminates, nothing faulting, and every final state has the result at what the host operations after the region compute
    from the buffers as the region left them (`V₂`: the two output arrays at what the pipeline wrote back, everything else as
    the host operations before the region left it), and the six arguments as launched. -/
theorem run_main : θ_run (defs (F := F)) (onTc (τ := τ) (main (F := F))) ⟨m, fun _ => 0, g⟩ (fun r => ∀ c : Dev nD,
      r.2.mem ((c.tc : Thread nD τ).loc main_v51) = V₂ m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (dats m) () cellOf_inj EP defs₀ 𝒱₀ L lv m g main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (V₁ m c)) ∗ R c) ⊢ _
      iintro ⟨Hh, HO, Hp⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v51) = V₂ m c main_v51
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      dsimp only [Tₙ]; unfold StableHlo.held
      iintro ⟨⟨Hh, -⟩, HSI⟩
      ihave Hr := (pointsTo_read_all (Pipeline.ucRefs τ sig) (fun b => ((c.tc : Thread nD τ).1, b)) (V₂ m c) s') $$ [Hh HSI]
      · isplitl [Hh] <;> iassumption
      icases Hr with ⟨%hr, HSI⟩
      imodintro
      isplitr
      · ipureintro
        exact ⟨hr _ mem_main_v51, (hr _ mem_main_arg0).trans (V₂_main_arg0 m c), (hr _ mem_main_arg1).trans (V₂_main_arg1 m c),
          (hr _ mem_main_arg2).trans (V₂_main_arg2 m c), (hr _ mem_main_arg3).trans (V₂_main_arg3 m c),
          (hr _ mem_main_arg4).trans (V₂_main_arg4 m c), (hr _ mem_main_arg5).trans (V₂_main_arg5 m c)⟩
      iexact HSI)
    (hQ := fun _ h => h)

end Cert.Kernel.KRun

end
-- ==== Proof.KRunBitsFrame.lean ====
import proofs.«129299_j34935263986162_1_alg».proof.Proof.Gen.Kernel.Launch
import proofs.«129299_j34935263986162_1_alg».proof.Proof.Gen.Kernel.Skeleton
import proofs.«129299_j34935263986162_1_alg».proof.Proof.Gen.Kernel.Points
import proofs.«129299_j34935263986162_1_alg».proof.Proof.KRunBitsMain

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

variable (g : Dev nD → PrngReg)

/-- THE FRAME: @main runs to the end, faulting nowhere, and leaves its six arguments as launched — the run's post with the
    result's clause dropped. -/
theorem frame : θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m g)

end Cert.Kernel.KRun

end
-- ==== Proof.LibRank3Layout.lean ====
/-
  Rank-3 layouts around a pairwise tensor, read at an index written by coordinates.

  A tensor indexed by (row atom, column atom, shift) is assembled in a kernel from three vectors, one per axis: each
  vector is cast to a rank-3 array with unit extents on the other two axes and broadcast along them. The tensor is then
  flattened on its first two axes to feed a matrix product, the product is unflattened again, and its last axis is
  moved to the front. Each of these operations reads its operand at one index; the lemmas below name that index.
-/
import Idealize.ShloMosaic.Lib.ValueIdx
import Idealize.ShloMosaic.Lib.ValueLayout
import Idealize.ShloMosaic.Lib.Pipeline.Value

namespace Cert.LibRank3Layout

open Idealize.ShloMosaic Idealize.ShloMosaic.ValueIdx

variable {α : Type}

/-! ## A vector placed on one axis of a rank-3 array -/

/-- An `[a]` vector cast to `[a, 1, 1]` reads, at `(i, u, v)`, the vector at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    simp only [hu, hv, Nat.mul_one, Nat.add_zero])

/-- An `[a]` vector cast to `[1, a, 1]` reads, at `(u, i, v)`, the vector at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    simp only [hu, hv, Nat.zero_mul, Nat.zero_add, Nat.mul_one, Nat.add_zero])

/-- An `[a]` vector cast to `[1, 1, a]` reads, at `(u, v, i)`, the vector at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one, Nat.add_zero])

/-- An `[a, 1]` column cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The unit axes broadcast back -/

/-- A `[1, a, 1]` array broadcast to `[1, a, b]` reads, at `(u, i, r)`, the operand at `(0, i, 0)`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (i : Fin a) (r : Fin b) :
    broadcastTo ⟨3, ![1, a, b]⟩ v h (ix3 u i r) = v (ix3 (0 : Fin 1) i (0 : Fin 1)) := by
  refine broadcastTo_apply v h (ix3 u i r) (ix3 (0 : Fin 1) i (0 : Fin 1)) fun ax => ?_
  match ax with
  | ⟨0, _⟩ => exact (if_pos rfl).symm
  | ⟨1, _⟩ =>
    show i.val = if a = 1 then 0 else i.val
    split
    · have := i.isLt; omega
    · rfl
  | ⟨2, _⟩ => exact (if_pos rfl).symm

/-- A `[1, a, b]` array broadcast to `[c, a, b]` reads, at `(k, i, r)`, the operand at `(0, i, r)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (r : Fin b) :
    broadcastTo ⟨3, ![c, a, b]⟩ v h (ix3 k i r) = v (ix3 (0 : Fin 1) i r) := by
  refine broadcastTo_apply v h (ix3 k i r) (ix3 (0 : Fin 1) i r) fun ax => ?_
  match ax with
  | ⟨0, _⟩ => exact (if_pos rfl).symm
  | ⟨1, _⟩ =>
    show i.val = if a = 1 then 0 else i.val
    split
    · have := i.isLt; omega
    · rfl
  | ⟨2, _⟩ =>
    show r.val = if b = 1 then 0 else r.val
    split
    · have := r.isLt; omega
    · rfl

/-- An `[a, 1, 1]` array broadcast to `[a, b, c]` reads, at `(i, j, k)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => exact (if_pos rfl).symm
  | ⟨2, _⟩ => exact (if_pos rfl).symm

/-! ## The first two axes flattened and unflattened -/

/-- An `[a, b, c]` array cast to `[m, c]` with `m = a · b` reads, at `(r, s)` with `r = i · b + j`, the operand at
    `(i, j, s)`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (s : Fin c) (i : Fin a) (j : Fin b)
    (hr : r.val = i.val * b + j.val) :
    shapeCast ⟨2, ![m, c]⟩ x h (ix2 r s) = x (ix3 i j s) :=
  shapeCast_apply x h _ _ (by
    rw [Shape.rowMajor_val_three, Shape.rowMajor_val_two]
    show (i.val * b + j.val) * c + s.val = r.val * c + s.val
    rw [hr])

/-- An `[m, n]` array with `m = a · b` cast to `[a, b, n]` reads, at `(i, j, k)`, the operand at `(r, k)` with
    `r = i · b + j`. -/
theorem shapeCast_mn_abn_apply {a b n m : ℕ} (x : (⟨2, ![m, n]⟩ : Shape).Idx → α)
    (h : (⟨2, ![m, n]⟩ : Shape).ShapeCasts ⟨3, ![a, b, n]⟩) (i : Fin a) (j : Fin b) (k : Fin n) (r : Fin m)
    (hr : r.val = i.val * b + j.val) :
    shapeCast ⟨3, ![a, b, n]⟩ x h (ix3 i j k) = x (ix2 r k) :=
  shapeCast_apply x h _ _ (by
    rw [Shape.rowMajor_val_three, Shape.rowMajor_val_two]
    show r.val * n + k.val = (i.val * b + j.val) * n + k.val
    rw [hr])

/-! ## The last axis moved to the front -/

/-- An `[a, b, c]` array transposed by `[2, 0, 1]` to `[c, a, b]` reads, at `(k, i, j)`, the operand at `(i, j, k)`. -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun d => match d with | ⟨0, _⟩ => rfl | ⟨1, _⟩ => rfl | ⟨2, _⟩ => rfl

end Cert.LibRank3Layout
-- ==== Proof.KHost.lean ====
/-
  The kernel program's host side as functions of the argument arrays.

  Three chains of host operations are common to the kernel program and the reference: the gather of the twelve
  polynomial coefficients of every atom pair from the species table (negative species numbers wrapped by the table's
  extent first), the Bloch phase angle of every k-point and lattice shift (the k-points scaled by the inverse lattice,
  multiplied with the shifts, times two pi), and the gather of every atom's onsite energy. They are named here once and
  never opened: both programs apply them to the same arguments.

  The kernel program then hands its region the coefficients with the degree axis moved to the front and the cosines and
  sines of the phases with shifts as rows; after the region it adds the onsite energies on the diagonal of every
  k-point's real part (the identity matrix, as 0 and 1, times the onsite row) and stacks real and imaginary parts.
-/
import proofs.«129299_j34935263986162_1_alg».proof.Proof.Gen.KernelIdeal
import Idealize.ShloMosaic.Lib.ValueIdx
import Idealize.ShloMosaic.Lib.ValueLayout
import proofs.«129299_j34935263986162_1_alg».proof.Proof.LibRank3Layout

noncomputable section

namespace Cert.KernelIdeal.KHost

open Idealize.ShloMosaic Idealize.ShloMosaic.ValueIdx Cert.KernelIdeal Cert.LibRank3Layout
open Cert.KernelIdeal.Facts₀ Cert.KernelIdeal.Facts

/-- A species number made a table index: 4 is added where it is negative. As a column (one per row atom). -/
def wrapCol (a1 : IVec S512 32) : IVec S512x1 32 :=
  select (cmpi .slt (broadcastInDim S512x1 ![0] bcast_S512_S512x1_0 a1) (broadcastInDim S512x1 ![] bcast_S_S512x1 (constantI S_ 32 0#32)))
    (addi (broadcastInDim S512x1 ![0] bcast_S512_S512x1_0 a1) (broadcastInDim S512x1 ![] bcast_S_S512x1 (constantI S_ 32 4#32)))
    (broadcastInDim S512x1 ![0] bcast_S512_S512x1_0 a1)

/-- The same as a row (one per column atom). -/
def wrapRow (a1 : IVec S512 32) : IVec S1x512 32 :=
  select (cmpi .slt (broadcastInDim S1x512 ![1] bcast_S512_S1x512_1 a1) (broadcastInDim S1x512 ![] bcast_S_S1x512 (constantI S_ 32 0#32)))
    (addi (broadcastInDim S1x512 ![1] bcast_S512_S1x512_1 a1) (broadcastInDim S1x512 ![] bcast_S_S1x512 (constantI S_ 32 4#32)))
    (broadcastInDim S1x512 ![1] bcast_S512_S1x512_1 a1)

/-- The pair of table indices of every (row atom, column atom). -/
def pairIdx (a1 : IVec S512 32) : IVec S512x512x2 32 :=
  concatenate S512x512x2 2
    [⟨S512x512x1, broadcastInDim S512x512x1 ![0, 1] bcast_S512x512_S512x512x1_0_1
        (broadcastInDim S512x512 ![0, 1] bcast_S512x1_S512x512_0_1 (wrapCol a1))⟩,
     ⟨S512x512x1, broadcastInDim S512x512x1 ![0, 1] bcast_S512x512_S512x512x1_0_1
        (broadcastInDim S512x512 ![0, 1] bcast_S1x512_S512x512_0_1 (wrapRow a1))⟩]
    concatenates_S512x512x1_S512x512x1_S512x512x2_d2

/-- The twelve coefficients of every atom pair. -/
def coefF (a1 : IVec S512 32) (a3 : FVec Ideal S4x4x12 .f32) : FVec Ideal S512x512x12 .f32 :=
  Host.gather gather_S4x4x12_S512x512x2_S512x512x12_2_01_n_n_01_2_1112 a3 (pairIdx a1)

/-- The Bloch phase angle of every (k-point, shift). -/
def angF (a2 : FVec Ideal S32x3 .f32) (a5 : FVec Ideal S81x3 .f32) : FVec Ideal S32x81 .f32 :=
  mulf (broadcastInDim S32x81 ![] bcast_S_S32x81 (constant S_ .f32 0x40C90FDB#32))
    (Host.dotGeneral dot_S32x3_S3x81_S32x81_1_0_0_1_n_n none
      (Host.dotGeneral dot_S32x3_S3x3_S32x3_1_0_0_1_n_n none a2
        (transpose S3x3 [1, 0] (fun i => FloatOps.ofBits .f32 (lit0 (S3x3.rowMajor i))) transposes_S3x3_S3x3_1_0))
      (transpose S3x81 [1, 0] a5 transposes_S81x3_S3x81_1_0))

/-- Every atom's onsite energy. -/
def onsF (a1 : IVec S512 32) (a4 : FVec Ideal S4 .f32) : FVec Ideal S512 .f32 :=
  Host.gather gather_S4_S512x1_S512_n_0_n_n_0_1_1 a4
    (broadcastInDim S512x1 ![0] bcast_S512_S512x1_0
      (select (cmpi .slt a1 (broadcastInDim S512 ![] bcast_S_S512 (constantI S_ 32 0#32)))
        (addi a1 (broadcastInDim S512 ![] bcast_S_S512 (constantI S_ 32 4#32))) a1))

/-- The coefficients as the region is handed them: degree first. -/
def coefT (a1 : IVec S512 32) (a3 : FVec Ideal S4x4x12 .f32) : FVec Ideal S12x512x512 .f32 :=
  transpose S12x512x512 [2, 0, 1] (coefF a1 a3) transposes_S512x512x12_S12x512x512_2_0_1

/-- The cosines of the phases, shifts as rows. -/
def cosT (a2 : FVec Ideal S32x3 .f32) (a5 : FVec Ideal S81x3 .f32) : FVec Ideal S81x32 .f32 :=
  transpose S81x32 [1, 0] (Host.cos (angF a2 a5)) transposes_S32x81_S81x32_1_0

/-- The sines of the phases, shifts as rows. -/
def sinT (a2 : FVec Ideal S32x3 .f32) (a5 : FVec Ideal S81x3 .f32) : FVec Ideal S81x32 .f32 :=
  transpose S81x32 [1, 0] (Host.sin (angF a2 a5)) transposes_S32x81_S81x32_1_0

/-- The identity matrix as 0 and 1. -/
def eye : FVec Ideal S512x512 .f32 :=
  uitofp .f32 (cmpi .eq (addi (iotaInDim S512x512 32 0) (broadcastInDim S512x512 ![] bcast_S_S512x512 (constantI S_ 32 0#32)))
    (iotaInDim S512x512 32 1))

/-- The onsite energies on the diagonal, the same for every k-point. -/
def diagK (a1 : IVec S512 32) (a4 : FVec Ideal S4 .f32) : FVec Ideal S32x512x512 .f32 :=
  broadcastInDim S32x512x512 ![0, 1, 2] bcast_S1x512x512_S32x512x512_0_1_2
    (mulf (broadcastInDim S1x512x512 ![1, 2] bcast_S512x512_S1x512x512_1_2 eye)
      (broadcastInDim S1x512x512 ![0, 1, 2] bcast_S1x512x1_S1x512x512_0_1_2
        (broadcastInDim S1x512x1 ![1] bcast_S512_S1x512x1_1 (onsF a1 a4))))

/-- The program's result from the region's two outputs: the diagonal added to the real part, the two parts stacked. -/
def tail (hr hi : FVec Ideal S32x512x512 .f32) (a1 : IVec S512 32) (a4 : FVec Ideal S4 .f32) : FVec Ideal S2x32x512x512 .f32 :=
  concatenate S2x32x512x512 0
    [⟨S1x32x512x512, broadcastInDim S1x32x512x512 ![1, 2, 3] bcast_S32x512x512_S1x32x512x512_1_2_3 (addf hr (diagK a1 a4))⟩,
     ⟨S1x32x512x512, broadcastInDim S1x32x512x512 ![1, 2, 3] bcast_S32x512x512_S1x32x512x512_1_2_3 hi⟩]
    concatenates_S1x32x512x512_S1x32x512x512_S2x32x512x512_d0

/-- The coefficients handed to the region read, at (degree p, row atom i, column atom j), the gathered coefficient p of
    the pair (i, j). -/
theorem coefT_apply (a1 : IVec S512 32) (a3 : FVec Ideal S4x4x12 .f32) (p : Fin 12) (i j : Fin 512) :
    coefT a1 a3 (ix3 p i j) = coefF a1 a3 (ix3 i j p) :=
  transpose_ix3_201_apply _ _ p i j

/-- The cosine block reads, at (shift s, k-point k), the cosine of the phase of (k, s). -/
theorem cosT_apply (a2 : FVec Ideal S32x3 .f32) (a5 : FVec Ideal S81x3 .f32) (s : Fin 81) (k : Fin 32) :
    cosT a2 a5 (ix2 s k) = Host.cos (angF a2 a5) (ix2 k s) :=
  transpose_ix2_apply _ _ s k

/-- The sine block reads, at (shift s, k-point k), the sine of the phase of (k, s). -/
theorem sinT_apply (a2 : FVec Ideal S32x3 .f32) (a5 : FVec Ideal S81x3 .f32) (s : Fin 81) (k : Fin 32) :
    sinT a2 a5 (ix2 s k) = Host.sin (angF a2 a5) (ix2 k s) :=
  transpose_ix2_apply _ _ s k

end Cert.KernelIdeal.KHost

end
-- ==== Proof.KTailRun.lean ====
/-
  The kernel program's result buffer at the end, as the host tail of what the region wrote back.

  The host operations after the region read the region's two output arrays, the species numbers and the onsite table,
  and write only their own result buffers. Their fold at the result buffer, from any contents `W`, is `tail` of what
  `W` holds at those four buffers (`tail_of`). At the end of the run `W` is the contents when the region is left: the
  two output arrays are what the pipeline wrote back, and the species numbers and the onsite table, which neither the
  region nor the host operations before it write, are as at launch (`V₂_result`).
-/
import proofs.«129299_j34935263986162_1_alg».proof.Proof.KRunMain
import proofs.«129299_j34935263986162_1_alg».proof.Proof.KHost
import Idealize.ShloMosaic.Lib.StableHlo.Run

noncomputable section

namespace Cert.KernelIdeal.KHost

open Idealize.ShloMosaic Idealize.ShloMosaic.TcCoe Idealize.ShloMosaic.ValueIdx Cert.KernelIdeal Cert.KernelIdeal.Gen
open Idealize.SL.Sem
open Cert.KernelIdeal.Facts₀ Cert.KernelIdeal.Facts

/-- The host operations after the region, from any contents: the result buffer ends at `tail` of the two output
    arrays, the species numbers and the onsite table as the contents hold them. -/
theorem tail_of (W : Valuation τ sig (Elt Ideal)) :
    (StableHlo.after hostOps1 W main_v51 : S2x32x512x512.Idx → EReal)
      = tail (W main_v29_0) (W main_v29_1) (W main_arg1) (W main_arg4) := by
  dsimp only [Gen.hostOps1]
  after_results_simp
  rfl

variable (m : (ℓ : Loc nD τ sig) → Buf (Elt Ideal) ℓ)

/-- The species numbers are, when the region is entered, as at launch. -/
theorem V_species (c : Dev nD) : (KRun.V m c main_arg1 : S512.Idx → BitVec 32) = KRun.V₀ m c main_arg1 := by
  dsimp only [KRun.V, Gen.hostOps0]
  after_results_simp

/-- The onsite table is, when the region is entered, as at launch. -/
theorem V_onsite (c : Dev nD) : (KRun.V m c main_arg4 : S4.Idx → EReal) = KRun.V₀ m c main_arg4 := by
  dsimp only [KRun.V, Gen.hostOps0]
  after_results_simp

/-- The result buffer at the end of the run: `tail` of the two arrays the pipeline wrote back and of the species
    numbers and the onsite table at launch. -/
theorem V₂_result (c : Dev nD) :
    (KRun.V₂ m c main_v51 : S2x32x512x512.Idx → EReal)
      = tail ((KRun.dats m 0 c).arrAt 6 cfg0.N) ((KRun.dats m 0 c).arrAt 7 cfg0.N)
          (KRun.V₀ m c main_arg1) (KRun.V₀ m c main_arg4) := by
  have h := tail_of (KRun.V₁ m c)
  rw [KRun.V₁_out6 m c, KRun.V₁_out7 m c, KRun.V₁_of_ne m c main_arg1 (by decide) (by decide),
    KRun.V₁_of_ne m c main_arg4 (by decide) (by decide), V_species m c, V_onsite m c] at h
  exact h

end Cert.KernelIdeal.KHost

end
-- ==== Proof.KRunFlush.lean ====
import proofs.«129299_j34935263986162_1_alg».proof.Proof.Gen.KernelIdeal.Launch
import proofs.«129299_j34935263986162_1_alg».proof.Proof.Gen.KernelIdeal.Skeleton
import proofs.«129299_j34935263986162_1_alg».proof.Proof.Gen.KernelIdeal.Points
import proofs.«129299_j34935263986162_1_alg».proof.Proof.KRun

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## What each point writes back to the output windows' arrays -/

/-- WHAT POINT `t` WRITES BACK to output window 6's array: what the body left in the window's buffer (`out6`: its one
    store over the point's input blocks), read through the window's block. -/
theorem flushed6 (c : Dev nD) (t : Fin cfg0.N) :
    (dats m 0 c).flushed 6 t = (cfg0.win 6).cut (grid0.coords t) (out6 m c t) := by
  show (cfg0.win 6).cut (grid0.coords t) ((dats m 0 c).after 6 t) = _
  rw [after6]

/-- WHAT POINT `t` WRITES BACK to output window 7's array, likewise (`out7`). -/
theorem flushed7 (c : Dev nD) (t : Fin cfg0.N) :
    (dats m 0 c).flushed 7 t = (cfg0.win 7).cut (grid0.coords t) (out7 m c t) := by
  show (cfg0.win 7).cut (grid0.coords t) ((dats m 0 c).after 7 t) = _
  rw [after7]

end Cert.KernelIdeal.KRun

end
-- ==== Proof.KGeom.lean ====
import proofs.«129299_j34935263986162_1_alg».proof.Proof.KRun
import proofs.«129299_j34935263986162_1_alg».proof.Proof.KRunFlush
import Idealize.ShloMosaic.Lib.Pipeline.Value
import Idealize.ShloMosaic.Lib.ValueIdx

set_option maxRecDepth 16384

noncomputable section

namespace Cert.KernelIdeal.KGeom

open Idealize.ShloMosaic Idealize.ShloMosaic.TcCoe Idealize.ShloMosaic.ValueIdx Idealize.SL.Sem
open Cert.KernelIdeal Cert.KernelIdeal.Gen Cert.KernelIdeal.KRun

variable {F : FTy → Type} [FloatOps F]
variable (m : (ℓ : Loc nD τ sig) → Buf (Elt F) ℓ)

/-! ## The windows' block indices over the grid

The grid is 16 × 4. The output windows' blocks are `(0, i, j)` at point `(i, j)`; window 0 moves with the first grid axis,
window 1 with the second, window 3 with both; windows 2, 4 and 5 stay at their one block. -/

theorem idx_facts : ∀ t : Fin cfg0.N,
      win0_0.index t (0 : Fin 2) = win0_6.index t (1 : Fin 3) ∧ win0_0.index t (1 : Fin 2) = 0
    ∧ win0_1.index t (0 : Fin 2) = win0_6.index t (2 : Fin 3) ∧ win0_1.index t (1 : Fin 2) = 0
    ∧ win0_2.index t (0 : Fin 2) = 0 ∧ win0_2.index t (1 : Fin 2) = 0
    ∧ win0_3.index t (0 : Fin 3) = 0 ∧ win0_3.index t (1 : Fin 3) = win0_6.index t (1 : Fin 3)
    ∧ win0_3.index t (2 : Fin 3) = win0_6.index t (2 : Fin 3)
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) ≤ 15 ∧ win0_6.index t (2 : Fin 3) ≤ 3
    ∧ win0_7.index t (0 : Fin 3) = 0 ∧ win0_7.index t (1 : Fin 3) = win0_6.index t (1 : Fin 3)
    ∧ win0_7.index t (2 : Fin 3) = win0_6.index t (2 : Fin 3) :=
  (by decide +kernel : ∀ t : Fin grid0.N, _)

theorem row_lt (t : Fin cfg0.N) (a : Fin 32) : win0_6.index t (1 : Fin 3) * 32 + a.val < 512 := by
  obtain ⟨-, -, -, -, -, -, -, -, -, -, -, -, -, -, h, -⟩ := idx_facts t
  have := a.isLt; omega

theorem col_lt (t : Fin cfg0.N) (b : Fin 128) : win0_6.index t (2 : Fin 3) * 128 + b.val < 512 := by
  obtain ⟨-, -, -, -, -, -, -, -, -, -, -, -, -, -, -, h, -⟩ := idx_facts t
  have := b.isLt; omega

/-- The array row that row `a` of point `t`'s blocks is; -/
def rowAt (t : Fin cfg0.N) (a : Fin 32) : Fin 512 := ⟨win0_6.index t (1 : Fin 3) * 32 + a.val, row_lt t a⟩
/-- and the array column that column `b` is. -/
def colAt (t : Fin cfg0.N) (b : Fin 128) : Fin 512 := ⟨win0_6.index t (2 : Fin 3) * 128 + b.val, col_lt t b⟩

/-! ## Where a block's element sits in its array -/

theorem emb6 (t : Fin cfg0.N) (k : Fin 32) (a : Fin 32) (b : Fin 128) :
    ((cfg0.win 6).blk t).view.emb (ix3 k a b) = ix3 k (rowAt t a) (colAt t b) := by
  obtain ⟨-, -, -, -, -, -, -, -, -, -, -, -, -, h0, -⟩ := idx_facts t
  funext d; apply Fin.ext
  match d with
  | ⟨0, _⟩ => show win0_6.index t (0 : Fin 3) * 32 + 1 * k.val = k.val; omega
  | ⟨1, _⟩ => show win0_6.index t (1 : Fin 3) * 32 + 1 * a.val = win0_6.index t (1 : Fin 3) * 32 + a.val; omega
  | ⟨2, _⟩ => show win0_6.index t (2 : Fin 3) * 128 + 1 * b.val = win0_6.index t (2 : Fin 3) * 128 + b.val; omega

theorem emb7 (t : Fin cfg0.N) (k : Fin 32) (a : Fin 32) (b : Fin 128) :
    ((cfg0.win 7).blk t).view.emb (ix3 k a b) = ix3 k (rowAt t a) (colAt t b) := by
  obtain ⟨-, -, -, -, -, -, -, -, -, -, -, -, -, -, -, -, h0, h1, h2⟩ := idx_facts t
  funext d; apply Fin.ext
  match d with
  | ⟨0, _⟩ => show win0_7.index t (0 : Fin 3) * 32 + 1 * k.val = k.val; omega
  | ⟨1, _⟩ => show win0_7.index t (1 : Fin 3) * 32 + 1 * a.val = win0_6.index t (1 : Fin 3) * 32 + a.val; omega
  | ⟨2, _⟩ => show win0_7.index t (2 : Fin 3) * 128 + 1 * b.val = win0_6.index t (2 : Fin 3) * 128 + b.val; omega

theorem emb0 (t : Fin cfg0.N) (a : Fin 32) (d : Fin 3) :
    ((cfg0.win 0).blk t).view.emb (ix2 a d) = ix2 (rowAt t a) d := by
  obtain ⟨h0, h1, -⟩ := idx_facts t
  funext e; apply Fin.ext
  match e with
  | ⟨0, _⟩ => show win0_0.index t (0 : Fin 2) * 32 + 1 * a.val = win0_6.index t (1 : Fin 3) * 32 + a.val; omega
  | ⟨1, _⟩ => show win0_0.index t (1 : Fin 2) * 3 + 1 * d.val = d.val; omega

theorem emb1 (t : Fin cfg0.N) (b : Fin 128) (d : Fin 3) :
    ((cfg0.win 1).blk t).view.emb (ix2 b d) = ix2 (colAt t b) d := by
  obtain ⟨-, -, h0, h1, -⟩ := idx_facts t
  funext e; apply Fin.ext
  match e with
  | ⟨0, _⟩ => show win0_1.index t (0 : Fin 2) * 128 + 1 * b.val = win0_6.index t (2 : Fin 3) * 128 + b.val; omega
  | ⟨1, _⟩ => show win0_1.index t (1 : Fin 2) * 3 + 1 * d.val = d.val; omega

theorem emb2 (t : Fin cfg0.N) (s : Fin 81) (d : Fin 3) :
    ((cfg0.win 2).blk t).view.emb (ix2 s d) = ix2 s d := by
  obtain ⟨-, -, -, -, h0, h1, -⟩ := idx_facts t
  funext e; apply Fin.ext
  match e with
  | ⟨0, _⟩ => show win0_2.index t (0 : Fin 2) * 81 + 1 * s.val = s.val; omega
  | ⟨1, _⟩ => show win0_2.index t (1 : Fin 2) * 3 + 1 * d.val = d.val; omega

theorem emb3 (t : Fin cfg0.N) (p : Fin 12) (a : Fin 32) (b : Fin 128) :
    ((cfg0.win 3).blk t).view.emb (ix3 p a b) = ix3 p (rowAt t a) (colAt t b) := by
  obtain ⟨-, -, -, -, -, -, h0, h1, h2, -⟩ := idx_facts t
  funext e; apply Fin.ext
  match e with
  | ⟨0, _⟩ => show win0_3.index t (0 : Fin 3) * 12 + 1 * p.val = p.val; omega
  | ⟨1, _⟩ => show win0_3.index t (1 : Fin 3) * 32 + 1 * a.val = win0_6.index t (1 : Fin 3) * 32 + a.val; omega
  | ⟨2, _⟩ => show win0_3.index t (2 : Fin 3) * 128 + 1 * b.val = win0_6.index t (2 : Fin 3) * 128 + b.val; omega

theorem emb4 (t : Fin cfg0.N) (s : Fin 81) (k : Fin 32) :
    ((cfg0.win 4).blk t).view.emb (ix2 s k) = ix2 s k := by
  obtain ⟨-, -, -, -, -, -, -, -, -, h0, h1, -⟩ := idx_facts t
  funext e; apply Fin.ext
  match e with
  | ⟨0, _⟩ => show win0_4.index t (0 : Fin 2) * 81 + 1 * s.val = s.val; omega
  | ⟨1, _⟩ => show win0_4.index t (1 : Fin 2) * 32 + 1 * k.val = k.val; omega

theorem emb5 (t : Fin cfg0.N) (s : Fin 81) (k : Fin 32) :
    ((cfg0.win 5).blk t).view.emb (ix2 s k) = ix2 s k := by
  obtain ⟨-, -, -, -, -, -, -, -, -, -, -, h0, h1, -⟩ := idx_facts t
  funext e; apply Fin.ext
  match e with
  | ⟨0, _⟩ => show win0_5.index t (0 : Fin 2) * 81 + 1 * s.val = s.val; omega
  | ⟨1, _⟩ => show win0_5.index t (1 : Fin 2) * 32 + 1 * k.val = k.val; omega

/-! ## The input blocks read at an index: the array, as the region finds it, at the element's place -/

theorem blk0 (c : Dev nD) (t : Fin cfg0.N) (a : Fin 32) (d : Fin 3) :
    iblk m c 0 t (ix2 a d) = V m c main_arg0 (ix2 (rowAt t a) d) := by
  show V m c main_arg0 (((cfg0.win 0).blk t).view.emb (ix2 a d)) = _
  rw [emb0]

theorem blk1 (c : Dev nD) (t : Fin cfg0.N) (b : Fin 128) (d : Fin 3) :
    iblk m c 1 t (ix2 b d) = V m c main_arg0 (ix2 (colAt t b) d) := by
  show V m c main_arg0 (((cfg0.win 1).blk t).view.emb (ix2 b d)) = _
  rw [emb1]

theorem blk2 (c : Dev nD) (t : Fin cfg0.N) (s : Fin 81) (d : Fin 3) :
    iblk m c 2 t (ix2 s d) = V m c main_arg5 (ix2 s d) := by
  show V m c main_arg5 (((cfg0.win 2).blk t).view.emb (ix2 s d)) = _
  rw [emb2]

theorem blk3 (c : Dev nD) (t : Fin cfg0.N) (p : Fin 12) (a : Fin 32) (b : Fin 128) :
    iblk m c 3 t (ix3 p a b) = V m c main_v18 (ix3 p (rowAt t a) (colAt t b)) := by
  show V m c main_v18 (((cfg0.win 3).blk t).view.emb (ix3 p a b)) = _
  rw [emb3]

theorem blk4 (c : Dev nD) (t : Fin cfg0.N) (s : Fin 81) (k : Fin 32) :
    iblk m c 4 t (ix2 s k) = V m c main_v26 (ix2 s k) := by
  show V m c main_v26 (((cfg0.win 4).blk t).view.emb (ix2 s k)) = _
  rw [emb4]

theorem blk5 (c : Dev nD) (t : Fin cfg0.N) (s : Fin 81) (k : Fin 32) :
    iblk m c 5 t (ix2 s k) = V m c main_v28 (ix2 s k) := by
  show V m c main_v28 (((cfg0.win 5).blk t).view.emb (ix2 s k)) = _
  rw [emb5]

end Cert.KernelIdeal.KGeom

end
-- ==== Proof.KGeomCover.lean ====
import proofs.«129299_j34935263986162_1_alg».proof.Proof.KGeom

set_option maxRecDepth 16384

noncomputable section

namespace Cert.KernelIdeal.KGeom

open Idealize.ShloMosaic Idealize.ShloMosaic.TcCoe Idealize.ShloMosaic.ValueIdx Idealize.SL.Sem
open Cert.KernelIdeal Cert.KernelIdeal.Gen Cert.KernelIdeal.KRun

/-! ## The output windows' blocks cover their arrays -/

/-- An index of the array is in point `t`'s block of window 6 iff each coordinate is in the block's range on its axis. -/
theorem mem_blk6 (t : Fin cfg0.N) (i : S32x512x512.Idx) :
    i ∈ ((cfg0.win 6).blk t).view.set ↔ ∀ a : Fin 3, win0_6.index t a * S32x32x128.size a ≤ (i a).val ∧ (i a).val < win0_6.index t a * S32x32x128.size a + S32x32x128.size a := by
  show i ∈ ((View.whole main_v29_0).slice (win0_6.rect t)).set ↔ _
  rw [View.set_slice_whole, Rect.mem_set_unit]
  exact Iff.rfl

/-- Every block of the array is SOME point's. -/
theorem idx_onto6 : ∀ (q1 : Fin 16) (q2 : Fin 4), ∃ t : Fin cfg0.N, win0_6.index t = ![0, q1.val, q2.val] :=
  (by decide +kernel : ∀ (q1 : Fin 16) (q2 : Fin 4), ∃ t : Fin grid0.N, win0_6.index t = ![0, q1.val, q2.val])

/-- THE COVER: every index of output window 6's array is in the block of a point that writes it back — the point whose
    block indices are the row's and the column's quotients by the block sizes. -/
theorem cover6 (i : S32x512x512.Idx) : ∃ t : Fin cfg0.N, (cfg0.win 6).flush t = true ∧ i ∈ ((cfg0.win 6).blk t).view.set := by
  have hi0 : (i 0).val < 32 := (i 0).isLt
  have hi1 : (i 1).val < 512 := (i 1).isLt
  have hi2 : (i 2).val < 512 := (i 2).isLt
  obtain ⟨t, ht⟩ := idx_onto6 ⟨(i 1).val / 32, by omega⟩ ⟨(i 2).val / 128, by omega⟩
  have q0 : win0_6.index t (0 : Fin 3) = 0 := congrFun ht 0
  have q1 : win0_6.index t (1 : Fin 3) = (i 1).val / 32 := congrFun ht 1
  have q2 : win0_6.index t (2 : Fin 3) = (i 2).val / 128 := congrFun ht 2
  refine ⟨t, flush0_6 t, ?_⟩
  rw [mem_blk6]
  intro a
  match a with
  | ⟨0, _⟩ => show win0_6.index t (0 : Fin 3) * 32 ≤ (i 0).val ∧ (i 0).val < win0_6.index t (0 : Fin 3) * 32 + 32; omega
  | ⟨1, _⟩ => show win0_6.index t (1 : Fin 3) * 32 ≤ (i 1).val ∧ (i 1).val < win0_6.index t (1 : Fin 3) * 32 + 32; omega
  | ⟨2, _⟩ => show win0_6.index t (2 : Fin 3) * 128 ≤ (i 2).val ∧ (i 2).val < win0_6.index t (2 : Fin 3) * 128 + 128; omega

/-- An index of the array is in point `t`'s block of window 7 iff each coordinate is in the block's range on its axis. -/
theorem mem_blk7 (t : Fin cfg0.N) (i : S32x512x512.Idx) :
    i ∈ ((cfg0.win 7).blk t).view.set ↔ ∀ a : Fin 3, win0_7.index t a * S32x32x128.size a ≤ (i a).val ∧ (i a).val < win0_7.index t a * S32x32x128.size a + S32x32x128.size a := by
  show i ∈ ((View.whole main_v29_1).slice (win0_7.rect t)).set ↔ _
  rw [View.set_slice_whole, Rect.mem_set_unit]
  exact Iff.rfl

/-- Every block of the array is SOME point's. -/
theorem idx_onto7 : ∀ (q1 : Fin 16) (q2 : Fin 4), ∃ t : Fin cfg0.N, win0_7.index t = ![0, q1.val, q2.val] :=
  (by decide +kernel : ∀ (q1 : Fin 16) (q2 : Fin 4), ∃ t : Fin grid0.N, win0_7.index t = ![0, q1.val, q2.val])

/-- THE COVER: every index of output window 7's array is in the block of a point that writes it back — the point whose
    block indices are the row's and the column's quotients by the block sizes. -/
theorem cover7 (i : S32x512x512.Idx) : ∃ t : Fin cfg0.N, (cfg0.win 7).flush t = true ∧ i ∈ ((cfg0.win 7).blk t).view.set := by
  have hi0 : (i 0).val < 32 := (i 0).isLt
  have hi1 : (i 1).val < 512 := (i 1).isLt
  have hi2 : (i 2).val < 512 := (i 2).isLt
  obtain ⟨t, ht⟩ := idx_onto7 ⟨(i 1).val / 32, by omega⟩ ⟨(i 2).val / 128, by omega⟩
  have q0 : win0_7.index t (0 : Fin 3) = 0 := congrFun ht 0
  have q1 : win0_7.index t (1 : Fin 3) = (i 1).val / 32 := congrFun ht 1
  have q2 : win0_7.index t (2 : Fin 3) = (i 2).val / 128 := congrFun ht 2
  refine ⟨t, flush0_7 t, ?_⟩
  rw [mem_blk7]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 32 ≤ (i 1).val ∧ (i 1).val < win0_7.index t (1 : Fin 3) * 32 + 32; omega
  | ⟨2, _⟩ => show win0_7.index t (2 : Fin 3) * 128 ≤ (i 2).val ∧ (i 2).val < win0_7.index t (2 : Fin 3) * 128 + 128; omega

end Cert.KernelIdeal.KGeom

end
-- ==== Proof.KHostV.lean ====
/-
  What the region finds: the buffers after the host operations that precede it.

  Those operations write only their own result buffers, so the position and shift arguments are as at launch; the three
  arrays computed for the region are the coefficient table with the degree first and the cosine and sine blocks, each
  the named function of the launch arguments.
-/
import proofs.«129299_j34935263986162_1_alg».proof.Proof.KRun
import proofs.«129299_j34935263986162_1_alg».proof.Proof.KHost
import Idealize.ShloMosaic.Lib.StableHlo.Run

noncomputable section

namespace Cert.KernelIdeal.KHost

open Idealize.ShloMosaic Idealize.ShloMosaic.TcCoe Idealize.ShloMosaic.ValueIdx Cert.KernelIdeal Cert.KernelIdeal.Gen
open Idealize.SL.Sem
open Cert.KernelIdeal.Facts₀ Cert.KernelIdeal.Facts

variable (m : (ℓ : Loc nD τ sig) → Buf (Elt Ideal) ℓ)

/-- The positions are as at launch. -/
theorem V_pos (c : Dev nD) : (KRun.V m c main_arg0 : S512x3.Idx → EReal) = KRun.V₀ m c main_arg0 := by
  dsimp only [KRun.V, Gen.hostOps0]
  after_results_simp

/-- The shifts are as at launch. -/
theorem V_shift (c : Dev nD) : (KRun.V m c main_arg5 : S81x3.Idx → EReal) = KRun.V₀ m c main_arg5 := by
  dsimp only [KRun.V, Gen.hostOps0]
  after_results_simp

/-- The coefficient table handed to the region. -/
theorem V_coef (c : Dev nD) :
    (KRun.V m c main_v18 : S12x512x512.Idx → EReal) = coefT (KRun.V₀ m c main_arg1) (KRun.V₀ m c main_arg3) := by
  dsimp only [KRun.V, Gen.hostOps0]
  after_results_simp
  rfl

/-- The cosine block handed to the region. -/
theorem V_cos (c : Dev nD) :
    (KRun.V m c main_v26 : S81x32.Idx → EReal) = cosT (KRun.V₀ m c main_arg2) (KRun.V₀ m c main_arg5) := by
  dsimp only [KRun.V, Gen.hostOps0]
  after_results_simp
  rfl

/-- The sine block handed to the region. -/
theorem V_sin (c : Dev nD) :
    (KRun.V m c main_v28 : S81x32.Idx → EReal) = sinT (KRun.V₀ m c main_arg2) (KRun.V₀ m c main_arg5) := by
  dsimp only [KRun.V, Gen.hostOps0]
  after_results_simp
  rfl

end Cert.KernelIdeal.KHost

end
-- ==== Proof.PairSpec.lean ====
/-
  The pair potential of a tight-binding Hamiltonian, as one scalar function on the extended reals.

  For a row atom at position p, a column atom at position q and a lattice shift t, the separation vector is (q + t) - p;
  its squared length is the sum of the three squared components, taken left to right from zero. The distance is the
  square root of the squared length where that is positive and zero elsewhere (the root is taken of 1 at the other
  entries, so that no root of a non-positive number is ever formed). The potential is a polynomial of degree 11 in the
  distance scaled to atomic units, evaluated by Horner's rule from the leading coefficient down, and kept only where the
  distance lies in the window (0.1, 6]; elsewhere it is zero.

  The five constants stay the binary words the two programs print: the same word on both sides is never evaluated.
-/
import Idealize.ShloMosaic.PureOps.Ideal
import Idealize.ShloMosaic.Lib.ValueIdx

noncomputable section

namespace Cert.PairSpec

open Idealize.ShloMosaic

/-- Zero, one, the Ångström-to-Bohr factor, and the two ends of the distance window, as the printed words denote them. -/
abbrev zero : EReal := Ideal.ofBits .f32 0x00000000#32
abbrev one : EReal := Ideal.ofBits .f32 0x3F800000#32
abbrev bohr : EReal := Ideal.ofBits .f32 0x3FF1E28C#32
abbrev lo : EReal := Ideal.ofBits .f32 0x3DCCCCCD#32
abbrev hi : EReal := Ideal.ofBits .f32 0x40C00000#32

/-- One squared component of the separation vector (q + t) - p. -/
def sq (p q t : EReal) : EReal := ((q + t) - p) * ((q + t) - p)

/-- The squared length of the separation: the three squared components added left to right, starting from zero. -/
def dist2 (p q t : Fin 3 → EReal) : EReal :=
  ((zero + sq (p 0) (q 0) (t 0)) + sq (p 1) (q 1) (t 1)) + sq (p 2) (q 2) (t 2)

/-- The distance: the root of the squared length where that is positive (of 1 elsewhere), then zero elsewhere. -/
def dist (r2 : EReal) : EReal :=
  Scalar.select (Ideal.cmp .ogt r2 zero) (Ideal.sqrt (Scalar.select (Ideal.cmp .ogt r2 zero) r2 one)) zero

/-- Horner's rule from the leading coefficient c 11 down to c 0, starting from zero. -/
def horner (x : EReal) (c : Fin 12 → EReal) : EReal :=
  (((((((((((zero * x + c 11) * x + c 10) * x + c 9) * x + c 8) * x + c 7) * x + c 6) * x + c 5) * x + c 4) * x + c 3) * x
    + c 2) * x + c 1) * x + c 0

/-- The potential at distance r: the polynomial in r · bohr inside the window (lo, hi], zero outside. -/
def windowed (r : EReal) (c : Fin 12 → EReal) : EReal :=
  Scalar.select (Ideal.cmp .ogt r lo &&& Ideal.cmp .ole r hi) (horner (r * bohr) c) zero

/-- The pair potential of (p, q, t) with coefficients c. -/
def pairV (p q t : Fin 3 → EReal) (c : Fin 12 → EReal) : EReal :=
  windowed (dist (dist2 p q t)) c

/-- A sum over three components that starts from an initial value is that value followed by the three terms in order. -/
theorem init_add_sum_three (z : EReal) (f : Fin 3 → EReal) : z + ∑ k : Fin 3, f k = ((z + f 0) + f 1) + f 2 := by
  rw [Fin.sum_univ_three, ← add_assoc, ← add_assoc]

end Cert.PairSpec

end
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.KBodyDist.lean ====
/-
  The distance part of the kernel's body, read at an index of a block.

  A block pairs 32 row atoms with 128 column atoms over all 81 lattice shifts. For each of the three coordinates the body
  takes that column of the row atoms' positions, of the column atoms' positions and of the shifts, places each along its
  own axis of a [32, 128, 81] array, and forms (q + t) - p there; the squares are added left to right from zero. So at
  (a, b, s) the accumulated value is the squared length of the separation of row atom a, column atom b and shift s, and
  the next value is the distance: its root where positive, zero elsewhere.
-/
import proofs.«129299_j34935263986162_1_alg».proof.Proof.Gen.KernelIdeal.Skeleton
import proofs.«129299_j34935263986162_1_alg».proof.Proof.PairSpec
import proofs.«129299_j34935263986162_1_alg».proof.Proof.LibRank3Layout
import proofs.«129299_j34935263986162_1_alg».proof.Proof.LibKeepdims
import Idealize.ShloMosaic.Lib.ValueLayout

noncomputable section

namespace Cert.KernelIdeal.KVal

open Idealize.ShloMosaic Idealize.ShloMosaic.ValueIdx Cert.KernelIdeal Cert.KernelIdeal.Gen Cert.PairSpec
open Cert.LibRank3Layout Cert.LibKeepdims

/-- Column `c` of the row atoms' positions, placed along the first axis: at (a, b, s) it is row atom a's coordinate c. -/
theorem row_apply (v0 : FVec Ideal S32x3 .f32) (o : Nat) (c : Fin 3) (hc : c.val = o)
    (hs : S32x3.Slices ![0, o] S32x1) (h1 : S32x1.ShapeCasts S32) (h2 : S32.ShapeCasts S32x1x1)
    (h3 : S32x1x1.Broadcasts S32x128x81) (a : Fin 32) (b : Fin 128) (s : Fin 81) :
    broadcastTo S32x128x81 (shapeCast S32x1x1 (shapeCast S32 (extractStridedSlice S32x1 ![0, o] v0 hs) h1) h2) h3 (ix3 a b s)
      = v0 (ix2 a c) :=
  (broadcastTo_a11_abc_apply _ h3 a b s).trans <|
  (shapeCast_a_a11_apply _ h2 a 0 0).trans <|
  (shapeCast_a1_a_apply _ h1 a).trans <|
  slice2_axis1_apply o v0 hs a (0 : Fin 1) c (by rw [hc]; rfl)

/-- Column `c` of the row atoms' positions as the [32, 1, 1] array the body keeps: at (a, 0, 0) it is row atom a's
    coordinate c. -/
theorem rowKept_apply (v0 : FVec Ideal S32x3 .f32) (o : Nat) (c : Fin 3) (hc : c.val = o)
    (hs : S32x3.Slices ![0, o] S32x1) (h1 : S32x1.ShapeCasts S32) (h2 : S32.ShapeCasts S32x1x1) (a : Fin 32) :
    shapeCast S32x1x1 (shapeCast S32 (extractStridedSlice S32x1 ![0, o] v0 hs) h1) h2 (ix3 a (0 : Fin 1) (0 : Fin 1))
      = v0 (ix2 a c) :=
  (shapeCast_a_a11_apply _ h2 a 0 0).trans <|
  (shapeCast_a1_a_apply _ h1 a).trans <|
  slice2_axis1_apply o v0 hs a (0 : Fin 1) c (by rw [hc]; rfl)

/-- Column `c` of the column atoms' positions along the second axis plus column `c` of the shifts along the third, then
    repeated along the first: at (a, b, s) it is q_b + t_s in coordinate c. -/
theorem colShift_apply (v1 : FVec Ideal S128x3 .f32) (v2 : FVec Ideal S81x3 .f32) (o : Nat) (c : Fin 3) (hc : c.val = o)
    (hs1 : S128x3.Slices ![0, o] S128x1) (h11 : S128x1.ShapeCasts S128) (h12 : S128.ShapeCasts S1x128x1)
    (h13 : S1x128x1.Broadcasts S1x128x81)
    (hs2 : S81x3.Slices ![0, o] S81x1) (h21 : S81x1.ShapeCasts S81) (h22 : S81.ShapeCasts S1x1x81)
    (h23 : S1x1x81.Broadcasts S1x128x81) (h4 : S1x128x81.Broadcasts S32x128x81)
    (a : Fin 32) (b : Fin 128) (s : Fin 81) :
    broadcastTo S32x128x81
        (addf (broadcastTo S1x128x81 (shapeCast S1x128x1 (shapeCast S128 (extractStridedSlice S128x1 ![0, o] v1 hs1) h11) h12) h13)
              (broadcastTo S1x128x81 (shapeCast S1x1x81 (shapeCast S81 (extractStridedSlice S81x1 ![0, o] v2 hs2) h21) h22) h23))
        h4 (ix3 a b s)
      = v1 (ix2 b c) + v2 (ix2 s c) := by
  refine (broadcastTo_1ab_cab_apply _ h4 a b s).trans ?_
  refine congrArg₂ (· + ·) ?_ ?_
  · exact (broadcastTo_1a1_1ab_apply _ h13 0 b s).trans <|
      (shapeCast_a_1a1_apply _ h12 0 b 0).trans <|
      (shapeCast_a1_a_apply _ h11 b).trans <|
      slice2_axis1_apply o v1 hs1 b (0 : Fin 1) c (by rw [hc]; rfl)
  · exact (broadcastTo_11b_1ab_apply _ h23 0 b s).trans <|
      (shapeCast_a_11a_apply _ h22 0 0 s).trans <|
      (shapeCast_a1_a_apply _ h21 s).trans <|
      slice2_axis1_apply o v2 hs2 s (0 : Fin 1) c (by rw [hc]; rfl)

/-- A squared component from its two placed halves. -/
theorem sq_of {A B p q t : EReal} (hA : A = q + t) (hB : B = p) : (A - B) * (A - B) = sq p q t := by
  subst hA hB; rfl

/-- After two coordinates the accumulated value at (a, b, s) is zero plus the first two squared components. -/
theorem pay4_apply (v0 : FVec Ideal S32x3 .f32) (v1 : FVec Ideal S128x3 .f32) (v2 : FVec Ideal S81x3 .f32)
    (a : Fin 32) (b : Fin 128) (s : Fin 81) :
    k0_pay4 (F := Ideal) v0 v1 v2 (ix3 a b s)
      = (zero + sq (v0 (ix2 a 0)) (v1 (ix2 b 0)) (v2 (ix2 s 0))) + sq (v0 (ix2 a 1)) (v1 (ix2 b 1)) (v2 (ix2 s 1)) := by
  unfold k0_pay4
  refine congrArg₂ (· + ·) (congrArg₂ (· + ·) rfl ?_) ?_
  · exact sq_of (colShift_apply v1 v2 0 0 rfl _ _ _ _ _ _ _ _ _ a b s) (row_apply v0 0 0 rfl _ _ _ _ a b s)
  · exact sq_of (colShift_apply v1 v2 1 1 rfl _ _ _ _ _ _ _ _ _ a b s) (row_apply v0 1 1 rfl _ _ _ _ a b s)

/-- The third coordinate of the row atoms, kept as a [32, 1, 1] array. -/
theorem pay5_apply (v0 : FVec Ideal S32x3 .f32) (a : Fin 32) :
    k0_pay5 (F := Ideal) v0 (ix3 a (0 : Fin 1) (0 : Fin 1)) = v0 (ix2 a 2) := by
  unfold k0_pay5
  exact rowKept_apply v0 2 2 rfl _ _ _ a

/-- The third coordinate of q + t. -/
theorem pay6_apply (v1 : FVec Ideal S128x3 .f32) (v2 : FVec Ideal S81x3 .f32) (a : Fin 32) (b : Fin 128) (s : Fin 81) :
    k0_pay6 (F := Ideal) v1 v2 (ix3 a b s) = v1 (ix2 b 2) + v2 (ix2 s 2) := by
  unfold k0_pay6
  exact colShift_apply v1 v2 2 2 rfl _ _ _ _ _ _ _ _ _ a b s

/-- The distance at (a, b, s) from the accumulated two components, the kept third row coordinate and the third q + t. -/
theorem pay7_apply (v37 : FVec Ideal S32x128x81 .f32) (v40 : FVec Ideal S32x1x1 .f32) (v50 : FVec Ideal S32x128x81 .f32)
    (a : Fin 32) (b : Fin 128) (s : Fin 81) :
    k0_pay7 (F := Ideal) v37 v40 v50 (ix3 a b s)
      = dist (v37 (ix3 a b s) + (v50 (ix3 a b s) - v40 (ix3 a (0 : Fin 1) (0 : Fin 1))) * (v50 (ix3 a b s) - v40 (ix3 a (0 : Fin 1) (0 : Fin 1)))) := by
  unfold k0_pay7
  have e : broadcastTo S32x128x81 v40 broadcasts_S32x1x1_S32x128x81 (ix3 a b s) = v40 (ix3 a (0 : Fin 1) (0 : Fin 1)) :=
    broadcastTo_a11_abc_apply v40 _ a b s
  show dist (v37 (ix3 a b s) + (v50 (ix3 a b s) - broadcastTo S32x128x81 v40 broadcasts_S32x1x1_S32x128x81 (ix3 a b s))
      * (v50 (ix3 a b s) - broadcastTo S32x128x81 v40 broadcasts_S32x1x1_S32x128x81 (ix3 a b s))) = _
  rw [e]

/-- The distance of row atom a, column atom b and shift s of a block, from the three input blocks. -/
theorem dist_apply (v0 : FVec Ideal S32x3 .f32) (v1 : FVec Ideal S128x3 .f32) (v2 : FVec Ideal S81x3 .f32)
    (a : Fin 32) (b : Fin 128) (s : Fin 81) :
    k0_pay7 (F := Ideal) (k0_pay4 v0 v1 v2) (k0_pay5 v0) (k0_pay6 v1 v2) (ix3 a b s)
      = dist (dist2 (fun c => v0 (ix2 a c)) (fun c => v1 (ix2 b c)) (fun c => v2 (ix2 s c))) := by
  rw [pay7_apply, pay4_apply, pay5_apply, pay6_apply]
  rfl

/-- The distance in atomic units. -/
theorem pay8_apply (v37 : FVec Ideal S32x128x81 .f32) (v40 : FVec Ideal S32x1x1 .f32) (v50 : FVec Ideal S32x128x81 .f32)
    (a : Fin 32) (b : Fin 128) (s : Fin 81) :
    k0_pay8 (F := Ideal) v37 v40 v50 (ix3 a b s) = k0_pay7 (F := Ideal) v37 v40 v50 (ix3 a b s) * bohr := by
  unfold k0_pay8
  rfl

end Cert.KernelIdeal.KVal

end
-- ==== Proof.KBodyPoly.lean ====
/-
  The polynomial part of the kernel's body, read at an index of a block.

  The twelve coefficient planes of a block, one per degree, each hold one number per (row atom, column atom); a plane is
  placed on the first two axes of a [32, 128, 81] array and repeated along the shifts. Horner's rule runs from degree 11
  down: the running value is multiplied by the scaled distance and the next plane is added. The result is kept inside
  the distance window and zeroed outside, and the first two axes are then flattened, row atom major, into the 4096 rows
  of the left factor of the phase product.
-/
import proofs.«129299_j34935263986162_1_alg».proof.Proof.KBodyDist

noncomputable section

namespace Cert.KernelIdeal.KVal

open Idealize.ShloMosaic Idealize.ShloMosaic.ValueIdx Cert.KernelIdeal Cert.KernelIdeal.Gen Cert.PairSpec
open Cert.LibRank3Layout Cert.LibKeepdims

/-- A coefficient plane placed on the first two axes and repeated along the shifts: at (a, b, s) it is the plane's entry
    for row atom a and column atom b. -/
theorem coef_apply (v : FVec Ideal S1x32x128 .f32) (h1 : S1x32x128.ShapeCasts S32x128) (h2 : S32x128.ShapeCasts S32x128x1)
    (h3 : S32x128x1.Broadcasts S32x128x81) (a : Fin 32) (b : Fin 128) (s : Fin 81) :
    broadcastTo S32x128x81 (shapeCast S32x128x1 (shapeCast S32x128 v h1) h2) h3 (ix3 a b s) = v (ix3 (0 : Fin 1) a b) :=
  (broadcastTo_ab1_abc_apply _ h3 a b s).trans <|
  (shapeCast_ab_ab1_apply _ h2 a b 0).trans <|
  shapeCast_1ab_ab_apply v h1 a b

/-- One step of Horner's rule, with the running value and the coefficient each replaced by an equal. -/
theorem step {y y' x c c' : EReal} (hy : y = y') (hc : c = c') : y * x + c = y' * x + c' := by
  rw [hy, hc]

/-- Degrees 11 to 8. -/
theorem pay9_apply (v37 : FVec Ideal S32x128x81 .f32) (v40 : FVec Ideal S32x1x1 .f32) (v50 : FVec Ideal S32x128x81 .f32)
    (c11 c10 c9 c8 : FVec Ideal S1x32x128 .f32) (a : Fin 32) (b : Fin 128) (s : Fin 81) :
    k0_pay9 (F := Ideal) v37 v40 v50 c11 c10 c9 c8 (ix3 a b s)
      = (((zero * k0_pay8 (F := Ideal) v37 v40 v50 (ix3 a b s) + c11 (ix3 (0 : Fin 1) a b))
            * k0_pay8 (F := Ideal) v37 v40 v50 (ix3 a b s) + c10 (ix3 (0 : Fin 1) a b))
          * k0_pay8 (F := Ideal) v37 v40 v50 (ix3 a b s) + c9 (ix3 (0 : Fin 1) a b))
        * k0_pay8 (F := Ideal) v37 v40 v50 (ix3 a b s) + c8 (ix3 (0 : Fin 1) a b) := by
  unfold k0_pay9
  exact step (step (step (step rfl (coef_apply c11 _ _ _ a b s)) (coef_apply c10 _ _ _ a b s)) (coef_apply c9 _ _ _ a b s))
    (coef_apply c8 _ _ _ a b s)

/-- Degrees 7 to 2, and the multiplication that opens degree 1. -/
theorem pay10_apply (v65 v90 : FVec Ideal S32x128x81 .f32) (c7 c6 c5 c4 c3 c2 : FVec Ideal S1x32x128 .f32)
    (a : Fin 32) (b : Fin 128) (s : Fin 81) :
    k0_pay10 (F := Ideal) v65 v90 c7 c6 c5 c4 c3 c2 (ix3 a b s)
      = ((((((v90 (ix3 a b s) * v65 (ix3 a b s) + c7 (ix3 (0 : Fin 1) a b)) * v65 (ix3 a b s) + c6 (ix3 (0 : Fin 1) a b))
              * v65 (ix3 a b s) + c5 (ix3 (0 : Fin 1) a b)) * v65 (ix3 a b s) + c4 (ix3 (0 : Fin 1) a b))
            * v65 (ix3 a b s) + c3 (ix3 (0 : Fin 1) a b)) * v65 (ix3 a b s) + c2 (ix3 (0 : Fin 1) a b))
          * v65 (ix3 a b s) := by
  unfold k0_pay10
  exact congrArg (· * v65 (ix3 a b s))
    (step (step (step (step (step (step rfl (coef_apply c7 _ _ _ a b s)) (coef_apply c6 _ _ _ a b s)) (coef_apply c5 _ _ _ a b s))
      (coef_apply c4 _ _ _ a b s)) (coef_apply c3 _ _ _ a b s)) (coef_apply c2 _ _ _ a b s))

/-- The degree-1 plane. -/
theorem pay11_apply (c1 : FVec Ideal S1x32x128 .f32) (a : Fin 32) (b : Fin 128) (s : Fin 81) :
    k0_pay11 (F := Ideal) c1 (ix3 a b s) = c1 (ix3 (0 : Fin 1) a b) := by
  unfold k0_pay11
  exact coef_apply c1 _ _ _ a b s

/-- The last two steps, the window and the flattening: row r = a · 128 + b of the left factor holds, at shift s, the
    windowed value of the finished polynomial. -/
theorem pay1_apply (v63 v65 v130 v131 : FVec Ideal S32x128x81 .f32) (c0 : FVec Ideal S1x32x128 .f32)
    (r : Fin 4096) (s : Fin 81) (a : Fin 32) (b : Fin 128) (hr : r.val = a.val * 128 + b.val) :
    k0_pay1 (F := Ideal) v63 v65 v130 v131 c0 (ix2 r s)
      = Scalar.select (Ideal.cmp .ogt (v63 (ix3 a b s)) lo &&& Ideal.cmp .ole (v63 (ix3 a b s)) hi)
          ((v130 (ix3 a b s) + v131 (ix3 a b s)) * v65 (ix3 a b s) + c0 (ix3 (0 : Fin 1) a b)) zero := by
  unfold k0_pay1
  refine (shapeCast_abc_mc_apply _ _ r s a b hr).trans ?_
  exact congrArg (fun y => Scalar.select (Ideal.cmp .ogt (v63 (ix3 a b s)) lo &&& Ideal.cmp .ole (v63 (ix3 a b s)) hi) y zero)
    (step rfl (coef_apply c0 _ _ _ a b s))

/-- The left factor of the phase product, from the blocks a grid point is handed: row a · 128 + b holds, at shift s, the pair
    potential of row atom a, column atom b and shift s with the block's twelve coefficients for that pair. -/
theorem leftFactor_apply (v0 : FVec Ideal S32x3 .f32) (v1 : FVec Ideal S128x3 .f32) (v2 : FVec Ideal S81x3 .f32)
    (c : Fin 12 → FVec Ideal S1x32x128 .f32)
    (r : Fin 4096) (s : Fin 81) (a : Fin 32) (b : Fin 128) (hr : r.val = a.val * 128 + b.val) :
    k0_pay1 (F := Ideal) (k0_pay7 (k0_pay4 v0 v1 v2) (k0_pay5 v0) (k0_pay6 v1 v2)) (k0_pay8 (k0_pay4 v0 v1 v2) (k0_pay5 v0) (k0_pay6 v1 v2))
        (k0_pay10 (k0_pay8 (k0_pay4 v0 v1 v2) (k0_pay5 v0) (k0_pay6 v1 v2))
          (k0_pay9 (k0_pay4 v0 v1 v2) (k0_pay5 v0) (k0_pay6 v1 v2) (c 11) (c 10) (c 9) (c 8)) (c 7) (c 6) (c 5) (c 4) (c 3) (c 2))
        (k0_pay11 (c 1)) (c 0) (ix2 r s)
      = pairV (fun k => v0 (ix2 a k)) (fun k => v1 (ix2 b k)) (fun k => v2 (ix2 s k)) (fun k => c k (ix3 (0 : Fin 1) a b)) := by
  rw [pay1_apply _ _ _ _ _ r s a b hr, pay10_apply, pay11_apply, pay9_apply, pay8_apply, dist_apply]
  rfl

end Cert.KernelIdeal.KVal

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KBodyOut.lean ====
/-
  What a grid point stores, read at an index of an output block.

  The left factor has one row per (row atom, column atom) pair of the block and one column per lattice shift; the right
  factor holds, for each shift and each k-point, the cosine (for the real part) or the sine (for the imaginary part) of
  the Bloch phase. Their product into a zero accumulator is unflattened back to [32, 128, 32] and its k-point axis is moved
  to the front. So the stored block holds, at (k, a, b), the sum over the shifts of the pair potential times the phase
  factor of that shift and k-point.
-/
import proofs.«129299_j34935263986162_1_alg».proof.Proof.KBodyPoly
import proofs.«129299_j34935263986162_1_alg».proof.Proof.LibMatmulPlain

noncomputable section

namespace Cert.KernelIdeal.KVal

open Idealize.ShloMosaic Idealize.ShloMosaic.ValueIdx Cert.KernelIdeal Cert.KernelIdeal.Gen Cert.PairSpec
open Cert.LibRank3Layout Cert.LibKeepdims

/-- The printed dimension numbers of the phase product are the plain ones: rows by columns, contracted on the shifts. -/
theorem dot_eq_plain : dot_S4096x81_S81x32_S4096x32_1_0_0_1_n_n = DotDims.plain 4096 81 32 := rfl

/-- The row of the left factor that holds row atom a and column atom b of the block. -/
def rowOf (a : Fin 32) (b : Fin 128) : Fin 4096 :=
  ⟨a.val * 128 + b.val, by have := a.isLt; have := b.isLt; omega⟩

/-- A product of a [4096, 81] left factor with an [81, 32] right factor into zero, unflattened to [32, 128, 32] and with
    its last axis moved to the front, reads at (k, a, b) the sum over s of left(a · 128 + b, s) · right(s, k). -/
theorem product_apply (A : FVec Ideal S4096x81 .f32) (w : FVec Ideal S81x32 .f32)
    (h0 : S81x32.ShapeCasts S81x32) (h1 : S4096x32.ShapeCasts S32x128x32)
    (h2 : S32x128x32.Transposes [2, 0, 1] S32x32x128) (k : Fin 32) (a : Fin 32) (b : Fin 128) :
    transpose S32x32x128 [2, 0, 1]
        (shapeCast S32x128x32
          (matmul dot_S4096x81_S81x32_S4096x32_1_0_0_1_n_n none A (shapeCast S81x32 w h0) (constant S4096x32 .f32 0x00000000#32)) h1)
        h2 (ix3 k a b)
      = ∑ s : Fin 81, A (ix2 (rowOf a b) s) * w (ix2 s k) := by
  refine (transpose_ix3_201_apply _ h2 k a b).trans ?_
  refine (shapeCast_mn_abn_apply _ h1 a b k (rowOf a b) rfl).trans ?_
  rw [shapeCast_self, dot_eq_plain]
  exact Cert.LibMatmulPlain.matmul_plain_zero_apply none A w (rowOf a b) k

/-- The block stored into the real part. -/
theorem pay2_apply (v63 v65 v130 v131 : FVec Ideal S32x128x81 .f32) (c0 : FVec Ideal S1x32x128 .f32)
    (w : FVec Ideal S81x32 .f32) (k : Fin 32) (a : Fin 32) (b : Fin 128) :
    k0_pay2 (F := Ideal) v63 v65 v130 v131 c0 w (ix3 k a b)
      = ∑ s : Fin 81, k0_pay1 (F := Ideal) v63 v65 v130 v131 c0 (ix2 (rowOf a b) s) * w (ix2 s k) := by
  unfold k0_pay2
  exact product_apply _ w _ _ _ k a b

/-- The block stored into the imaginary part. -/
theorem pay3_apply (v63 v65 v130 v131 : FVec Ideal S32x128x81 .f32) (c0 : FVec Ideal S1x32x128 .f32)
    (w : FVec Ideal S81x32 .f32) (k : Fin 32) (a : Fin 32) (b : Fin 128) :
    k0_pay3 (F := Ideal) v63 v65 v130 v131 c0 w (ix3 k a b)
      = ∑ s : Fin 81, k0_pay1 (F := Ideal) v63 v65 v130 v131 c0 (ix2 (rowOf a b) s) * w (ix2 s k) := by
  unfold k0_pay3
  exact product_apply _ w _ _ _ k a b

/-- The body's arithmetic from the blocks a grid point is handed to the left factor of the phase product: the three
    position and shift blocks and the twelve coefficient planes. -/
def leftOf (v0 : FVec Ideal S32x3 .f32) (v1 : FVec Ideal S128x3 .f32) (v2 : FVec Ideal S81x3 .f32)
    (c : Fin 12 → FVec Ideal S1x32x128 .f32) : FVec Ideal S4096x81 .f32 :=
  k0_pay1 (F := Ideal) (k0_pay7 (k0_pay4 v0 v1 v2) (k0_pay5 v0) (k0_pay6 v1 v2)) (k0_pay8 (k0_pay4 v0 v1 v2) (k0_pay5 v0) (k0_pay6 v1 v2))
    (k0_pay10 (k0_pay8 (k0_pay4 v0 v1 v2) (k0_pay5 v0) (k0_pay6 v1 v2))
      (k0_pay9 (k0_pay4 v0 v1 v2) (k0_pay5 v0) (k0_pay6 v1 v2) (c 11) (c 10) (c 9) (c 8)) (c 7) (c 6) (c 5) (c 4) (c 3) (c 2))
    (k0_pay11 (c 1)) (c 0)

/-- What the body stores into an output block, from the blocks the point is handed and the phase block `w`: at (k, a, b)
    the sum over the shifts s of the pair potential of (a, b, s) times w(s, k). The same for both outputs, each with
    its own phase block. -/
theorem stored_apply (v0 : FVec Ideal S32x3 .f32) (v1 : FVec Ideal S128x3 .f32) (v2 : FVec Ideal S81x3 .f32)
    (c : Fin 12 → FVec Ideal S1x32x128 .f32) (w : FVec Ideal S81x32 .f32) (k : Fin 32) (a : Fin 32) (b : Fin 128) :
    (∑ s : Fin 81, leftOf v0 v1 v2 c (ix2 (rowOf a b) s) * w (ix2 s k))
      = ∑ s : Fin 81, pairV (fun j => v0 (ix2 a j)) (fun j => v1 (ix2 b j)) (fun j => v2 (ix2 s j))
          (fun j => c j (ix3 (0 : Fin 1) a b)) * w (ix2 s k) :=
  Finset.sum_congr rfl fun s _ => congrArg (· * w (ix2 s k)) (leftFactor_apply v0 v1 v2 c (rowOf a b) s a b rfl)

end Cert.KernelIdeal.KVal

end
-- ==== Proof.KSpec.lean ====
/-
  The region's two outputs as whole-array functions of what the region is handed.

  At (k-point k, row atom i, column atom j) an output holds the sum over the 81 lattice shifts of the pair potential of
  (i, j, shift) — from the positions, the shifts and the twelve coefficients the degree-first table holds for the pair —
  times the phase factor of that shift and k-point: the cosine block for the real part, the sine block for the imaginary.
-/
import proofs.«129299_j34935263986162_1_alg».proof.Proof.Gen.KernelIdeal
import proofs.«129299_j34935263986162_1_alg».proof.Proof.PairSpec
import Idealize.ShloMosaic.Lib.ValueIdx

noncomputable section

namespace Cert.KernelIdeal.KFin

open Idealize.ShloMosaic Idealize.ShloMosaic.ValueIdx Cert.KernelIdeal Cert.PairSpec

/-- The phase sum at one k-point and one atom pair. -/
def blockSum (P : FVec Ideal S512x3 .f32) (Sh : FVec Ideal S81x3 .f32) (CT : FVec Ideal S12x512x512 .f32)
    (W : FVec Ideal S81x32 .f32) (k : Fin 32) (i j : Fin 512) : EReal :=
  ∑ s : Fin 81, pairV (fun d => P (ix2 i d)) (fun d => P (ix2 j d)) (fun d => Sh (ix2 s d)) (fun p => CT (ix3 p i j))
    * W (ix2 s k)

/-- The whole output array. -/
def GOf (P : FVec Ideal S512x3 .f32) (Sh : FVec Ideal S81x3 .f32) (CT : FVec Ideal S12x512x512 .f32)
    (W : FVec Ideal S81x32 .f32) : FVec Ideal S32x512x512 .f32 :=
  fun y => blockSum P Sh CT W (y 0) (y 1) (y 2)

theorem GOf_apply (P : FVec Ideal S512x3 .f32) (Sh : FVec Ideal S81x3 .f32) (CT : FVec Ideal S12x512x512 .f32)
    (W : FVec Ideal S81x32 .f32) (k : Fin 32) (i j : Fin 512) :
    GOf P Sh CT W (ix3 k i j) = blockSum P Sh CT W k i j := rfl

end Cert.KernelIdeal.KFin

end
-- ==== Proof.KFinal.lean ====
/-
  From what each grid point writes back to the two whole output arrays.

  A grid point (ti, tj) is handed rows 32·ti … of the positions as its row atoms, rows 128·tj … as its column atoms, all
  shifts, the coefficient planes of exactly those atom pairs and the whole phase blocks, and writes back the block of the
  output at (all k-points, rows 32·ti …, columns 128·tj …). What it stores there is the phase sum of those atoms, so the
  block it writes back is that block of ONE whole-array function; the 16 × 4 blocks tile the array, so the array ends
  holding that function.
-/
import proofs.«129299_j34935263986162_1_alg».proof.Proof.KRunFlush
import proofs.«129299_j34935263986162_1_alg».proof.Proof.KGeom
import proofs.«129299_j34935263986162_1_alg».proof.Proof.KGeomCover
import proofs.«129299_j34935263986162_1_alg».proof.Proof.KHostV
import proofs.«129299_j34935263986162_1_alg».proof.Proof.KBodyOut
import proofs.«129299_j34935263986162_1_alg».proof.Proof.KSpec
import Idealize.ShloMosaic.Lib.Pipeline.Value

noncomputable section

namespace Cert.KernelIdeal.KFin

open Idealize.ShloMosaic Idealize.ShloMosaic.TcCoe Idealize.ShloMosaic.ValueIdx Cert.KernelIdeal Cert.KernelIdeal.Gen
open Idealize.SL.Sem Cert.PairSpec
open Cert.KernelIdeal.Facts₀ Cert.KernelIdeal.Facts Cert.KernelIdeal.KRun Cert.KernelIdeal.KGeom Cert.KernelIdeal.KVal
open Cert.KernelIdeal.KHost

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A load of one plane of a coefficient block reads, at (0, a, b), the block at (p, a, b). -/
theorem ld_plane (x3 : Vec Ideal S12x32x128 .f32) (o : Nat) (p : Fin 12) (hp : p.val = o)
    (inb : ∀ a, (![o, 0, 0] : Fin 3 → Nat) a + S1x32x128.size a ≤ S12x32x128.size a) (a : Fin 32) (b : Fin 128) :
    View.ld x3 (Rect.unit (s := S12x32x128) ![o, 0, 0] S1x32x128.size inb) (ix3 (0 : Fin 1) a b) = x3 (ix3 p a b) := by
  show x3 ((Rect.unit (s := S12x32x128) ![o, 0, 0] S1x32x128.size inb).emb (ix3 (0 : Fin 1) a b)) = _
  refine congrArg x3 (funext fun d => Fin.ext ?_)
  match d with
  | ⟨0, _⟩ => show o + 1 * 0 = p.val; omega
  | ⟨1, _⟩ => show 0 + 1 * a.val = a.val; omega
  | ⟨2, _⟩ => show 0 + 1 * b.val = b.val; omega

/-- The twelve planes the body loads from a coefficient block, by degree. -/
def planes (x3 : Vec Ideal S12x32x128 .f32) : Fin 12 → FVec Ideal S1x32x128 .f32 :=
  ![View.ld x3 rP0, View.ld x3 rP1, View.ld x3 rP2, View.ld x3 rP3, View.ld x3 rP4, View.ld x3 rP5, View.ld x3 rP6,
    View.ld x3 rP7, View.ld x3 rP8, View.ld x3 rP9, View.ld x3 rP10, View.ld x3 rP11]

theorem planes_apply (x3 : Vec Ideal S12x32x128 .f32) (p : Fin 12) (a : Fin 32) (b : Fin 128) :
    planes x3 p (ix3 (0 : Fin 1) a b) = x3 (ix3 p a b) := by
  match p with
  | ⟨0, _⟩ => exact ld_plane x3 0 0 rfl _ a b
  | ⟨1, _⟩ => exact ld_plane x3 1 1 rfl _ a b
  | ⟨2, _⟩ => exact ld_plane x3 2 2 rfl _ a b
  | ⟨3, _⟩ => exact ld_plane x3 3 3 rfl _ a b
  | ⟨4, _⟩ => exact ld_plane x3 4 4 rfl _ a b
  | ⟨5, _⟩ => exact ld_plane x3 5 5 rfl _ a b
  | ⟨6, _⟩ => exact ld_plane x3 6 6 rfl _ a b
  | ⟨7, _⟩ => exact ld_plane x3 7 7 rfl _ a b
  | ⟨8, _⟩ => exact ld_plane x3 8 8 rfl _ a b
  | ⟨9, _⟩ => exact ld_plane x3 9 9 rfl _ a b
  | ⟨10, _⟩ => exact ld_plane x3 10 10 rfl _ a b
  | ⟨11, _⟩ => exact ld_plane x3 11 11 rfl _ a b

/-- What the body stores from the five blocks it reads for an output: the phase sum of the block's atoms. -/
theorem stored_eq (x0 : Vec Ideal S32x3 .f32) (x1 : Vec Ideal S128x3 .f32) (x2 : Vec Ideal S81x3 .f32)
    (x3 : Vec Ideal S12x32x128 .f32) (w : Vec Ideal S81x32 .f32) (k : Fin 32) (a : Fin 32) (b : Fin 128) :
    (∑ s : Fin 81, leftOf (View.ld x0 rA) (View.ld x1 rB) (View.ld x2 rC) (planes x3) (ix2 (rowOf a b) s) * View.ld w rD (ix2 s k))
      = ∑ s : Fin 81, pairV (fun d => x0 (ix2 a d)) (fun d => x1 (ix2 b d)) (fun d => x2 (ix2 s d)) (fun p => x3 (ix3 p a b))
          * w (ix2 s k) := by
  rw [stored_apply]
  refine Finset.sum_congr rfl fun s _ => ?_
  rw [View.ld_unit_zero hz2, View.ld_unit_zero hz2, View.ld_unit_zero hz2, View.ld_unit_zero hz2]
  simp only [planes_apply]

theorem pay6_eq (x0 : Vec Ideal S32x3 .f32) (x1 : Vec Ideal S128x3 .f32) (x2 : Vec Ideal S81x3 .f32)
    (x3 : Vec Ideal S12x32x128 .f32) (x4 : Vec Ideal S81x32 .f32) (k : Fin 32) (a : Fin 32) (b : Fin 128) :
    pay6 x0 x1 x2 x3 x4 (ix3 k a b)
      = ∑ s : Fin 81, pairV (fun d => x0 (ix2 a d)) (fun d => x1 (ix2 b d)) (fun d => x2 (ix2 s d)) (fun p => x3 (ix3 p a b))
          * x4 (ix2 s k) := by
  unfold pay6
  rw [pay2_apply]
  exact stored_eq x0 x1 x2 x3 x4 k a b

theorem pay7_eq (x0 : Vec Ideal S32x3 .f32) (x1 : Vec Ideal S128x3 .f32) (x2 : Vec Ideal S81x3 .f32)
    (x3 : Vec Ideal S12x32x128 .f32) (x5 : Vec Ideal S81x32 .f32) (k : Fin 32) (a : Fin 32) (b : Fin 128) :
    pay7 x0 x1 x2 x3 x5 (ix3 k a b)
      = ∑ s : Fin 81, pairV (fun d => x0 (ix2 a d)) (fun d => x1 (ix2 b d)) (fun d => x2 (ix2 s d)) (fun p => x3 (ix3 p a b))
          * x5 (ix2 s k) := by
  unfold pay7
  rw [pay3_apply]
  exact stored_eq x0 x1 x2 x3 x5 k a b

/-- What point t writes back into the real part is block t of the whole-array function of what the region was handed. -/
theorem flushed6_eq (c : Dev nD) (t : Fin cfg0.N) :
    (dats m 0 c).flushed 6 t
      = ((cfg0.win 6).blk t).view.read (Elt Ideal) (GOf (V m c main_arg0) (V m c main_arg5) (V m c main_v18) (V m c main_v26)) := by
  rw [flushed6]
  funext y
  obtain ⟨k, a, b, rfl⟩ : ∃ (k : Fin 32) (a : Fin 32) (b : Fin 128), y = ix3 k a b := ⟨y 0, y 1, y 2, eq_ix3 y⟩
  show out6 m c t (ix3 k a b) = GOf _ _ _ _ (((cfg0.win 6).blk t).view.emb (ix3 k a b))
  rw [emb6, GOf_apply]
  unfold out6 body6
  rw [View.canon_unit_zero hz3, pay6_eq]
  unfold blockSum
  refine Finset.sum_congr rfl fun s _ => ?_
  simp only [blk0, blk1, blk2, blk3, blk4]

/-- The same for the imaginary part, with the sine block. -/
theorem flushed7_eq (c : Dev nD) (t : Fin cfg0.N) :
    (dats m 0 c).flushed 7 t
      = ((cfg0.win 7).blk t).view.read (Elt Ideal) (GOf (V m c main_arg0) (V m c main_arg5) (V m c main_v18) (V m c main_v28)) := by
  rw [flushed7]
  funext y
  obtain ⟨k, a, b, rfl⟩ : ∃ (k : Fin 32) (a : Fin 32) (b : Fin 128), y = ix3 k a b := ⟨y 0, y 1, y 2, eq_ix3 y⟩
  show out7 m c t (ix3 k a b) = GOf _ _ _ _ (((cfg0.win 7).blk t).view.emb (ix3 k a b))
  rw [emb7, GOf_apply]
  unfold out7 body7
  rw [View.canon_unit_zero hz3, pay7_eq]
  unfold blockSum
  refine Finset.sum_congr rfl fun s _ => ?_
  simp only [blk0, blk1, blk2, blk3, blk5]

/-- The real part after the region: the phase sum with the cosine block, of the launch arguments. -/
theorem final6 (c : Dev nD) :
    (dats m 0 c).arrAt 6 cfg0.N
      = GOf (V₀ m c main_arg0) (V₀ m c main_arg5) (coefT (V₀ m c main_arg1) (V₀ m c main_arg3)) (cosT (V₀ m c main_arg2) (V₀ m c main_arg5)) := by
  rw [(dats m 0 c).arrAt_eq_of_cover 6 _ (fun t _ => flushed6_eq m c t) cover6, V_pos, V_shift, V_coef, V_cos]

/-- The imaginary part after the region: the phase sum with the sine block. -/
theorem final7 (c : Dev nD) :
    (dats m 0 c).arrAt 7 cfg0.N
      = GOf (V₀ m c main_arg0) (V₀ m c main_arg5) (coefT (V₀ m c main_arg1) (V₀ m c main_arg3)) (sinT (V₀ m c main_arg2) (V₀ m c main_arg5)) := by
  rw [(dats m 0 c).arrAt_eq_of_cover 7 _ (fun t _ => flushed7_eq m c t) cover7, V_pos, V_shift, V_coef, V_sin]

end Cert.KernelIdeal.KFin

end
-- ==== Proof.RefRunDefs.lean ====
/- The reference program's values, named: each definition is one value of the program (the MLIR
   value its docstring cites) as a function of the argument arrays, its body the operations that
   compute it applied to the earlier definitions. `out` is the result. -/
import proofs.«129299_j34935263986162_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A float array of shape `S`. -/
abbrev CF (F : FTy → Type) (S : Shape) : Type := (⟨S, .f32⟩ : BufTy).Contents (Elt F)
/-- A 32-bit integer array of shape `S`. -/
abbrev CI (F : FTy → Type) (S : Shape) : Type := (⟨S, .i32⟩ : BufTy).Contents (Elt F)
/-- A mask of shape `S`. -/
abbrev CB (F : FTy → Type) (S : Shape) : Type := (⟨S, .i1⟩ : BufTy).Contents (Elt F)

/-- %19: the vector from atom i to atom j displaced by shift s, by coordinate. -/
def dvec (a0 : CF F S512x3) (a5 : CF F S81x3) : CF F S512x512x81x3 :=
  subf
    (broadcastInDim S512x512x81x3 ![0, 1, 2, 3] bcast_S1x512x81x3_S512x512x81x3_0_1_2_3
      (addf
        (broadcastInDim S1x512x81x3 ![0, 1, 2, 3] bcast_S1x512x1x3_S1x512x81x3_0_1_2_3
          (broadcastInDim S1x512x1x3 ![1, 3] bcast_S512x3_S1x512x1x3_1_3 a0))
        (broadcastInDim S1x512x81x3 ![0, 1, 2, 3] bcast_S1x1x81x3_S1x512x81x3_0_1_2_3
          (broadcastInDim S1x1x81x3 ![2, 3] bcast_S81x3_S1x1x81x3_2_3 a5))))
    (broadcastInDim S512x512x81x3 ![0, 1, 2, 3] bcast_S512x1x1x3_S512x512x81x3_0_1_2_3
      (broadcastInDim S512x1x1x3 ![0, 3] bcast_S512x3_S512x1x1x3_0_3 a0))

/-- %21: the squared distance, the sum over the three coordinates of the squared differences. -/
def dr2 (a0 : CF F S512x3) (a5 : CF F S81x3) : CF F S512x512x81 :=
  Host.reduceAdd (mulf (dvec a0 a5) (dvec a0 a5)) (constant S_ .f32 0x00000000#32)
    reducesTo_S512x512x81x3_S512x512x81_d3 h_S_

/-- The comparison of %23 and of %27: where an array is above zero. -/
def posOf (q : CF F S512x512x81) : CB F S512x512x81 :=
  cmpf .ogt q (broadcastInDim S512x512x81 ![] bcast_S_S512x512x81 (constant S_ .f32 0x00000000#32))

/-- %23 (and %27, the same operations again): where the squared distance is positive. -/
def pos (a0 : CF F S512x3) (a5 : CF F S81x3) : CB F S512x512x81 := posOf (dr2 a0 a5)

/-- The outlined select with a scalar (the body of %24, %28 and %127): `a` where the mask holds,
    elsewhere the scalar `s`, converted to its own type and broadcast. -/
def sel (c : CB F S512x512x81) (a : CF F S512x512x81) (s : CF F S_) : CF F S512x512x81 :=
  select c a (broadcastInDim S512x512x81 ![] bcast_S_S512x512x81 (id s))

/-- %28: the distance — the square root of the squared distance where that is positive (of one
    elsewhere, inside the root), zero elsewhere. -/
def dr (a0 : CF F S512x3) (a5 : CF F S81x3) : CF F S512x512x81 :=
  sel (pos a0 a5) (Host.sqrt (sel (pos a0 a5) (dr2 a0 a5) (constant S_ .f32 0x3F800000#32)))
    (constant S_ .f32 0x00000000#32)

/-- The multiplication of %30: a distance array scaled to atomic units. -/
def scaled (r : CF F S512x512x81) : CF F S512x512x81 :=
  mulf r (broadcastInDim S512x512x81 ![] bcast_S_S512x512x81 (constant S_ .f32 0x3FF1E28C#32))

/-- %30: the distance in atomic units. -/
def x (a0 : CF F S512x3) (a5 : CF F S81x3) : CF F S512x512x81 := scaled (dr a0 a5)

/-- %37: the row atom's species index, a negative one wrapped by the table's extent four. -/
def rowIdx (a1 : CI F S512) : CI F S512x1 :=
  select
    (cmpi .slt (broadcastInDim S512x1 ![0] bcast_S512_S512x1_0 a1)
      (broadcastInDim S512x1 ![] bcast_S_S512x1 (constantI S_ 32 0#32)))
    (addi (broadcastInDim S512x1 ![0] bcast_S512_S512x1_0 a1)
      (broadcastInDim S512x1 ![] bcast_S_S512x1 (constantI S_ 32 4#32)))
    (broadcastInDim S512x1 ![0] bcast_S512_S512x1_0 a1)

/-- %42: the column atom's species index, wrapped likewise. -/
def colIdx (a1 : CI F S512) : CI F S1x512 :=
  select
    (cmpi .slt (broadcastInDim S1x512 ![1] bcast_S512_S1x512_1 a1)
      (broadcastInDim S1x512 ![] bcast_S_S1x512 (constantI S_ 32 0#32)))
    (addi (broadcastInDim S1x512 ![1] bcast_S512_S1x512_1 a1)
      (broadcastInDim S1x512 ![] bcast_S_S1x512 (constantI S_ 32 4#32)))
    (broadcastInDim S1x512 ![1] bcast_S512_S1x512_1 a1)

/-- %47: the species pair of each atom pair. -/
def pairIdx (a1 : CI F S512) : CI F S512x512x2 :=
  concatenate S512x512x2 2
    [⟨S512x512x1, broadcastInDim S512x512x1 ![0, 1] bcast_S512x512_S512x512x1_0_1
        (broadcastInDim S512x512 ![0, 1] bcast_S512x1_S512x512_0_1 (rowIdx a1))⟩,
     ⟨S512x512x1, broadcastInDim S512x512x1 ![0, 1] bcast_S512x512_S512x512x1_0_1
        (broadcastInDim S512x512 ![0, 1] bcast_S1x512_S512x512_0_1 (colIdx a1))⟩]
    concatenates_S512x512x1_S512x512x1_S512x512x2_d2

/-- %48: the twelve polynomial coefficients of each atom pair's species pair. -/
def coeffs (a1 : CI F S512) (a3 : CF F S4x4x12) : CF F S512x512x12 :=
  Host.gather gather_S4x4x12_S512x512x2_S512x512x12_2_01_n_n_01_2_1112 a3 (pairIdx a1)

/-- One coefficient plane (%51 … %53 at the start `st`): the slice, its unit axis dropped and
    put back. -/
def preplane (C : CF F S512x512x12) (st : Fin S512x512x12.rank → Nat) (h : S512x512x12.Slices st S512x512x1) :
    CF F S512x512x1 :=
  broadcastInDim S512x512x1 ![0, 1] bcast_S512x512_S512x512x1_0_1
    (shapeCast S512x512 (extractStridedSlice S512x512x1 st C h) shapeCasts_S512x512x1_S512x512)

/-- The plane broadcast along the shift axis (%54). -/
def plane (C : CF F S512x512x12) (st : Fin S512x512x12.rank → Nat) (h : S512x512x12.Slices st S512x512x1) :
    CF F S512x512x81 :=
  broadcastInDim S512x512x81 ![0, 1, 2] bcast_S512x512x1_S512x512x81_0_1_2 (preplane C st h)

/-- One Horner step: the accumulator times the variable plus the coefficient plane. -/
def hstep (acc X pl : CF F S512x512x81) : CF F S512x512x81 := addf (mulf acc X) pl

/-- %103 as a function of the variable and the coefficient table: nine Horner steps from the zero
    accumulator, the coefficient of degree eleven first, that of degree three last. -/
def hornerHi (X : CF F S512x512x81) (C : CF F S512x512x12) : CF F S512x512x81 :=
  hstep (hstep (hstep (hstep (hstep (hstep (hstep (hstep (hstep
    (broadcastInDim S512x512x81 ![] bcast_S_S512x512x81 (constant S_ .f32 0x00000000#32))
    X (plane C ![0, 0, 11] slices_S512x512x12_S512x512x1_0_0_11))
    X (plane C ![0, 0, 10] slices_S512x512x12_S512x512x1_0_0_10))
    X (plane C ![0, 0, 9] slices_S512x512x12_S512x512x1_0_0_9))
    X (plane C ![0, 0, 8] slices_S512x512x12_S512x512x1_0_0_8))
    X (plane C ![0, 0, 7] slices_S512x512x12_S512x512x1_0_0_7))
    X (plane C ![0, 0, 6] slices_S512x512x12_S512x512x1_0_0_6))
    X (plane C ![0, 0, 5] slices_S512x512x12_S512x512x1_0_0_5))
    X (plane C ![0, 0, 4] slices_S512x512x12_S512x512x1_0_0_4))
    X (plane C ![0, 0, 3] slices_S512x512x12_S512x512x1_0_0_3)

/-- The last three Horner steps (%109 … %121), from the accumulator already multiplied by the
    variable (%104) and the plane of degree two not yet broadcast along the shifts (%107). -/
def hornerLo (m104 : CF F S512x512x81) (p107 : CF F S512x512x1) (X : CF F S512x512x81) (C : CF F S512x512x12) :
    CF F S512x512x81 :=
  hstep (hstep
    (addf m104 (broadcastInDim S512x512x81 ![0, 1, 2] bcast_S512x512x1_S512x512x81_0_1_2 p107))
    X (plane C ![0, 0, 1] slices_S512x512x12_S512x512x1_0_0_1))
    X (plane C ![0, 0, 0] slices_S512x512x12_S512x512x1_0_0_0)

/-- %121 as a function of the variable and the coefficient table: twelve Horner steps. -/
def horner (X : CF F S512x512x81) (C : CF F S512x512x12) : CF F S512x512x81 :=
  hornerLo (mulf (hornerHi X C) X) (preplane C ![0, 0, 2] slices_S512x512x12_S512x512x1_0_0_2) X C

/-- %121: the polynomial of each pair's species pair at the scaled distance. -/
def y (a0 : CF F S512x3) (a1 : CI F S512) (a3 : CF F S4x4x12) (a5 : CF F S81x3) : CF F S512x512x81 :=
  horner (x a0 a5) (coeffs a1 a3)

/-- The two comparisons of %123 and %125 and their conjunction: where a distance array is above
    one tenth and at most six. -/
def rangeOf (r : CF F S512x512x81) : CB F S512x512x81 :=
  andi
    (cmpf .ogt r (broadcastInDim S512x512x81 ![] bcast_S_S512x512x81 (constant S_ .f32 0x3DCCCCCD#32)))
    (cmpf .ole r (broadcastInDim S512x512x81 ![] bcast_S_S512x512x81 (constant S_ .f32 0x40C00000#32)))

/-- %126: where the distance is above one tenth and at most six. -/
def inRange (a0 : CF F S512x3) (a5 : CF F S81x3) : CB F S512x512x81 := rangeOf (dr a0 a5)

/-- %127: the hopping value — the polynomial inside the range, zero outside. -/
def V (a0 : CF F S512x3) (a1 : CI F S512) (a3 : CF F S4x4x12) (a5 : CF F S81x3) : CF F S512x512x81 :=
  sel (inRange a0 a5) (y a0 a1 a3 a5) (constant S_ .f32 0x00000000#32)

/-- %cst: the inverse lattice, a dense three-by-three table. -/
def invLat : CF F S3x3 := fun i => FloatOps.ofBits .f32 (lit0 (S3x3.rowMajor i))

/-- %133 over any three-by-three table `L`: the wave vectors times the transposed table, times the
    transposed shifts, times two pi. -/
def angL (L : CF F S3x3) (a2 : CF F S32x3) (a5 : CF F S81x3) : CF F S32x81 :=
  mulf (broadcastInDim S32x81 ![] bcast_S_S32x81 (constant S_ .f32 0x40C90FDB#32))
    (Host.dotGeneral dot_S32x3_S3x81_S32x81_1_0_0_1_n_n none
      (Host.dotGeneral dot_S32x3_S3x3_S32x3_1_0_0_1_n_n none a2
        (transpose S3x3 [1, 0] L transposes_S3x3_S3x3_1_0))
      (transpose S3x81 [1, 0] a5 transposes_S81x3_S3x81_1_0))

/-- %133: the phase angle of each wave vector and shift, the table being the inverse lattice. -/
def ang (a2 : CF F S32x3) (a5 : CF F S81x3) : CF F S32x81 := angL invLat a2 a5

/-- %134: the cosines of the phase angles. -/
def cosv (a2 : CF F S32x3) (a5 : CF F S81x3) : CF F S32x81 := Host.cos (ang a2 a5)

/-- %136: their sines. -/
def sinv (a2 : CF F S32x3) (a5 : CF F S81x3) : CF F S32x81 := Host.sin (ang a2 a5)

/-- %135: the real part before the on-site term — the cosines contracted with the hopping
    values over the shifts. -/
def hr (a0 : CF F S512x3) (a1 : CI F S512) (a2 : CF F S32x3) (a3 : CF F S4x4x12) (a5 : CF F S81x3) :
    CF F S32x512x512 :=
  Host.dotGeneral dot_S32x81_S512x512x81_S32x512x512_1_2_0_01_n_n none (cosv a2 a5) (V a0 a1 a3 a5)

/-- %137: the imaginary part — the sines contracted likewise. -/
def hi (a0 : CF F S512x3) (a1 : CI F S512) (a2 : CF F S32x3) (a3 : CF F S4x4x12) (a5 : CF F S81x3) :
    CF F S32x512x512 :=
  Host.dotGeneral dot_S32x81_S512x512x81_S32x512x512_1_2_0_01_n_n none (sinv a2 a5) (V a0 a1 a3 a5)

/-- %144: each atom's on-site energy, the table gathered at its wrapped species index. -/
def onsiteAt (a1 : CI F S512) (a4 : CF F S4) : CF F S512 :=
  Host.gather gather_S4_S512x1_S512_n_0_n_n_0_1_1 a4
    (broadcastInDim S512x1 ![0] bcast_S512_S512x1_0
      (select (cmpi .slt a1 (broadcastInDim S512 ![] bcast_S_S512 (constantI S_ 32 0#32)))
        (addi a1 (broadcastInDim S512 ![] bcast_S_S512 (constantI S_ 32 4#32))) a1))

/-- The outlined diagonal (the body of %145) of any vector `e`: the entry of the row where the row
    index (plus the offset zero) equals the column index, zero elsewhere. -/
def diagOf (e : CF F S512) : CF F S512x512 :=
  select
    (cmpi .eq
      (addi (iotaInDim S512x512 32 0) (broadcastInDim S512x512 ![] bcast_S_S512x512 (constantI S_ 32 0#32)))
      (iotaInDim S512x512 32 1))
    (broadcastInDim S512x512 ![0, 1] bcast_S512x1_S512x512_0_1
      (broadcastInDim S512x1 ![0] bcast_S512_S512x1_0
        (pad S512 ![0] ![0] ![0] e (constant S_ .f32 0x00000000#32) pads_S512_S512_000 h_S_)))
    (broadcastInDim S512x512 ![] bcast_S_S512x512 (constant S_ .f32 0x00000000#32))

/-- %145: the diagonal matrix of the on-site energies. -/
def diag (a1 : CI F S512) (a4 : CF F S4) : CF F S512x512 := diagOf (onsiteAt a1 a4)

/-- The last six operations (%146 … %151) of any real part `r`, imaginary part `i` and matrix `g`:
    `g` added to `r` under every wave vector, and the sum and `i` stacked along a new leading axis. -/
def stack (r i : CF F S32x512x512) (g : CF F S512x512) : CF F S2x32x512x512 :=
  concatenate S2x32x512x512 0
    [⟨S1x32x512x512, broadcastInDim S1x32x512x512 ![1, 2, 3] bcast_S32x512x512_S1x32x512x512_1_2_3
        (addf r
          (broadcastInDim S32x512x512 ![0, 1, 2] bcast_S1x512x512_S32x512x512_0_1_2
            (broadcastInDim S1x512x512 ![1, 2] bcast_S512x512_S1x512x512_1_2 g)))⟩,
     ⟨S1x32x512x512, broadcastInDim S1x32x512x512 ![1, 2, 3] bcast_S32x512x512_S1x32x512x512_1_2_3 i⟩]
    concatenates_S1x32x512x512_S1x32x512x512_S2x32x512x512_d0

/-- %151, the result: the real part with the on-site diagonal added under every wave vector, and
    the imaginary part, stacked along a new leading axis. -/
def out (a0 : CF F S512x3) (a1 : CI F S512) (a2 : CF F S32x3) (a3 : CF F S4x4x12) (a4 : CF F S4)
    (a5 : CF F S81x3) : CF F S2x32x512x512 :=
  stack (hr a0 a1 a2 a3 a5) (hi a0 a1 a2 a3 a5) (diag a1 a4)

/-! ## The argument arrays along the run -/

/-- The six argument arrays. -/
structure ArgVals (F : FTy → Type) where
  a0 : CF F S512x3
  a1 : CI F S512
  a2 : CF F S32x3
  a3 : CF F S4x4x12
  a4 : CF F S4
  a5 : CF F S81x3

/-- The device's buffers hold the argument arrays `a` at the argument references. -/
abbrev HasArgs (a : ArgVals F) (W : Valuation τ sig (Elt F)) : Prop :=
  W (main_arg0 : DevRef τ sig) = a.a0 ∧ W (main_arg1 : DevRef τ sig) = a.a1
  ∧ W (main_arg2 : DevRef τ sig) = a.a2 ∧ W (main_arg3 : DevRef τ sig) = a.a3
  ∧ W (main_arg4 : DevRef τ sig) = a.a4 ∧ W (main_arg5 : DevRef τ sig) = a.a5

/-- A line of operations leaves the six argument buffers as they were. -/
abbrev KeepsArgs (l : List (HloOp τ sig (Elt F))) : Prop :=
  ∀ W : Valuation τ sig (Elt F),
    after l W (main_arg0 : DevRef τ sig) = W (main_arg0 : DevRef τ sig)
    ∧ after l W (main_arg1 : DevRef τ sig) = W (main_arg1 : DevRef τ sig)
    ∧ after l W (main_arg2 : DevRef τ sig) = W (main_arg2 : DevRef τ sig)
    ∧ after l W (main_arg3 : DevRef τ sig) = W (main_arg3 : DevRef τ sig)
    ∧ after l W (main_arg4 : DevRef τ sig) = W (main_arg4 : DevRef τ sig)
    ∧ after l W (main_arg5 : DevRef τ sig) = W (main_arg5 : DevRef τ sig)

/-- After such a line the buffers still hold the argument arrays. -/
theorem KeepsArgs.hasArgs {l : List (HloOp τ sig (Elt F))} (hl : KeepsArgs l) {a : ArgVals F}
    {W : Valuation τ sig (Elt F)} (h : HasArgs a W) : HasArgs a (after l W) :=
  ⟨(hl W).1.trans h.1, (hl W).2.1.trans h.2.1, (hl W).2.2.1.trans h.2.2.1, (hl W).2.2.2.1.trans h.2.2.2.1,
    (hl W).2.2.2.2.1.trans h.2.2.2.2.1, (hl W).2.2.2.2.2.trans h.2.2.2.2.2⟩

end Cert.ReferenceIdeal.RefRun

end
-- ==== Proof.LibHostRead.lean ====
/-
  Host operations of a reference program, each read at ONE index written by coordinates.

  A reference computes a pairwise tensor by placing vectors on the axes of a rank-4 array with unit extents elsewhere,
  broadcasting the unit axes, combining elementwise and summing over the last axis. Each broadcast reads its operand at
  the index made of the result's coordinates on the axes the operand occupies, with 0 on the operand's unit axes; the
  sum over the last axis at (i, j, t) is the initial value plus the sum over k of the operand at (i, j, t, k).
-/
import Idealize.ShloMosaic.PureOps.Ideal.Laws
import Idealize.ShloMosaic.Lib.ValueIdx
import Idealize.ShloMosaic.Lib.ValueLayout
import Idealize.ShloMosaic.Lib.Pipeline.Value

namespace Cert.LibHostRead

open Idealize.ShloMosaic Idealize.ShloMosaic.ValueIdx
open scoped BigOperators

variable {α : Type}

/-! ## Vectors and matrices placed on the axes of a rank-4 array -/

/-- An `[n, c]` matrix placed on axes 1 and 3 of `[1, n, 1, c]` reads, at `(u, j, v, k)`, the matrix at `(j, k)`. -/
theorem bcast_nc_1n1c_apply {n c : ℕ} (x : (⟨2, ![n, c]⟩ : Shape).Idx → α)
    (h : (⟨2, ![n, c]⟩ : Shape).BroadcastsInDim ⟨4, ![1, n, 1, c]⟩ (![1, 3] : Fin 2 → Fin 4))
    (u : Fin 1) (j : Fin n) (v : Fin 1) (k : Fin c) :
    broadcastInDim ⟨4, ![1, n, 1, c]⟩ (![1, 3] : Fin 2 → Fin 4) h x (ix4 u j v k) = x (ix2 j k) := by
  refine broadcastInDim_apply _ h x (ix4 u j v k) (ix2 j k) fun ax => ?_
  match ax with
  | ⟨0, _⟩ =>
    show j.val = if n = 1 then 0 else j.val
    split
    · have := j.isLt; omega
    · rfl
  | ⟨1, _⟩ =>
    show k.val = if c = 1 then 0 else k.val
    split
    · have := k.isLt; omega
    · rfl

/-- An `[s, c]` matrix placed on axes 2 and 3 of `[1, 1, s, c]` reads, at `(u, v, t, k)`, the matrix at `(t, k)`. -/
theorem bcast_sc_11sc_apply {s c : ℕ} (x : (⟨2, ![s, c]⟩ : Shape).Idx → α)
    (h : (⟨2, ![s, c]⟩ : Shape).BroadcastsInDim ⟨4, ![1, 1, s, c]⟩ (![2, 3] : Fin 2 → Fin 4))
    (u v : Fin 1) (t : Fin s) (k : Fin c) :
    broadcastInDim ⟨4, ![1, 1, s, c]⟩ (![2, 3] : Fin 2 → Fin 4) h x (ix4 u v t k) = x (ix2 t k) := by
  refine broadcastInDim_apply _ h x (ix4 u v t k) (ix2 t k) fun ax => ?_
  match ax with
  | ⟨0, _⟩ =>
    show t.val = if s = 1 then 0 else t.val
    split
    · have := t.isLt; omega
    · rfl
  | ⟨1, _⟩ =>
    show k.val = if c = 1 then 0 else k.val
    split
    · have := k.isLt; omega
    · rfl

/-- An `[n, c]` matrix placed on axes 0 and 3 of `[n, 1, 1, c]` reads, at `(i, u, v, k)`, the matrix at `(i, k)`. -/
theorem bcast_nc_n11c_apply {n c : ℕ} (x : (⟨2, ![n, c]⟩ : Shape).Idx → α)
    (h : (⟨2, ![n, c]⟩ : Shape).BroadcastsInDim ⟨4, ![n, 1, 1, c]⟩ (![0, 3] : Fin 2 → Fin 4))
    (i : Fin n) (u v : Fin 1) (k : Fin c) :
    broadcastInDim ⟨4, ![n, 1, 1, c]⟩ (![0, 3] : Fin 2 → Fin 4) h x (ix4 i u v k) = x (ix2 i k) := by
  refine broadcastInDim_apply _ h x (ix4 i u v k) (ix2 i k) fun ax => ?_
  match ax with
  | ⟨0, _⟩ =>
    show i.val = if n = 1 then 0 else i.val
    split
    · have := i.isLt; omega
    · rfl
  | ⟨1, _⟩ =>
    show k.val = if c = 1 then 0 else k.val
    split
    · have := k.isLt; omega
    · rfl

/-! ## Unit axes of a rank-4 array broadcast -/

/-- A `[1, n, 1, c]` array broadcast to `[1, n, s, c]` reads, at `(u, j, t, k)`, the operand at `(0, j, 0, k)`. -/
theorem bcast_1n1c_1nsc_apply {n s c : ℕ} (x : (⟨4, ![1, n, 1, c]⟩ : Shape).Idx → α)
    (h : (⟨4, ![1, n, 1, c]⟩ : Shape).BroadcastsInDim ⟨4, ![1, n, s, c]⟩ (![0, 1, 2, 3] : Fin 4 → Fin 4))
    (u : Fin 1) (j : Fin n) (t : Fin s) (k : Fin c) :
    broadcastInDim ⟨4, ![1, n, s, c]⟩ (![0, 1, 2, 3] : Fin 4 → Fin 4) h x (ix4 u j t k)
      = x (ix4 (0 : Fin 1) j (0 : Fin 1) k) := by
  refine broadcastInDim_apply _ h x (ix4 u j t k) (ix4 (0 : Fin 1) j (0 : Fin 1) k) fun ax => ?_
  match ax with
  | ⟨0, _⟩ => exact (if_pos rfl).symm
  | ⟨1, _⟩ =>
    show j.val = if n = 1 then 0 else j.val
    split
    · have := j.isLt; omega
    · rfl
  | ⟨2, _⟩ => exact (if_pos rfl).symm
  | ⟨3, _⟩ =>
    show k.val = if c = 1 then 0 else k.val
    split
    · have := k.isLt; omega
    · rfl

/-- A `[1, 1, s, c]` array broadcast to `[1, n, s, c]` reads, at `(u, j, t, k)`, the operand at `(0, 0, t, k)`. -/
theorem bcast_11sc_1nsc_apply {n s c : ℕ} (x : (⟨4, ![1, 1, s, c]⟩ : Shape).Idx → α)
    (h : (⟨4, ![1, 1, s, c]⟩ : Shape).BroadcastsInDim ⟨4, ![1, n, s, c]⟩ (![0, 1, 2, 3] : Fin 4 → Fin 4))
    (u : Fin 1) (j : Fin n) (t : Fin s) (k : Fin c) :
    broadcastInDim ⟨4, ![1, n, s, c]⟩ (![0, 1, 2, 3] : Fin 4 → Fin 4) h x (ix4 u j t k)
      = x (ix4 (0 : Fin 1) (0 : Fin 1) t k) := by
  refine broadcastInDim_apply _ h x (ix4 u j t k) (ix4 (0 : Fin 1) (0 : Fin 1) t k) fun ax => ?_
  match ax with
  | ⟨0, _⟩ => exact (if_pos rfl).symm
  | ⟨1, _⟩ => exact (if_pos rfl).symm
  | ⟨2, _⟩ =>
    show t.val = if s = 1 then 0 else t.val
    split
    · have := t.isLt; omega
    · rfl
  | ⟨3, _⟩ =>
    show k.val = if c = 1 then 0 else k.val
    split
    · have := k.isLt; omega
    · rfl

/-- A `[1, n, s, c]` array broadcast to `[m, n, s, c]` reads, at `(i, j, t, k)`, the operand at `(0, j, t, k)`. -/
theorem bcast_1nsc_mnsc_apply {m n s c : ℕ} (x : (⟨4, ![1, n, s, c]⟩ : Shape).Idx → α)
    (h : (⟨4, ![1, n, s, c]⟩ : Shape).BroadcastsInDim ⟨4, ![m, n, s, c]⟩ (![0, 1, 2, 3] : Fin 4 → Fin 4))
    (i : Fin m) (j : Fin n) (t : Fin s) (k : Fin c) :
    broadcastInDim ⟨4, ![m, n, s, c]⟩ (![0, 1, 2, 3] : Fin 4 → Fin 4) h x (ix4 i j t k)
      = x (ix4 (0 : Fin 1) j t k) := by
  refine broadcastInDim_apply _ h x (ix4 i j t k) (ix4 (0 : Fin 1) j t k) fun ax => ?_
  match ax with
  | ⟨0, _⟩ => exact (if_pos rfl).symm
  | ⟨1, _⟩ =>
    show j.val = if n = 1 then 0 else j.val
    split
    · have := j.isLt; omega
    · rfl
  | ⟨2, _⟩ =>
    show t.val = if s = 1 then 0 else t.val
    split
    · have := t.isLt; omega
    · rfl
  | ⟨3, _⟩ =>
    show k.val = if c = 1 then 0 else k.val
    split
    · have := k.isLt; omega
    · rfl

/-- An `[n, 1, 1, c]` array broadcast to `[n, m, s, c]` reads, at `(i, j, t, k)`, the operand at `(i, 0, 0, k)`. -/
theorem bcast_n11c_nmsc_apply {n m s c : ℕ} (x : (⟨4, ![n, 1, 1, c]⟩ : Shape).Idx → α)
    (h : (⟨4, ![n, 1, 1, c]⟩ : Shape).BroadcastsInDim ⟨4, ![n, m, s, c]⟩ (![0, 1, 2, 3] : Fin 4 → Fin 4))
    (i : Fin n) (j : Fin m) (t : Fin s) (k : Fin c) :
    broadcastInDim ⟨4, ![n, m, s, c]⟩ (![0, 1, 2, 3] : Fin 4 → Fin 4) h x (ix4 i j t k)
      = x (ix4 i (0 : Fin 1) (0 : Fin 1) k) := by
  refine broadcastInDim_apply _ h x (ix4 i j t k) (ix4 i (0 : Fin 1) (0 : Fin 1) k) fun ax => ?_
  match ax with
  | ⟨0, _⟩ =>
    show i.val = if n = 1 then 0 else i.val
    split
    · have := i.isLt; omega
    · rfl
  | ⟨1, _⟩ => exact (if_pos rfl).symm
  | ⟨2, _⟩ => exact (if_pos rfl).symm
  | ⟨3, _⟩ =>
    show k.val = if c = 1 then 0 else k.val
    split
    · have := k.isLt; omega
    · rfl

/-! ## A scalar broadcast, and the sum over the last axis -/

/-- A scalar broadcast to any shape reads, at every index, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- The host's sum of an `[a, b, c, d]` array over its last axis reads, at `(i, j, t)`, the initial value plus the sum
    over `k` of the operand at `(i, j, t, k)`. At the ideal values. -/
theorem hostSum_last4_apply {a b c d : ℕ} {φ : FTy} (x : FVec Ideal ⟨4, ![a, b, c, d]⟩ φ)
    (z : FVec Ideal ⟨0, ![]⟩ φ) (h : (⟨4, ![a, b, c, d]⟩ : Shape).ReducesTo [3] ⟨3, ![a, b, c]⟩)
    (hz : 0 < (⟨0, ![]⟩ : Shape).numel) (i : Fin a) (j : Fin b) (t : Fin c) :
    Host.reduceAdd x z h hz (ix3 i j t) = z ix0 + ∑ k : Fin d, x (ix4 i j t k) := by
  have hR : (⟨4, ![a, b, c, d]⟩ : Shape).Reduces [3] ⟨3, ![a, b, c]⟩ := ⟨h.1, Nat.zero_lt_succ 2, h.2⟩
  have hz0 : Shape.Idx.first hz = ix0 := eq_ix0 _
  show Ideal.hostReduceAdd h x (z (Shape.Idx.first hz)) (ix3 i j t) = _
  rw [hz0]
  refine (Ideal.hostReduceAdd_single h hR x (z ix0) (ix3 i j t)).trans ?_
  show z ix0 + ∑ k : Fin d, x (hR.lift (ix3 i j t) k) = _
  exact congrArg (z ix0 + ·) (Finset.sum_congr rfl fun k _ => congrArg x (funext fun ax => Fin.ext
    (match ax with | ⟨0, _⟩ => rfl | ⟨1, _⟩ => rfl | ⟨2, _⟩ => rfl | ⟨3, _⟩ => rfl)))

end Cert.LibHostRead
-- ==== Proof.LibHostReadMisc.lean ====
/-
  More host operations of a reference program, each read at ONE index written by coordinates.

  One slot of the last axis of a rank-3 array taken out by a slice, cast to a matrix and put back on a unit axis; the
  product of a matrix with a rank-3 array contracted over the array's last axis, as a sum over the contracted
  coordinate; a vector laid on the diagonal of a square matrix by comparing the row and column counters; two arrays
  stacked along a new leading axis; and matrices and vectors placed in a rank-3 array with a leading unit axis.
-/
import Idealize.ShloMosaic.PureOps.Ideal.Laws
import Idealize.ShloMosaic.Lib.ValueIdx
import Idealize.ShloMosaic.Lib.ValueLayout
import Idealize.ShloMosaic.Lib.Pipeline.Value

namespace Cert.LibHostRead

open Idealize.ShloMosaic Idealize.ShloMosaic.ValueIdx
open scoped BigOperators

variable {α : Type}

/-! ## One slot of the last axis of a rank-3 array, taken out and put back -/

/-- The slice of an `[a, b, n]` array at offset `o` on its last axis, one slot wide, reads, at `(i, j, u)`, the operand
    at `(i, j, k)` where `k` is the slot `o`. -/
theorem slice_abn_ab1_apply {a b n o : ℕ} (x : (⟨3, ![a, b, n]⟩ : Shape).Idx → α)
    (h : (⟨3, ![a, b, n]⟩ : Shape).Slices (![0, 0, o] : Fin 3 → ℕ) ⟨3, ![a, b, 1]⟩)
    (i : Fin a) (j : Fin b) (u : Fin 1) (k : Fin n) (hk : k.val = o) :
    extractStridedSlice ⟨3, ![a, b, 1]⟩ (![0, 0, o] : Fin 3 → ℕ) x h (ix3 i j u) = x (ix3 i j k) := by
  refine extractStridedSlice_apply _ x h (ix3 i j u) (ix3 i j k) fun ax => ?_
  match ax with
  | ⟨0, _⟩ =>
    show i.val = 0 + i.val
    rw [Nat.zero_add]
  | ⟨1, _⟩ =>
    show j.val = 0 + j.val
    rw [Nat.zero_add]
  | ⟨2, _⟩ =>
    show k.val = o + u.val
    have hu : u.val = 0 := by omega
    rw [hk, hu, Nat.add_zero]

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` matrix placed on axes 0 and 1 of `[a, b, 1]` reads, at `(i, j, u)`, the matrix at `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3))
    (i : Fin a) (j : Fin b) (u : Fin 1) :
    broadcastInDim ⟨3, ![a, b, 1]⟩ (![0, 1] : Fin 2 → Fin 3) h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast to `[a, b, c]` reads, at `(i, j, t)`, the operand at `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (i : Fin a) (j : Fin b) (t : Fin c) :
    broadcastInDim ⟨3, ![a, b, c]⟩ (![0, 1, 2] : Fin 3 → Fin 3) h x (ix3 i j t) = x (ix3 i j (0 : Fin 1)) := by
  refine broadcastInDim_apply _ h x (ix3 i j t) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-! ## A matrix times a rank-3 array, contracted over the array's last axis -/

/-- The product of a `[K, S]` matrix with an `[A, B, S]` array contracting the matrix's axis 1 with the array's axis 2,
    no batch axes, read at `(k, i, j)`, is the sum over `s` of the matrix at `(k, s)` times the array at `(i, j, s)`.
    At the ideal values. `w` is the well-formedness of the dimension numbers, which a program states. -/
theorem dotGeneral_KS_ABS_apply {K S A B : ℕ} {φ₁ φ₂ : FTy}
    (w : DotDims.WF ⟨2, ![K, S]⟩ ⟨3, ![A, B, S]⟩ ⟨3, ![K, A, B]⟩ [1] [2] [0] [0, 1] [] [])
    (prec : Option ContractPrecision) (l : FVec Ideal ⟨2, ![K, S]⟩ φ₁) (r : FVec Ideal ⟨3, ![A, B, S]⟩ φ₂)
    (k : Fin K) (i : Fin A) (j : Fin B) :
    Host.dotGeneral (⟨[1], [2], [0], [0, 1], [], [], w⟩ : DotDims _ _ _) prec l r (ix3 k i j)
      = ∑ s : Fin S, l (ix2 k s) * r (ix3 i j s) := by
  show FloatOps.dotGeneral _ prec _ l r (ix3 k i j) = _
  rw [Ideal.dotGeneral_apply,
    ← Equiv.sum_comp (contrEquiv1 (⟨[1], [2], [0], [0, 1], [], [], w⟩ : DotDims _ _ _) S rfl rfl).symm]
  refine Finset.sum_congr rfl fun s _ => ?_
  have c1 := contrEquiv1_symm_val
    (⟨[1], [2], [0], [0, 1], [], [], w⟩ : DotDims ⟨2, ![K, S]⟩ ⟨3, ![A, B, S]⟩ ⟨3, ![K, A, B]⟩) S rfl rfl s
  have l2 : (⟨[1], [2], [0], [0, 1], [], [], w⟩ : DotDims ⟨2, ![K, S]⟩ ⟨3, ![A, B, S]⟩ ⟨3, ![K, A, B]⟩).lhsIdx (ix3 k i j)
      ((contrEquiv1 _ S rfl rfl).symm s) = ix2 k s := by
    funext ax; apply Fin.ext
    match ax with
    | ⟨0, _⟩ => simp [DotDims.lhsIdx]; rfl
    | ⟨1, _⟩ => simp [DotDims.lhsIdx]; exact c1
  have r3 : (⟨[1], [2], [0], [0, 1], [], [], w⟩ : DotDims ⟨2, ![K, S]⟩ ⟨3, ![A, B, S]⟩ ⟨3, ![K, A, B]⟩).rhsIdx (ix3 k i j)
      ((contrEquiv1 _ S rfl rfl).symm s) = ix3 i j s := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c1
  rw [l2, r3]

/-- The same for a record of dimension numbers given by its fields. -/
theorem dotGeneral_KS_ABS_apply' {K S A B : ℕ} {φ₁ φ₂ : FTy}
    (D : DotDims ⟨2, ![K, S]⟩ ⟨3, ![A, B, S]⟩ ⟨3, ![K, A, B]⟩)
    (hlc : D.lhsContracting = [1]) (hrc : D.rhsContracting = [2]) (hln : D.lhsNonContracting = [0])
    (hrn : D.rhsNonContracting = [0, 1]) (hlb : D.lhsBatch = []) (hrb : D.rhsBatch = [])
    (prec : Option ContractPrecision) (l : FVec Ideal ⟨2, ![K, S]⟩ φ₁) (r : FVec Ideal ⟨3, ![A, B, S]⟩ φ₂)
    (k : Fin K) (i : Fin A) (j : Fin B) :
    Host.dotGeneral D prec l r (ix3 k i j) = ∑ s : Fin S, l (ix2 k s) * r (ix3 i j s) := by
  obtain ⟨lc, rc, ln, rn, lb, rb, w⟩ := D
  subst hlc hrc hln hrn hlb hrb
  exact dotGeneral_KS_ABS_apply w prec l r k i j

end Cert.LibHostRead
-- ==== Proof.RefValue.lean ====
/-
  The reference's pair potential, read at an index.

  The reference forms the separation vectors of all 512 × 512 × 81 (row atom, column atom, shift) triples at once in a
  rank-4 array whose last axis is the coordinate, sums the squares over that axis, and carries the same chain of
  operations as the kernel on whole arrays: the guarded root, the scaling, Horner's rule with each coefficient plane cut
  out of the gathered table and repeated along the shifts, and the distance window. At (i, j, s) the result is the
  pair potential of row atom i, column atom j and shift s with the gathered coefficients of the pair (i, j).
-/
import proofs.«129299_j34935263986162_1_alg».proof.Proof.RefRunDefs
import proofs.«129299_j34935263986162_1_alg».proof.Proof.PairSpec
import proofs.«129299_j34935263986162_1_alg».proof.Proof.LibHostRead
import proofs.«129299_j34935263986162_1_alg».proof.Proof.LibHostReadMisc

noncomputable section

namespace Cert.ReferenceIdeal.RefVal

open Idealize.ShloMosaic Idealize.ShloMosaic.ValueIdx Cert.ReferenceIdeal Cert.ReferenceIdeal.RefRun Cert.PairSpec
open Cert.LibHostRead
open Cert.ReferenceIdeal.Facts₀ Cert.ReferenceIdeal.Facts

/-- The separation vector of (i, j, s) in coordinate c: (q_j + t_s) - p_i. -/
theorem dvec_apply (a0 : CF Ideal S512x3) (a5 : CF Ideal S81x3) (i j : Fin 512) (s : Fin 81) (c : Fin 3) :
    dvec a0 a5 (ix4 i j s c) = (a0 (ix2 j c) + a5 (ix2 s c)) - a0 (ix2 i c) := by
  unfold dvec
  refine congrArg₂ (· - ·) ?_ ?_
  · refine (bcast_1nsc_mnsc_apply _ _ i j s c).trans ?_
    refine congrArg₂ (· + ·) ?_ ?_
    · exact (bcast_1n1c_1nsc_apply _ _ 0 j s c).trans (bcast_nc_1n1c_apply a0 _ 0 j 0 c)
    · exact (bcast_11sc_1nsc_apply _ _ 0 j s c).trans (bcast_sc_11sc_apply a5 _ 0 0 s c)
  · exact (bcast_n11c_nmsc_apply _ _ i j s c).trans (bcast_nc_n11c_apply a0 _ i 0 0 c)

/-- The squared length of the separation of (i, j, s). -/
theorem dr2_apply (a0 : CF Ideal S512x3) (a5 : CF Ideal S81x3) (i j : Fin 512) (s : Fin 81) :
    dr2 a0 a5 (ix3 i j s)
      = dist2 (fun c => a0 (ix2 i c)) (fun c => a0 (ix2 j c)) (fun c => a5 (ix2 s c)) := by
  unfold dr2
  refine (hostSum_last4_apply _ _ _ _ i j s).trans ?_
  have e : (∑ k : Fin 3, mulf (dvec a0 a5) (dvec a0 a5) (ix4 i j s k))
      = ∑ k : Fin 3, sq (a0 (ix2 i k)) (a0 (ix2 j k)) (a5 (ix2 s k)) :=
    Finset.sum_congr rfl fun k _ => by
      show dvec a0 a5 (ix4 i j s k) * dvec a0 a5 (ix4 i j s k) = _
      rw [dvec_apply]
      rfl
  rw [e]
  exact init_add_sum_three _ _

/-- The outlined select against a scalar, at an index. -/
theorem sel_apply (c : CB Ideal S512x512x81) (a : CF Ideal S512x512x81) (z : CF Ideal S_) (y : S512x512x81.Idx) :
    sel c a z y = Scalar.select (c y) (a y) (z ix0) := by
  unfold sel
  exact congrArg (Scalar.select (c y) (a y)) (bcast_scalar_apply _ _ y)

/-- Where an array is above zero, at an index. -/
theorem posOf_apply (q : CF Ideal S512x512x81) (y : S512x512x81.Idx) :
    posOf q y = Ideal.cmp .ogt (q y) zero := by
  unfold posOf
  exact congrArg (Ideal.cmp .ogt (q y)) (bcast_scalar_apply _ _ y)

/-- The distance of (i, j, s). -/
theorem dr_apply (a0 : CF Ideal S512x3) (a5 : CF Ideal S81x3) (y : S512x512x81.Idx) :
    dr a0 a5 y = dist (dr2 a0 a5 y) := by
  unfold dr pos
  rw [sel_apply, posOf_apply]
  show Scalar.select _ (Ideal.sqrt (sel (posOf (dr2 a0 a5)) (dr2 a0 a5) (constant (F := Ideal) S_ .f32 0x3F800000#32) y)) _ = _
  rw [sel_apply, posOf_apply]
  rfl

/-- The distance in atomic units. -/
theorem x_apply (a0 : CF Ideal S512x3) (a5 : CF Ideal S81x3) (y : S512x512x81.Idx) :
    x a0 a5 y = dr a0 a5 y * bohr := by
  unfold x scaled
  exact congrArg (dr a0 a5 y * ·) (bcast_scalar_apply _ _ y)

/-- The coefficient plane of degree k, repeated along the shifts: at (i, j, s) the coefficient k of the pair (i, j). -/
theorem plane_apply (C : CF Ideal S512x512x12) (o : Nat) (k : Fin 12) (hk : k.val = o)
    (h : S512x512x12.Slices (![0, 0, o] : Fin 3 → ℕ) S512x512x1) (i j : Fin 512) (s : Fin 81) :
    plane C ![0, 0, o] h (ix3 i j s) = C (ix3 i j k) := by
  unfold plane preplane
  exact (bcast_ab1_abc_apply _ _ i j s).trans <|
    (bcast_ab_ab1_apply _ _ i j 0).trans <|
    (shapeCast_ab1_ab_apply _ _ i j).trans <|
    slice_abn_ab1_apply C h i j 0 k hk

/-- One step of Horner's rule, with the running value and the coefficient each replaced by an equal. -/
theorem hstep_eq {u u' v w w' : EReal} (hu : u = u') (hw : w = w') : u * v + w = u' * v + w' := by
  rw [hu, hw]

/-- Horner's rule on whole arrays is Horner's rule at every index. -/
theorem horner_apply (X : CF Ideal S512x512x81) (C : CF Ideal S512x512x12) (i j : Fin 512) (s : Fin 81) :
    RefRun.horner X C (ix3 i j s) = PairSpec.horner (X (ix3 i j s)) (fun k => C (ix3 i j k)) := by
  unfold RefRun.horner hornerLo hornerHi hstep
  exact hstep_eq (hstep_eq
      (congrArg₂ (· + ·)
        (congrArg (· * X (ix3 i j s))
          (hstep_eq (hstep_eq (hstep_eq (hstep_eq (hstep_eq (hstep_eq (hstep_eq (hstep_eq (hstep_eq
            (bcast_scalar_apply _ _ (ix3 i j s))
            (plane_apply C 11 11 rfl _ i j s)) (plane_apply C 10 10 rfl _ i j s)) (plane_apply C 9 9 rfl _ i j s))
            (plane_apply C 8 8 rfl _ i j s)) (plane_apply C 7 7 rfl _ i j s)) (plane_apply C 6 6 rfl _ i j s))
            (plane_apply C 5 5 rfl _ i j s)) (plane_apply C 4 4 rfl _ i j s)) (plane_apply C 3 3 rfl _ i j s)))
        (plane_apply C 2 2 rfl _ i j s))
      (plane_apply C 1 1 rfl _ i j s)) (plane_apply C 0 0 rfl _ i j s)

/-- The distance window, at an index. -/
theorem rangeOf_apply (r : CF Ideal S512x512x81) (y : S512x512x81.Idx) :
    rangeOf r y = (Ideal.cmp .ogt (r y) lo &&& Ideal.cmp .ole (r y) hi) := by
  unfold rangeOf
  exact congrArg₂ (· &&& ·) (congrArg (Ideal.cmp .ogt (r y)) (bcast_scalar_apply _ _ y))
    (congrArg (Ideal.cmp .ole (r y)) (bcast_scalar_apply _ _ y))

/-- The reference's hopping value at (i, j, s): the pair potential of row atom i, column atom j and shift s with the
    gathered coefficients of the pair (i, j). -/
theorem V_apply (a0 : CF Ideal S512x3) (a1 : CI Ideal S512) (a3 : CF Ideal S4x4x12) (a5 : CF Ideal S81x3)
    (i j : Fin 512) (s : Fin 81) :
    RefRun.V a0 a1 a3 a5 (ix3 i j s)
      = pairV (fun c => a0 (ix2 i c)) (fun c => a0 (ix2 j c)) (fun c => a5 (ix2 s c))
          (fun k => coeffs a1 a3 (ix3 i j k)) := by
  unfold RefRun.V inRange y
  rw [sel_apply, rangeOf_apply, horner_apply, x_apply, dr_apply, dr2_apply]
  rfl

end Cert.ReferenceIdeal.RefVal

end
-- ==== Proof.LibHostReadDiag.lean ====
/-
  The host operations that lay a vector on the diagonal of a square matrix, stack two arrays along a new leading
  axis, and place matrices and vectors in a rank-3 array with a leading unit axis, each read at ONE index written by
  coordinates.

  The diagonal is built by comparing the row counter with the column counter, as 32-bit words, and selecting the
  vector's entry where they agree; for extents at most 2 ^ 32 the words agree exactly when the coordinates do.
-/
import Idealize.ShloMosaic.PureOps.Ideal.Laws
import Idealize.ShloMosaic.Lib.ValueIdx
import Idealize.ShloMosaic.Lib.ValueLayout
import Idealize.ShloMosaic.Lib.Pipeline.Value

namespace Cert.LibHostRead

open Idealize.ShloMosaic Idealize.ShloMosaic.ValueIdx
open scoped BigOperators

variable {α : Type}

/-! ## A vector laid on the diagonal of a square matrix -/

/-- Padding an `[n]` vector by nothing reads, at `i`, the vector at `i`. -/
theorem pad_none_apply {n : ℕ} (x : (⟨1, ![n]⟩ : Shape).Idx → α) {u : Shape} (v : u.Idx → α)
    (h : (⟨1, ![n]⟩ : Shape).Pads (![0] : Fin 1 → ℕ) ![0] ![0] ⟨1, ![n]⟩) (hu : 0 < u.numel) (i : Fin n) :
    pad ⟨1, ![n]⟩ (![0] : Fin 1 → ℕ) ![0] ![0] x v h hu (ix1 i) = x (ix1 i) := by
  unfold pad
  have hin : ∀ a : Fin 1, (![0] : Fin 1 → ℕ) a ≤ (ix1 i (a.cast h.1)).val
      ∧ ((ix1 i (a.cast h.1)).val - (![0] : Fin 1 → ℕ) a) % ((![0] : Fin 1 → ℕ) a + 1) = 0
      ∧ ((ix1 i (a.cast h.1)).val - (![0] : Fin 1 → ℕ) a) / ((![0] : Fin 1 → ℕ) a + 1) < (⟨1, ![n]⟩ : Shape).size a :=
    fun a => match a with
      | ⟨0, _⟩ => by
        show 0 ≤ i.val ∧ (i.val - 0) % (0 + 1) = 0 ∧ (i.val - 0) / (0 + 1) < n
        refine ⟨Nat.zero_le _, Nat.mod_one _, ?_⟩
        rw [Nat.sub_zero, Nat.zero_add, Nat.div_one]
        exact i.isLt
  rw [dif_pos hin]
  exact congrArg x (funext fun a => Fin.ext (match a with
    | ⟨0, _⟩ => by
      show (i.val - 0) / (0 + 1) = i.val
      rw [Nat.sub_zero, Nat.zero_add, Nat.div_one]))

/-- The row counter of an `[n, m]` array reads, at `(i, j)`, the word of `i`. -/
theorem iota_row_apply {n m : ℕ} (i : Fin n) (j : Fin m) :
    iotaInDim ⟨2, ![n, m]⟩ 32 (0 : Fin 2) (ix2 i j) = BitVec.ofNat 32 i.val := rfl

/-- The column counter of an `[n, m]` array reads, at `(i, j)`, the word of `j`. -/
theorem iota_col_apply {n m : ℕ} (i : Fin n) (j : Fin m) :
    iotaInDim ⟨2, ![n, m]⟩ 32 (1 : Fin 2) (ix2 i j) = BitVec.ofNat 32 j.val := rfl

/-- An `[n]` vector placed on axis 0 of `[n, 1]` reads, at `(i, u)`, the vector at `i`. -/
theorem bcast_n_n1_apply {n : ℕ} (x : (⟨1, ![n]⟩ : Shape).Idx → α)
    (h : (⟨1, ![n]⟩ : Shape).BroadcastsInDim ⟨2, ![n, 1]⟩ (![0] : Fin 1 → Fin 2)) (i : Fin n) (u : Fin 1) :
    broadcastInDim ⟨2, ![n, 1]⟩ (![0] : Fin 1 → Fin 2) h x (ix2 i u) = x (ix1 i) := by
  refine broadcastInDim_apply _ h x (ix2 i u) (ix1 i) fun ax => ?_
  match ax with
  | ⟨0, _⟩ =>
    show i.val = if n = 1 then 0 else i.val
    split
    · have := i.isLt; omega
    · rfl

/-- An `[n, 1]` column broadcast to `[n, m]` reads, at `(i, j)`, the column at `(i, 0)`. -/
theorem bcast_n1_nm_apply {n m : ℕ} (x : (⟨2, ![n, 1]⟩ : Shape).Idx → α)
    (h : (⟨2, ![n, 1]⟩ : Shape).BroadcastsInDim ⟨2, ![n, m]⟩ (![0, 1] : Fin 2 → Fin 2)) (i : Fin n) (j : Fin m) :
    broadcastInDim ⟨2, ![n, m]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if n = 1 then 0 else i.val
    split
    · have := i.isLt; omega
    · rfl
  | ⟨1, _⟩ => exact (if_pos rfl).symm

/-- Two coordinates below `2 ^ 32` compare equal as 32-bit words exactly when they are equal. -/
theorem cmpi_eq_ofNat_iff {a b : ℕ} (ha : a < 2 ^ 32) (hb : b < 2 ^ 32) :
    IntOp.cmpi .eq (BitVec.ofNat 32 a) (BitVec.ofNat 32 b) = 1#1 ↔ a = b := by
  have key : (BitVec.ofNat 32 a = BitVec.ofNat 32 b) ↔ a = b := by
    constructor
    · intro e
      have e' := congrArg BitVec.toNat e
      rw [BitVec.toNat_ofNat, BitVec.toNat_ofNat, Nat.mod_eq_of_lt ha, Nat.mod_eq_of_lt hb] at e'
      exact e'
    · intro e; rw [e]
  show BitVec.ofBool (BitVec.ofNat 32 a == BitVec.ofNat 32 b) = 1#1 ↔ a = b
  by_cases hab : a = b
  · subst hab
    rw [beq_self_eq_true]
    exact ⟨fun _ => rfl, fun _ => rfl⟩
  · have hne : ¬ (BitVec.ofNat 32 a = BitVec.ofNat 32 b) := fun e => hab (key.1 e)
    rw [beq_eq_false_iff_ne.2 hne]
    exact ⟨fun e => absurd e (by decide), fun e => absurd e hab⟩

/-- The same for two coordinates of an axis of extent at most `2 ^ 32`. -/
theorem cmpi_eq_fin_iff {n : ℕ} (hn : n ≤ 2 ^ 32) (i j : Fin n) :
    IntOp.cmpi .eq (BitVec.ofNat 32 i.val) (BitVec.ofNat 32 j.val) = 1#1 ↔ i = j :=
  (cmpi_eq_ofNat_iff (Nat.lt_of_lt_of_le i.isLt hn) (Nat.lt_of_lt_of_le j.isLt hn)).trans
    ⟨fun e => Fin.ext e, fun e => congrArg Fin.val e⟩

/-- Adding the zero word changes nothing. -/
theorem addi_zero (x : BitVec 32) : IntOp.addi x 0#32 = x := BitVec.add_zero x

/-- A comparison of two integer arrays at an index compares the words there. -/
theorem cmpi_apply {s : Shape} {w : ℕ} (p : CmpIPredicate) (x y : IVec s w) (i : s.Idx) :
    cmpi p x y i = IntOp.cmpi p (x i) (y i) := rfl

/-- A sum of two integer arrays at an index adds the words there. -/
theorem addi_apply {s : Shape} {w : ℕ} (x y : IVec s w) (i : s.Idx) : addi x y i = IntOp.addi (x i) (y i) := rfl

/-! ## Two arrays stacked along a new leading axis -/

/-- A `[k, a, b]` array placed on axes 1, 2, 3 of `[1, k, a, b]` reads, at `(u, p, i, j)`, the array at `(p, i, j)`. -/
theorem bcast_kab_1kab_apply {k a b : ℕ} (x : (⟨3, ![k, a, b]⟩ : Shape).Idx → α)
    (h : (⟨3, ![k, a, b]⟩ : Shape).BroadcastsInDim ⟨4, ![1, k, a, b]⟩ (![1, 2, 3] : Fin 3 → Fin 4))
    (u : Fin 1) (p : Fin k) (i : Fin a) (j : Fin b) :
    broadcastInDim ⟨4, ![1, k, a, b]⟩ (![1, 2, 3] : Fin 3 → Fin 4) h x (ix4 u p i j) = x (ix3 p i j) := by
  refine broadcastInDim_apply _ h x (ix4 u p i j) (ix3 p i j) fun ax => ?_
  match ax with
  | ⟨0, _⟩ =>
    show p.val = if k = 1 then 0 else p.val
    split
    · have := p.isLt; omega
    · rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Two `[1, k, a, b]` arrays laid end to end along axis 0 read, at `(0, p, i, j)`, the first at `(0, p, i, j)`. -/
theorem concat_pair0_apply_zero {k a b : ℕ} (x y : (⟨4, ![1, k, a, b]⟩ : Shape).Idx → α)
    (h : Shape.Concatenates [(⟨4, ![1, k, a, b]⟩ : Shape), ⟨4, ![1, k, a, b]⟩] ⟨4, ![2, k, a, b]⟩ (0 : Fin 4))
    (p : Fin k) (i : Fin a) (j : Fin b) :
    concatenate ⟨4, ![2, k, a, b]⟩ (0 : Fin 4) [⟨⟨4, ![1, k, a, b]⟩, x⟩, ⟨⟨4, ![1, k, a, b]⟩, y⟩] h (ix4 (0 : Fin 2) p i j)
      = x (ix4 (0 : Fin 1) p i j) :=
  concatenate_pair_apply_left (0 : Fin 4) x y h (ix4 (0 : Fin 2) p i j) rfl (ix4 (0 : Fin 1) p i j) fun ax =>
    match ax with | ⟨0, _⟩ => rfl | ⟨1, _⟩ => rfl | ⟨2, _⟩ => rfl | ⟨3, _⟩ => rfl

/-- … and, at `(1, p, i, j)`, the second at `(0, p, i, j)`. -/
theorem concat_pair0_apply_one {k a b : ℕ} (x y : (⟨4, ![1, k, a, b]⟩ : Shape).Idx → α)
    (h : Shape.Concatenates [(⟨4, ![1, k, a, b]⟩ : Shape), ⟨4, ![1, k, a, b]⟩] ⟨4, ![2, k, a, b]⟩ (0 : Fin 4))
    (p : Fin k) (i : Fin a) (j : Fin b) :
    concatenate ⟨4, ![2, k, a, b]⟩ (0 : Fin 4) [⟨⟨4, ![1, k, a, b]⟩, x⟩, ⟨⟨4, ![1, k, a, b]⟩, y⟩] h (ix4 (1 : Fin 2) p i j)
      = y (ix4 (0 : Fin 1) p i j) :=
  concatenate_pair_apply_right (0 : Fin 4) x y h (ix4 (1 : Fin 2) p i j) rfl rfl (ix4 (0 : Fin 1) p i j)
    (fun ax => match ax with
      | ⟨0, _⟩ => fun hne => absurd rfl hne
      | ⟨1, _⟩ => fun _ => rfl
      | ⟨2, _⟩ => fun _ => rfl
      | ⟨3, _⟩ => fun _ => rfl)
    rfl

/-! ## Matrices and vectors placed in a rank-3 array with a leading unit axis -/

/-- An `[n, m]` matrix placed on axes 1 and 2 of `[1, n, m]` reads, at `(u, i, j)`, the matrix at `(i, j)`. -/
theorem bcast_nm_1nm_apply {n m : ℕ} (x : (⟨2, ![n, m]⟩ : Shape).Idx → α)
    (h : (⟨2, ![n, m]⟩ : Shape).BroadcastsInDim ⟨3, ![1, n, m]⟩ (![1, 2] : Fin 2 → Fin 3))
    (u : Fin 1) (i : Fin n) (j : Fin m) :
    broadcastInDim ⟨3, ![1, n, m]⟩ (![1, 2] : Fin 2 → Fin 3) h x (ix3 u i j) = x (ix2 i j) := by
  refine broadcastInDim_apply _ h x (ix3 u i j) (ix2 i j) fun ax => ?_
  match ax with
  | ⟨0, _⟩ =>
    show i.val = if n = 1 then 0 else i.val
    split
    · have := i.isLt; omega
    · rfl
  | ⟨1, _⟩ =>
    show j.val = if m = 1 then 0 else j.val
    split
    · have := j.isLt; omega
    · rfl

/-- An `[n]` vector placed on axis 1 of `[1, n, 1]` reads, at `(u, i, v)`, the vector at `i`. -/
theorem bcast_n_1n1_apply {n : ℕ} (x : (⟨1, ![n]⟩ : Shape).Idx → α)
    (h : (⟨1, ![n]⟩ : Shape).BroadcastsInDim ⟨3, ![1, n, 1]⟩ (![1] : Fin 1 → Fin 3))
    (u : Fin 1) (i : Fin n) (v : Fin 1) :
    broadcastInDim ⟨3, ![1, n, 1]⟩ (![1] : Fin 1 → Fin 3) h x (ix3 u i v) = x (ix1 i) := by
  refine broadcastInDim_apply _ h x (ix3 u i v) (ix1 i) fun ax => ?_
  match ax with
  | ⟨0, _⟩ =>
    show i.val = if n = 1 then 0 else i.val
    split
    · have := i.isLt; omega
    · rfl

/-- A `[1, n, 1]` array broadcast to `[1, n, m]` reads, at `(u, i, j)`, the operand at `(0, i, 0)`. -/
theorem bcast_1n1_1nm_apply {n m : ℕ} (x : (⟨3, ![1, n, 1]⟩ : Shape).Idx → α)
    (h : (⟨3, ![1, n, 1]⟩ : Shape).BroadcastsInDim ⟨3, ![1, n, m]⟩ (![0, 1, 2] : Fin 3 → Fin 3))
    (u : Fin 1) (i : Fin n) (j : Fin m) :
    broadcastInDim ⟨3, ![1, n, m]⟩ (![0, 1, 2] : Fin 3 → Fin 3) h x (ix3 u i j) = x (ix3 (0 : Fin 1) i (0 : Fin 1)) := by
  refine broadcastInDim_apply _ h x (ix3 u i j) (ix3 (0 : Fin 1) i (0 : Fin 1)) fun ax => ?_
  match ax with
  | ⟨0, _⟩ => exact (if_pos rfl).symm
  | ⟨1, _⟩ =>
    show i.val = if n = 1 then 0 else i.val
    split
    · have := i.isLt; omega
    · rfl
  | ⟨2, _⟩ => exact (if_pos rfl).symm

/-- A `[1, n, m]` array broadcast to `[k, n, m]` reads, at `(p, i, j)`, the operand at `(0, i, j)`. -/
theorem bcast_1nm_knm_apply {k n m : ℕ} (x : (⟨3, ![1, n, m]⟩ : Shape).Idx → α)
    (h : (⟨3, ![1, n, m]⟩ : Shape).BroadcastsInDim ⟨3, ![k, n, m]⟩ (![0, 1, 2] : Fin 3 → Fin 3))
    (p : Fin k) (i : Fin n) (j : Fin m) :
    broadcastInDim ⟨3, ![k, n, m]⟩ (![0, 1, 2] : Fin 3 → Fin 3) h x (ix3 p i j) = x (ix3 (0 : Fin 1) i j) := by
  refine broadcastInDim_apply _ h x (ix3 p i j) (ix3 (0 : Fin 1) i j) fun ax => ?_
  match ax with
  | ⟨0, _⟩ => exact (if_pos rfl).symm
  | ⟨1, _⟩ =>
    show i.val = if n = 1 then 0 else i.val
    split
    · have := i.isLt; omega
    · rfl
  | ⟨2, _⟩ =>
    show j.val = if m = 1 then 0 else j.val
    split
    · have := j.isLt; omega
    · rfl

end Cert.LibHostRead
-- ==== Proof.TailValue.lean ====
/-
  The tails of the two programs read at an index.

  After the pairwise sums both programs finish alike: the real part of every k-point gets the atoms' onsite energies
  added on its diagonal, and the real and imaginary parts are stacked along a new leading axis. The kernel program
  builds the diagonal as the identity matrix, as 0 and 1, times the onsite row; the reference selects the onsite entry
  where the row counter equals the column counter and zero elsewhere. Read at one entry (i, j) the two agree: the
  counters are below 2 ^ 32, so they are equal as 32-bit words exactly when i = j, and 1 · x = x, 0 · x = 0 on the
  extended reals for every x. The reference's real and imaginary parts are the sums over the lattice shifts of the
  cosines and sines of the phases times the pair potential.
-/
import proofs.«129299_j34935263986162_1_alg».proof.Proof.KHost
import proofs.«129299_j34935263986162_1_alg».proof.Proof.RefRunDefs
import proofs.«129299_j34935263986162_1_alg».proof.Proof.PairSpec
import proofs.«129299_j34935263986162_1_alg».proof.Proof.LibHostRead
import proofs.«129299_j34935263986162_1_alg».proof.Proof.LibHostReadMisc
import proofs.«129299_j34935263986162_1_alg».proof.Proof.LibHostReadDiag

noncomputable section

namespace Cert.TailValue

open Idealize.ShloMosaic Idealize.ShloMosaic.ValueIdx Cert.LibHostRead
open scoped BigOperators

/-! ## Scalars: a decided bit as a number and as a selector -/

/-- The number 1 or 0 times `x` is `x` or the zero word's value. -/
theorem ite_one_zero_mul {p : Prop} [Decidable p] (x : EReal) :
    (if p then (1 : EReal) else 0) * x = if p then x else PairSpec.zero := by
  by_cases h : p
  · rw [if_pos h, if_pos h, one_mul]
  · rw [if_neg h, if_neg h, zero_mul]
    exact Ideal.ofBits_zero_f32.symm

/-- A one-bit word that is 1 exactly when `p` holds, read unsigned as a number, is 1 or 0. -/
theorem uitofp_bit {c : BitVec 1} {p : Prop} [Decidable p] (hc : c = 1#1 ↔ p) :
    (FloatOps.uitofp (F := Ideal) .f32 c : EReal) = if p then (1 : EReal) else 0 := by
  by_cases h : p
  · rw [if_pos h, hc.2 h]
    show (((1 : ℕ) : ℝ) : EReal) = 1
    rw [Nat.cast_one, EReal.coe_one]
  · rw [if_neg h, eq_zero_of_ne_one fun e => h (hc.1 e)]
    show (((0 : ℕ) : ℝ) : EReal) = 0
    rw [Nat.cast_zero, EReal.coe_zero]

/-- A select on a one-bit word that is 1 exactly when `p` holds is the `if` on `p`. -/
theorem select_bit {α : Type} {c : BitVec 1} {p : Prop} [Decidable p] (hc : c = 1#1 ↔ p) {a b a' b' : α}
    (ha : a = a') (hb : b = b') : Scalar.select c a b = if p then a' else b' := by
  subst ha hb
  by_cases h : p
  · rw [if_pos h, hc.2 h]; exact select_one _ _
  · rw [if_neg h, eq_zero_of_ne_one fun e => h (hc.1 e)]; exact select_zero _ _

/-- The row counter plus the zero word equals the column counter, as 32-bit words, exactly on the diagonal. -/
theorem counters_eq_iff (i j : Fin 512) :
    IntOp.cmpi .eq (IntOp.addi (BitVec.ofNat 32 i.val) 0#32) (BitVec.ofNat 32 j.val) = 1#1 ↔ i = j := by
  rw [addi_zero]
  exact cmpi_eq_fin_iff (by decide) i j

/-! ## The kernel program's tail -/

section Kernel
open Cert.KernelIdeal

/-- The identity matrix reads 1 on the diagonal and 0 off it. -/
theorem eye_apply (i j : Fin 512) : KHost.eye (ix2 i j) = if i = j then (1 : EReal) else 0 :=
  uitofp_bit (counters_eq_iff i j)

/-- The diagonal term reads, at (k, i, j), the identity's entry at (i, j) times the onsite energy of atom i. -/
theorem diagK_apply (a1 : IVec S512 32) (a4 : FVec Ideal S4 .f32) (k : Fin 32) (i j : Fin 512) :
    KHost.diagK a1 a4 (ix3 k i j) = (if i = j then (1 : EReal) else 0) * KHost.onsF a1 a4 (ix1 i) := by
  unfold KHost.diagK
  refine (bcast_1nm_knm_apply _ _ k i j).trans ?_
  refine (mulf_apply _ _ _).trans ?_
  exact congrArg₂ (· * ·)
    ((bcast_nm_1nm_apply _ _ (0 : Fin 1) i j).trans (eye_apply i j))
    ((bcast_1n1_1nm_apply _ _ (0 : Fin 1) i j).trans (bcast_n_1n1_apply _ _ (0 : Fin 1) i (0 : Fin 1)))

/-- The result's real part reads, at (k, i, j), the region's real output plus the diagonal term. -/
theorem tail_re_apply (hr hi : FVec Ideal S32x512x512 .f32) (a1 : IVec S512 32) (a4 : FVec Ideal S4 .f32)
    (k : Fin 32) (i j : Fin 512) :
    KHost.tail hr hi a1 a4 (ix4 (0 : Fin 2) k i j) = hr (ix3 k i j) + KHost.diagK a1 a4 (ix3 k i j) := by
  unfold KHost.tail
  refine (concat_pair0_apply_zero _ _ _ k i j).trans ?_
  refine (bcast_kab_1kab_apply _ _ (0 : Fin 1) k i j).trans ?_
  exact addf_apply _ _ _

/-- The result's imaginary part reads, at (k, i, j), the region's imaginary output. -/
theorem tail_im_apply (hr hi : FVec Ideal S32x512x512 .f32) (a1 : IVec S512 32) (a4 : FVec Ideal S4 .f32)
    (k : Fin 32) (i j : Fin 512) :
    KHost.tail hr hi a1 a4 (ix4 (1 : Fin 2) k i j) = hi (ix3 k i j) := by
  unfold KHost.tail
  refine (concat_pair0_apply_one _ _ _ k i j).trans ?_
  exact bcast_kab_1kab_apply _ _ (0 : Fin 1) k i j

end Kernel

/-! ## The reference's tail -/

section Reference
open Cert.ReferenceIdeal Cert.ReferenceIdeal.RefRun

/-- The reference's real part reads, at (k, i, j), the sum over the shifts of the cosine of the phase of (k, s) times the
    pair potential of (i, j, s). -/
theorem hr_apply (a0 : CF Ideal S512x3) (a1 : CI Ideal S512) (a2 : CF Ideal S32x3) (a3 : CF Ideal S4x4x12)
    (a5 : CF Ideal S81x3) (k : Fin 32) (i j : Fin 512) :
    RefRun.hr a0 a1 a2 a3 a5 (ix3 k i j)
      = ∑ s : Fin 81, (RefRun.cosv a2 a5 (ix2 k s) : EReal) * RefRun.V a0 a1 a3 a5 (ix3 i j s) := by
  unfold RefRun.hr
  exact dotGeneral_KS_ABS_apply' _ rfl rfl rfl rfl rfl rfl none _ _ k i j

/-- The reference's imaginary part likewise, with the sines. -/
theorem hi_apply (a0 : CF Ideal S512x3) (a1 : CI Ideal S512) (a2 : CF Ideal S32x3) (a3 : CF Ideal S4x4x12)
    (a5 : CF Ideal S81x3) (k : Fin 32) (i j : Fin 512) :
    RefRun.hi a0 a1 a2 a3 a5 (ix3 k i j)
      = ∑ s : Fin 81, (RefRun.sinv a2 a5 (ix2 k s) : EReal) * RefRun.V a0 a1 a3 a5 (ix3 i j s) := by
  unfold RefRun.hi
  exact dotGeneral_KS_ABS_apply' _ rfl rfl rfl rfl rfl rfl none _ _ k i j

/-- The diagonal matrix reads, at (i, j), the onsite energy of atom i on the diagonal and the zero word's value off
    it. -/
theorem diag_apply (a1 : CI Ideal S512) (a4 : CF Ideal S4) (i j : Fin 512) :
    RefRun.diag a1 a4 (ix2 i j) = if i = j then (RefRun.onsiteAt a1 a4 (ix1 i) : EReal) else PairSpec.zero := by
  unfold RefRun.diag RefRun.diagOf
  refine (select_apply _ _ _ _).trans ?_
  exact select_bit (counters_eq_iff i j)
    ((bcast_n1_nm_apply _ _ i j).trans ((bcast_n_n1_apply _ _ i (0 : Fin 1)).trans (pad_none_apply _ _ _ _ i)))
    ((bcast_scalar_apply _ _ _).trans (constant_apply _ _))

/-- The result's real part reads, at (k, i, j), the real part plus the diagonal matrix's entry at (i, j). -/
theorem out_re_apply (a0 : CF Ideal S512x3) (a1 : CI Ideal S512) (a2 : CF Ideal S32x3) (a3 : CF Ideal S4x4x12)
    (a4 : CF Ideal S4) (a5 : CF Ideal S81x3) (k : Fin 32) (i j : Fin 512) :
    RefRun.out a0 a1 a2 a3 a4 a5 (ix4 (0 : Fin 2) k i j)
      = (RefRun.hr a0 a1 a2 a3 a5 (ix3 k i j) : EReal) + RefRun.diag a1 a4 (ix2 i j) := by
  unfold RefRun.out RefRun.stack
  refine (concat_pair0_apply_zero _ _ _ k i j).trans ?_
  refine (bcast_kab_1kab_apply _ _ (0 : Fin 1) k i j).trans ?_
  refine (addf_apply _ _ _).trans ?_
  exact congrArg ((RefRun.hr a0 a1 a2 a3 a5 (ix3 k i j) : EReal) + ·)
    ((bcast_1nm_knm_apply _ _ k i j).trans (bcast_nm_1nm_apply _ _ (0 : Fin 1) i j))

/-- The result's imaginary part reads, at (k, i, j), the imaginary part. -/
theorem out_im_apply (a0 : CF Ideal S512x3) (a1 : CI Ideal S512) (a2 : CF Ideal S32x3) (a3 : CF Ideal S4x4x12)
    (a4 : CF Ideal S4) (a5 : CF Ideal S81x3) (k : Fin 32) (i j : Fin 512) :
    RefRun.out a0 a1 a2 a3 a4 a5 (ix4 (1 : Fin 2) k i j) = RefRun.hi a0 a1 a2 a3 a5 (ix3 k i j) := by
  unfold RefRun.out RefRun.stack
  refine (concat_pair0_apply_one _ _ _ k i j).trans ?_
  exact bcast_kab_1kab_apply _ _ (0 : Fin 1) k i j

end Reference

end Cert.TailValue

end
-- ==== Proof.Bridge.lean ====
/-
  The two programs' results are one function of the argument arrays.

  Three chains of host operations are the same printed terms in both programs — the gathered coefficients, the phase
  angles, the gathered onsite energies — and are equal as they stand. The kernel program's result is the host tail of
  the region's two phase sums; the reference's is its stacked real and imaginary parts. Read at an index (h, k, i, j):
  for h = 0 both are the sum over the shifts of the pair potential of (i, j, shift) times the cosine of the phase of
  (k, shift), plus the onsite energy of atom i when i = j and the zero word's value otherwise; for h = 1 both are the
  same sum with the sines. The kernel's sum has the potential on the left of each product and reads the coefficient
  table degree first and the phase block shift first; the reference's has the phase factor on the left. The terms agree
  by commutativity of the product on the extended reals, which is the only algebra used.
-/
import proofs.«129299_j34935263986162_1_alg».proof.Proof.KHost
import proofs.«129299_j34935263986162_1_alg».proof.Proof.KSpec
import proofs.«129299_j34935263986162_1_alg».proof.Proof.RefValue
import proofs.«129299_j34935263986162_1_alg».proof.Proof.TailValue
import proofs.«129299_j34935263986162_1_alg».proof.Proof.RefRunDefs
import proofs.«129299_j34935263986162_1_alg».proof.Proof.PairSpec

noncomputable section

namespace Cert.Bridge

open Idealize.ShloMosaic Idealize.ShloMosaic.ValueIdx
open scoped BigOperators

/-! ## The shared chains -/

/-- The gathered coefficients: the same operations on the same arguments in both programs. -/
theorem coef_eq (a1 : IVec ⟨1, ![512]⟩ 32) (a3 : FVec Ideal ⟨3, ![4, 4, 12]⟩ .f32) :
    KernelIdeal.KHost.coefF a1 a3 = ReferenceIdeal.RefRun.coeffs (F := Ideal) a1 a3 := rfl

/-- The phase angles likewise. -/
theorem ang_eq (a2 : FVec Ideal ⟨2, ![32, 3]⟩ .f32) (a5 : FVec Ideal ⟨2, ![81, 3]⟩ .f32) :
    KernelIdeal.KHost.angF a2 a5 = ReferenceIdeal.RefRun.ang (F := Ideal) a2 a5 := rfl

/-- The gathered onsite energies likewise. -/
theorem ons_eq (a1 : IVec ⟨1, ![512]⟩ 32) (a4 : FVec Ideal ⟨1, ![4]⟩ .f32) :
    KernelIdeal.KHost.onsF a1 a4 = ReferenceIdeal.RefRun.onsiteAt (F := Ideal) a1 a4 := rfl

/-! ## One term of the phase sums -/

section Terms

variable (a0 : FVec Ideal ⟨2, ![512, 3]⟩ .f32) (a1 : IVec ⟨1, ![512]⟩ 32) (a2 : FVec Ideal ⟨2, ![32, 3]⟩ .f32)
  (a3 : FVec Ideal ⟨3, ![4, 4, 12]⟩ .f32) (a4 : FVec Ideal ⟨1, ![4]⟩ .f32) (a5 : FVec Ideal ⟨2, ![81, 3]⟩ .f32)

/-- The twelve coefficients of the pair (i, j): the degree-first table read at (p, i, j) is the reference's gathered
    table read at (i, j, p). -/
theorem coefs_eq (i j : Fin 512) :
    (fun p : Fin 12 => (KernelIdeal.KHost.coefT a1 a3 (ix3 p i j) : EReal))
      = fun p : Fin 12 => ReferenceIdeal.RefRun.coeffs (F := Ideal) a1 a3 (ix3 i j p) :=
  funext fun p => by rw [KernelIdeal.KHost.coefT_apply, coef_eq]

/-- The cosine term of shift s: potential times phase factor on the kernel's side, phase factor times potential on
    the reference's. -/
theorem term_cos (k : Fin 32) (i j : Fin 512) (s : Fin 81) :
    PairSpec.pairV (fun d => a0 (ix2 i d)) (fun d => a0 (ix2 j d)) (fun d => a5 (ix2 s d))
        (fun p => KernelIdeal.KHost.coefT a1 a3 (ix3 p i j)) * KernelIdeal.KHost.cosT a2 a5 (ix2 s k)
      = (ReferenceIdeal.RefRun.cosv (F := Ideal) a2 a5 (ix2 k s) : EReal) * ReferenceIdeal.RefRun.V (F := Ideal) a0 a1 a3 a5 (ix3 i j s) := by
  rw [ReferenceIdeal.RefVal.V_apply, KernelIdeal.KHost.cosT_apply, ang_eq, coefs_eq, mul_comm]
  rfl

/-- The sine term of shift s likewise. -/
theorem term_sin (k : Fin 32) (i j : Fin 512) (s : Fin 81) :
    PairSpec.pairV (fun d => a0 (ix2 i d)) (fun d => a0 (ix2 j d)) (fun d => a5 (ix2 s d))
        (fun p => KernelIdeal.KHost.coefT a1 a3 (ix3 p i j)) * KernelIdeal.KHost.sinT a2 a5 (ix2 s k)
      = (ReferenceIdeal.RefRun.sinv (F := Ideal) a2 a5 (ix2 k s) : EReal) * ReferenceIdeal.RefRun.V (F := Ideal) a0 a1 a3 a5 (ix3 i j s) := by
  rw [ReferenceIdeal.RefVal.V_apply, KernelIdeal.KHost.sinT_apply, ang_eq, coefs_eq, mul_comm]
  rfl

/-! ## The results at an index -/

/-- The real parts agree at (k, i, j). -/
theorem re_eq (k : Fin 32) (i j : Fin 512) :
    KernelIdeal.KHost.tail
        (KernelIdeal.KFin.GOf a0 a5 (KernelIdeal.KHost.coefT a1 a3) (KernelIdeal.KHost.cosT a2 a5))
        (KernelIdeal.KFin.GOf a0 a5 (KernelIdeal.KHost.coefT a1 a3) (KernelIdeal.KHost.sinT a2 a5)) a1 a4
        (ix4 (0 : Fin 2) k i j)
      = ReferenceIdeal.RefRun.out (F := Ideal) a0 a1 a2 a3 a4 a5 (ix4 (0 : Fin 2) k i j) := by
  rw [TailValue.tail_re_apply, KernelIdeal.KFin.GOf_apply, TailValue.diagK_apply, TailValue.ite_one_zero_mul,
    TailValue.out_re_apply, TailValue.hr_apply, TailValue.diag_apply, ons_eq]
  unfold KernelIdeal.KFin.blockSum
  exact congrArg (· + _) (Finset.sum_congr rfl fun s _ => term_cos a0 a1 a2 a3 a5 k i j s)

/-- The imaginary parts agree at (k, i, j). -/
theorem im_eq (k : Fin 32) (i j : Fin 512) :
    KernelIdeal.KHost.tail
        (KernelIdeal.KFin.GOf a0 a5 (KernelIdeal.KHost.coefT a1 a3) (KernelIdeal.KHost.cosT a2 a5))
        (KernelIdeal.KFin.GOf a0 a5 (KernelIdeal.KHost.coefT a1 a3) (KernelIdeal.KHost.sinT a2 a5)) a1 a4
        (ix4 (1 : Fin 2) k i j)
      = ReferenceIdeal.RefRun.out (F := Ideal) a0 a1 a2 a3 a4 a5 (ix4 (1 : Fin 2) k i j) := by
  rw [TailValue.tail_im_apply, KernelIdeal.KFin.GOf_apply, TailValue.out_im_apply, TailValue.hi_apply]
  unfold KernelIdeal.KFin.blockSum
  exact Finset.sum_congr rfl fun s _ => term_sin a0 a1 a2 a3 a5 k i j s

end Terms

/-! ## The results -/

/-- The kernel program's result — the host tail of the region's two phase sums over the arrays it is handed — is the
    reference's result, as functions of the six argument arrays. -/
theorem result_eq (a0 : FVec Ideal ⟨2, ![512, 3]⟩ .f32) (a1 : IVec ⟨1, ![512]⟩ 32) (a2 : FVec Ideal ⟨2, ![32, 3]⟩ .f32)
    (a3 : FVec Ideal ⟨3, ![4, 4, 12]⟩ .f32) (a4 : FVec Ideal ⟨1, ![4]⟩ .f32) (a5 : FVec Ideal ⟨2, ![81, 3]⟩ .f32) :
    KernelIdeal.KHost.tail
        (KernelIdeal.KFin.GOf a0 a5 (KernelIdeal.KHost.coefT a1 a3) (KernelIdeal.KHost.cosT a2 a5))
        (KernelIdeal.KFin.GOf a0 a5 (KernelIdeal.KHost.coefT a1 a3) (KernelIdeal.KHost.sinT a2 a5)) a1 a4
      = ReferenceIdeal.RefRun.out (F := Ideal) a0 a1 a2 a3 a4 a5 := by
  funext y
  obtain ⟨h, k, i, j, rfl⟩ : ∃ (h : Fin 2) (k : Fin 32) (i j : Fin 512), y = ix4 h k i j :=
    ⟨y 0, y 1, y 2, y 3, eq_ix4 y⟩
  match h with
  | ⟨0, _⟩ => exact re_eq a0 a1 a2 a3 a4 a5 k i j
  | ⟨1, _⟩ => exact im_eq a0 a1 a2 a3 a4 a5 k i j

end Cert.Bridge

end
-- ==== Proof.RefRunLib.lean ====
/- Small general facts about straight lines of host operations, used by the reference's run:
   a line split in two runs as its halves in order, a property of every operation of two lines
   holds of their concatenation, and the tactic that reads off a literal list that each of its
   operations determines its results. -/
import Idealize.ShloMosaic.Lib.StableHlo.Run

noncomputable section

namespace Cert.ReferenceIdeal.RefRun

open Idealize.ShloMosaic Idealize.ShloMosaic.StableHlo Idealize.SL.Sem

variable {nD : Nat} {τ : Topo} {sig : RefSig} {Val : EltTy → Type} {Λ : Labels}

/-- A property of every operation of two lines holds of every operation of their concatenation. -/
theorem mem_append_all {P : HloOp τ sig Val → Prop} {l₁ l₂ : List (HloOp τ sig Val)}
    (h₁ : ∀ op ∈ l₁, P op) (h₂ : ∀ op ∈ l₂, P op) : ∀ op ∈ l₁ ++ l₂, P op :=
  fun op h => (List.mem_append.mp h).elim (h₁ op) (h₂ op)

/-- The contents after two lines in order: the second line's fold over the first's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A line followed by the bare return is the line. -/
theorem seq_bind_pure (l : List (HloOp τ sig Val)) :
    ((seq l : Prog (TpuEff nD τ sig Val Λ .tc) PUnit) >>= fun _ => pure ⟨⟩) = seq l := by
  have h := seq_append (nD := nD) (Λ := Λ) l []
  rw [List.append_nil] at h
  exact h.symm

/-- Over a literal list of the builders' operations: none allocates an uninitialised buffer, each
    by computation. -/
macro "ops_fresh" : tactic =>
  `(tactic| (intro _ h
             (repeat (cases h with
               | head => rfl
               | tail _ h => ?_))
             exact nomatch h))

end Cert.ReferenceIdeal.RefRun

end
-- ==== Proof.RefRunW0.lean ====
/- The reference program's first window of sixty statements, as operation lists.

   The window is cut at its two calls of the outlined select-with-scalar function: the operations
   before the first call (`opsA`: the squared pair distances and their positivity mask), that
   call's three operations (`opsW0`), the square root and the second mask (`opsB`), the second
   call (`opsW1`: the distances), and the rest (`opsC`: the scaled distances and the gather of the
   polynomial coefficients by species pair). `part0_eq` states that the window is these five
   stretches run in order. -/
import proofs.«129299_j34935263986162_1_alg».proof.Proof.Gen.ReferenceIdeal
import Idealize.ShloMosaic.Lib.StableHlo.Run
import Idealize.ShloMosaic.Lib.Pipeline.Regions
import proofs.«129299_j34935263986162_1_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 28: positions plus shifts minus positions, squared and summed over the three
    coordinates; the mask of the positive sums; the scalar one. -/
abbrev opsA : List (HloOp τ sig (Elt F)) :=
  [ nullary main_cst (fun i => FloatOps.ofBits .f32 (lit0 (S3x3.rowMajor i))),
    unary main_arg0 main_v0 (broadcastInDim S1x512x1x3 ![1, 3] bcast_S512x3_S1x512x1x3_1_3),
    unary main_arg5 main_v1 (broadcastInDim S1x1x81x3 ![2, 3] bcast_S81x3_S1x1x81x3_2_3),
    unary main_v0 main_v2 (broadcastInDim S1x512x81x3 ![0, 1, 2, 3] bcast_S1x512x1x3_S1x512x81x3_0_1_2_3),
    unary main_v1 main_v3 (broadcastInDim S1x512x81x3 ![0, 1, 2, 3] bcast_S1x1x81x3_S1x512x81x3_0_1_2_3),
    binary main_v2 main_v3 main_v4 addf,
    unary main_arg0 main_v5 (broadcastInDim S512x3x1 ![0, 1] bcast_S512x3_S512x3x1_0_1),
    unary main_v5 main_v6 (broadcastInDim S512x1x3x1 ![0, 2, 3] bcast_S512x3x1_S512x1x3x1_0_2_3),
    reshape main_v6 main_v7 rfl shapeCasts_S512x1x3x1_S512x1x1x3,
    unary main_v4 main_v8 (broadcastInDim S512x512x81x3 ![0, 1, 2, 3] bcast_S1x512x81x3_S512x512x81x3_0_1_2_3),
    unary main_v7 main_v9 (broadcastInDim S512x512x81x3 ![0, 1, 2, 3] bcast_S512x1x1x3_S512x512x81x3_0_1_2_3),
    binary main_v8 main_v9 main_v10 subf,
    unary main_arg0 main_v11 (broadcastInDim S1x512x1x3 ![1, 3] bcast_S512x3_S1x512x1x3_1_3),
    unary main_arg5 main_v12 (broadcastInDim S1x1x81x3 ![2, 3] bcast_S81x3_S1x1x81x3_2_3),
    unary main_v11 main_v13 (broadcastInDim S1x512x81x3 ![0, 1, 2, 3] bcast_S1x512x1x3_S1x512x81x3_0_1_2_3),
    unary main_v12 main_v14 (broadcastInDim S1x512x81x3 ![0, 1, 2, 3] bcast_S1x1x81x3_S1x512x81x3_0_1_2_3),
    binary main_v13 main_v14 main_v15 addf,
    unary main_arg0 main_v16 (broadcastInDim S512x1x1x3 ![0, 3] bcast_S512x3_S512x1x1x3_0_3),
    unary main_v15 main_v17 (broadcastInDim S512x512x81x3 ![0, 1, 2, 3] bcast_S1x512x81x3_S512x512x81x3_0_1_2_3),
    unary main_v16 main_v18 (broadcastInDim S512x512x81x3 ![0, 1, 2, 3] bcast_S512x1x1x3_S512x512x81x3_0_1_2_3),
    binary main_v17 main_v18 main_v19 subf,
    binary main_v19 main_v19 main_v20 mulf,
    nullary main_cst_0 (constant S_ .f32 0x00000000#32),
    binary main_v20 main_cst_0 main_v21 (fun x v => Host.reduceAdd x v reducesTo_S512x512x81x3_S512x512x81_d3 h_S_),
    nullary main_cst_1 (constant S_ .f32 0x00000000#32),
    unary main_cst_1 main_v22 (broadcastInDim S512x512x81 ![] bcast_S_S512x512x81),
    binary main_v21 main_v22 main_v23 (cmpf .ogt),
    nullary main_cst_2 (constant S_ .f32 0x3F800000#32) ]

/-- The first call's body: the scalar converted to its own type, broadcast, and the select of the
    squared distance where it is positive, of one elsewhere. -/
abbrev opsW0 : List (HloOp τ sig (Elt F)) :=
  [ TRef.unary (.of main_cst_2) main_call0.v0 id,
    TRef.unary main_call0.v0 main_call0.v1 (broadcastInDim S512x512x81 ![] bcast_S_S512x512x81),
    TRef.ternary (.of main_v23) (.of main_v21) main_call0.v1 main_call0.v2 select ]

/-- Statements 30 … 34: the square root, the positivity mask again, the scalar zero. -/
abbrev opsB : List (HloOp τ sig (Elt F)) :=
  [ unary main_v24 main_v25 Host.sqrt,
    nullary main_cst_3 (constant S_ .f32 0x00000000#32),
    unary main_cst_3 main_v26 (broadcastInDim S512x512x81 ![] bcast_S_S512x512x81),
    binary main_v21 main_v26 main_v27 (cmpf .ogt),
    nullary main_cst_4 (constant S_ .f32 0x00000000#32) ]

/-- The second call's body: the distance where the squared distance is positive, zero elsewhere. -/
abbrev opsW1 : List (HloOp τ sig (Elt F)) :=
  [ TRef.unary (.of main_cst_4) main_call1.v0 id,
    TRef.unary main_call1.v0 main_call1.v1 (broadcastInDim S512x512x81 ![] bcast_S_S512x512x81),
    TRef.ternary (.of main_v27) (.of main_v25) main_call1.v1 main_call1.v2 select ]

/-- Statements 36 … 60: the distance scaled to atomic units; the species indices wrapped into
    range, paired, and the coefficient table gathered at the pairs. -/
abbrev opsC : List (HloOp τ sig (Elt F)) :=
  [ nullary main_cst_5 (constant S_ .f32 0x3FF1E28C#32),
    unary main_cst_5 main_v29 (broadcastInDim S512x512x81 ![] bcast_S_S512x512x81),
    binary main_v28 main_v29 main_v30 mulf,
    unary main_arg1 main_v31 (broadcastInDim S512x1 ![0] bcast_S512_S512x1_0),
    unary main_arg1 main_v32 (broadcastInDim S1x512 ![1] bcast_S512_S1x512_1),
    nullary main_c (constantI S_ 32 0#32),
    unary main_c main_v33 (broadcastInDim S512x1 ![] bcast_S_S512x1),
    binary main_v31 main_v33 main_v34 (cmpi .slt),
    nullary main_c_6 (constantI S_ 32 4#32),
    unary main_c_6 main_v35 (broadcastInDim S512x1 ![] bcast_S_S512x1),
    binary main_v31 main_v35 main_v36 addi,
    ternary main_v34 main_v36 main_v31 main_v37 select,
    nullary main_c_7 (constantI S_ 32 0#32),
    unary main_c_7 main_v38 (broadcastInDim S1x512 ![] bcast_S_S1x512),
    binary main_v32 main_v38 main_v39 (cmpi .slt),
    nullary main_c_8 (constantI S_ 32 4#32),
    unary main_c_8 main_v40 (broadcastInDim S1x512 ![] bcast_S_S1x512),
    binary main_v32 main_v40 main_v41 addi,
    ternary main_v39 main_v41 main_v32 main_v42 select,
    unary main_v37 main_v43 (broadcastInDim S512x512 ![0, 1] bcast_S512x1_S512x512_0_1),
    unary main_v42 main_v44 (broadcastInDim S512x512 ![0, 1] bcast_S1x512_S512x512_0_1),
    unary main_v43 main_v45 (broadcastInDim S512x512x1 ![0, 1] bcast_S512x512_S512x512x1_0_1),
    unary main_v44 main_v46 (broadcastInDim S512x512x1 ![0, 1] bcast_S512x512_S512x512x1_0_1),
    binary main_v45 main_v46 main_v47 (fun a b => concatenate S512x512x2 2 [⟨S512x512x1, a⟩, ⟨S512x512x1, b⟩] concatenates_S512x512x1_S512x512x1_S512x512x2_d2),
    binary main_arg3 main_v47 main_v48 (fun x i => Host.gather gather_S4x4x12_S512x512x2_S512x512x12_2_01_n_n_01_2_1112 x i) ]

/-- The first window is its five stretches in order: definitional unfolding peels the window's
    statements, and the two calls' bodies, against the lists. -/
theorem part0_eq (c : Dev nD) : main_part0 (F := F) c
    = Pipeline.chainK [seq opsA, seq opsW0, seq opsB, seq opsW1] (seq opsC) := by
  chain_rfl

/-! Each operation of the stretches touches TensorCore references only, and none allocates. -/

theorem subA : (opsA : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., unary_bufs_sub .., reshape_bufs_sub .., unary_bufs_sub .., unary_bufs_sub .., binary_bufs_sub ..,
    unary_bufs_sub .., unary_bufs_sub .., unary_bufs_sub .., unary_bufs_sub .., binary_bufs_sub ..,
    unary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..⟩
theorem subW0 : (opsW0 : List (HloOp τ sig (Elt F))).Forall fun op => op.bufs ⊆ tcRefs τ sig :=
  ⟨unary_bufs_sub .., unary_bufs_sub .., ternary_bufs_sub ..⟩
theorem subB : (opsB : List (HloOp τ sig (Elt F))).Forall fun op => op.bufs ⊆ tcRefs τ sig :=
  ⟨unary_bufs_sub .., nullary_bufs_sub .., unary_bufs_sub .., binary_bufs_sub .., nullary_bufs_sub ..⟩
theorem subW1 : (opsW1 : List (HloOp τ sig (Elt F))).Forall fun op => op.bufs ⊆ tcRefs τ sig :=
  ⟨unary_bufs_sub .., unary_bufs_sub .., ternary_bufs_sub ..⟩
theorem subC : (opsC : List (HloOp τ sig (Elt F))).Forall fun op => op.bufs ⊆ tcRefs τ sig :=
  ⟨nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub ..,
    unary_bufs_sub .., unary_bufs_sub .., unary_bufs_sub .., unary_bufs_sub .., binary_bufs_sub .., binary_bufs_sub ..⟩

theorem freshA : ∀ op ∈ (opsA : List (HloOp τ sig (Elt F))), op.fresh = ∅ := by ops_fresh
theorem freshW0 : ∀ op ∈ (opsW0 : List (HloOp τ sig (Elt F))), op.fresh = ∅ := by ops_fresh
theorem freshB : ∀ op ∈ (opsB : List (HloOp τ sig (Elt F))), op.fresh = ∅ := by ops_fresh
theorem freshW1 : ∀ op ∈ (opsW1 : List (HloOp τ sig (Elt F))), op.fresh = ∅ := by ops_fresh
theorem freshC : ∀ op ∈ (opsC : List (HloOp τ sig (Elt F))), op.fresh = ∅ := by ops_fresh

end Cert.ReferenceIdeal.RefRun

end
-- ==== Proof.RefRunW1.lean ====
/- The reference program's second window of sixty statements, as one operation list: the Horner
   evaluation of the degree-eleven polynomial in the scaled distance, from the zero accumulator
   through the coefficient of degree three, and the first three operations of the step for
   degree two. Each step slices one coefficient plane out of the gathered table, drops its unit
   axis, broadcasts it along the shift axis, adds it to the accumulator and multiplies by the
   scaled distance. -/
import proofs.«129299_j34935263986162_1_alg».proof.Proof.Gen.ReferenceIdeal
import Idealize.ShloMosaic.Lib.StableHlo.Run
import Idealize.ShloMosaic.Lib.Pipeline.Regions
import proofs.«129299_j34935263986162_1_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 61 … 120. -/
abbrev opsP1 : List (HloOp τ sig (Elt F)) :=
  [ nullary main_cst_9 (constant S_ .f32 0x00000000#32),
    unary main_cst_9 main_v49 (broadcastInDim S512x512x81 ![] bcast_S_S512x512x81),
    binary main_v49 main_v30 main_v50 mulf,
    unary main_v48 main_v51 (extractStridedSlice S512x512x1 ![0, 0, 11] · slices_S512x512x12_S512x512x1_0_0_11),
    reshape main_v51 main_v52 rfl shapeCasts_S512x512x1_S512x512,
    unary main_v52 main_v53 (broadcastInDim S512x512x1 ![0, 1] bcast_S512x512_S512x512x1_0_1),
    unary main_v53 main_v54 (broadcastInDim S512x512x81 ![0, 1, 2] bcast_S512x512x1_S512x512x81_0_1_2),
    binary main_v50 main_v54 main_v55 addf,
    binary main_v55 main_v30 main_v56 mulf,
    unary main_v48 main_v57 (extractStridedSlice S512x512x1 ![0, 0, 10] · slices_S512x512x12_S512x512x1_0_0_10),
    reshape main_v57 main_v58 rfl shapeCasts_S512x512x1_S512x512,
    unary main_v58 main_v59 (broadcastInDim S512x512x1 ![0, 1] bcast_S512x512_S512x512x1_0_1),
    unary main_v59 main_v60 (broadcastInDim S512x512x81 ![0, 1, 2] bcast_S512x512x1_S512x512x81_0_1_2),
    binary main_v56 main_v60 main_v61 addf,
    binary main_v61 main_v30 main_v62 mulf,
    unary main_v48 main_v63 (extractStridedSlice S512x512x1 ![0, 0, 9] · slices_S512x512x12_S512x512x1_0_0_9),
    reshape main_v63 main_v64 rfl shapeCasts_S512x512x1_S512x512,
    unary main_v64 main_v65 (broadcastInDim S512x512x1 ![0, 1] bcast_S512x512_S512x512x1_0_1),
    unary main_v65 main_v66 (broadcastInDim S512x512x81 ![0, 1, 2] bcast_S512x512x1_S512x512x81_0_1_2),
    binary main_v62 main_v66 main_v67 addf,
    binary main_v67 main_v30 main_v68 mulf,
    unary main_v48 main_v69 (extractStridedSlice S512x512x1 ![0, 0, 8] · slices_S512x512x12_S512x512x1_0_0_8),
    reshape main_v69 main_v70 rfl shapeCasts_S512x512x1_S512x512,
    unary main_v70 main_v71 (broadcastInDim S512x512x1 ![0, 1] bcast_S512x512_S512x512x1_0_1),
    unary main_v71 main_v72 (broadcastInDim S512x512x81 ![0, 1, 2] bcast_S512x512x1_S512x512x81_0_1_2),
    binary main_v68 main_v72 main_v73 addf,
    binary main_v73 main_v30 main_v74 mulf,
    unary main_v48 main_v75 (extractStridedSlice S512x512x1 ![0, 0, 7] · slices_S512x512x12_S512x512x1_0_0_7),
    reshape main_v75 main_v76 rfl shapeCasts_S512x512x1_S512x512,
    unary main_v76 main_v77 (broadcastInDim S512x512x1 ![0, 1] bcast_S512x512_S512x512x1_0_1),
    unary main_v77 main_v78 (broadcastInDim S512x512x81 ![0, 1, 2] bcast_S512x512x1_S512x512x81_0_1_2),
    binary main_v74 main_v78 main_v79 addf,
    binary main_v79 main_v30 main_v80 mulf,
    unary main_v48 main_v81 (extractStridedSlice S512x512x1 ![0, 0, 6] · slices_S512x512x12_S512x512x1_0_0_6),
    reshape main_v81 main_v82 rfl shapeCasts_S512x512x1_S512x512,
    unary main_v82 main_v83 (broadcastInDim S512x512x1 ![0, 1] bcast_S512x512_S512x512x1_0_1),
    unary main_v83 main_v84 (broadcastInDim S512x512x81 ![0, 1, 2] bcast_S512x512x1_S512x512x81_0_1_2),
    binary main_v80 main_v84 main_v85 addf,
    binary main_v85 main_v30 main_v86 mulf,
    unary main_v48 main_v87 (extractStridedSlice S512x512x1 ![0, 0, 5] · slices_S512x512x12_S512x512x1_0_0_5),
    reshape main_v87 main_v88 rfl shapeCasts_S512x512x1_S512x512,
    unary main_v88 main_v89 (broadcastInDim S512x512x1 ![0, 1] bcast_S512x512_S512x512x1_0_1),
    unary main_v89 main_v90 (broadcastInDim S512x512x81 ![0, 1, 2] bcast_S512x512x1_S512x512x81_0_1_2),
    binary main_v86 main_v90 main_v91 addf,
    binary main_v91 main_v30 main_v92 mulf,
    unary main_v48 main_v93 (extractStridedSlice S512x512x1 ![0, 0, 4] · slices_S512x512x12_S512x512x1_0_0_4),
    reshape main_v93 main_v94 rfl shapeCasts_S512x512x1_S512x512,
    unary main_v94 main_v95 (broadcastInDim S512x512x1 ![0, 1] bcast_S512x512_S512x512x1_0_1),
    unary main_v95 main_v96 (broadcastInDim S512x512x81 ![0, 1, 2] bcast_S512x512x1_S512x512x81_0_1_2),
    binary main_v92 main_v96 main_v97 addf,
    binary main_v97 main_v30 main_v98 mulf,
    unary main_v48 main_v99 (extractStridedSlice S512x512x1 ![0, 0, 3] · slices_S512x512x12_S512x512x1_0_0_3),
    reshape main_v99 main_v100 rfl shapeCasts_S512x512x1_S512x512,
    unary main_v100 main_v101 (broadcastInDim S512x512x1 ![0, 1] bcast_S512x512_S512x512x1_0_1),
    unary main_v101 main_v102 (broadcastInDim S512x512x81 ![0, 1, 2] bcast_S512x512x1_S512x512x81_0_1_2),
    binary main_v98 main_v102 main_v103 addf,
    binary main_v103 main_v30 main_v104 mulf,
    unary main_v48 main_v105 (extractStridedSlice S512x512x1 ![0, 0, 2] · slices_S512x512x12_S512x512x1_0_0_2),
    reshape main_v105 main_v106 rfl shapeCasts_S512x512x1_S512x512,
    unary main_v106 main_v107 (broadcastInDim S512x512x1 ![0, 1] bcast_S512x512_S512x512x1_0_1) ]

/-- The second window is that list run in order. -/
theorem part1_eq (c : Dev nD) : main_part1 (F := F) c = seq opsP1 := by
  chain_rfl

/-! Each operation of the list touches TensorCore references only, and none allocates. -/

theorem subP1 : (opsP1 : List (HloOp τ sig (Elt F))).Forall fun op => op.bufs ⊆ tcRefs τ sig :=
  ⟨nullary_bufs_sub .., unary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub ..⟩

theorem freshP1 : ∀ op ∈ (opsP1 : List (HloOp τ sig (Elt F))), op.fresh = ∅ := by ops_fresh

end Cert.ReferenceIdeal.RefRun

end
-- ==== Proof.RefRunW2.lean ====
/- The reference program's last window, as operation lists, cut at its two calls: the end of the
   Horner evaluation and the two range masks (`opsD`), the call selecting the polynomial value
   inside the range (`opsW2`), the phase angles with their cosines and sines contracted against
   the selected values over the shift axis, and the on-site energies gathered by species
   (`opsE`), the call building the diagonal matrix — its own body and the select it calls in turn
   (`opsDg`) —, and the diagonal added to the real part and the two parts stacked (`opsG`). -/
import proofs.«129299_j34935263986162_1_alg».proof.Proof.Gen.ReferenceIdeal
import Idealize.ShloMosaic.Lib.StableHlo.Run
import Idealize.ShloMosaic.Lib.Pipeline.Regions
import proofs.«129299_j34935263986162_1_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 121 … 142: the Horner steps for degrees two (its last three operations), one and
    zero; the masks "distance above one tenth" and "distance at most six", their conjunction;
    the scalar zero. -/
abbrev opsD : List (HloOp τ sig (Elt F)) :=
  [ unary main_v107 main_v108 (broadcastInDim S512x512x81 ![0, 1, 2] bcast_S512x512x1_S512x512x81_0_1_2),
    binary main_v104 main_v108 main_v109 addf,
    binary main_v109 main_v30 main_v110 mulf,
    unary main_v48 main_v111 (extractStridedSlice S512x512x1 ![0, 0, 1] · slices_S512x512x12_S512x512x1_0_0_1),
    reshape main_v111 main_v112 rfl shapeCasts_S512x512x1_S512x512,
    unary main_v112 main_v113 (broadcastInDim S512x512x1 ![0, 1] bcast_S512x512_S512x512x1_0_1),
    unary main_v113 main_v114 (broadcastInDim S512x512x81 ![0, 1, 2] bcast_S512x512x1_S512x512x81_0_1_2),
    binary main_v110 main_v114 main_v115 addf,
    binary main_v115 main_v30 main_v116 mulf,
    unary main_v48 main_v117 (extractStridedSlice S512x512x1 ![0, 0, 0] · slices_S512x512x12_S512x512x1_0_0_0),
    reshape main_v117 main_v118 rfl shapeCasts_S512x512x1_S512x512,
    unary main_v118 main_v119 (broadcastInDim S512x512x1 ![0, 1] bcast_S512x512_S512x512x1_0_1),
    unary main_v119 main_v120 (broadcastInDim S512x512x81 ![0, 1, 2] bcast_S512x512x1_S512x512x81_0_1_2),
    binary main_v116 main_v120 main_v121 addf,
    nullary main_cst_10 (constant S_ .f32 0x3DCCCCCD#32),
    unary main_cst_10 main_v122 (broadcastInDim S512x512x81 ![] bcast_S_S512x512x81),
    binary main_v28 main_v122 main_v123 (cmpf .ogt),
    nullary main_cst_11 (constant S_ .f32 0x40C00000#32),
    unary main_cst_11 main_v124 (broadcastInDim S512x512x81 ![] bcast_S_S512x512x81),
    binary main_v28 main_v124 main_v125 (cmpf .ole),
    binary main_v123 main_v125 main_v126 andi,
    nullary main_cst_12 (constant S_ .f32 0x00000000#32) ]

/-- The third call's body: the polynomial value where both masks hold, zero elsewhere. -/
abbrev opsW2 : List (HloOp τ sig (Elt F)) :=
  [ TRef.unary (.of main_cst_12) main_call2.v0 id,
    TRef.unary main_call2.v0 main_call2.v1 (broadcastInDim S512x512x81 ![] bcast_S_S512x512x81),
    TRef.ternary (.of main_v126) (.of main_v121) main_call2.v1 main_call2.v2 select ]

/-- Statements 144 … 163: the wave vectors times the transposed inverse lattice, times the
    transposed shifts, times two pi; cosine and sine; each contracted with the selected values
    over the shifts; the species indices wrapped into range and the on-site table gathered. -/
abbrev opsE : List (HloOp τ sig (Elt F)) :=
  [ unary main_cst main_v128 (transpose S3x3 [1, 0] · transposes_S3x3_S3x3_1_0),
    binary main_arg2 main_v128 main_v129 (fun l r => Host.dotGeneral dot_S32x3_S3x3_S32x3_1_0_0_1_n_n none l r),
    unary main_arg5 main_v130 (transpose S3x81 [1, 0] · transposes_S81x3_S3x81_1_0),
    binary main_v129 main_v130 main_v131 (fun l r => Host.dotGeneral dot_S32x3_S3x81_S32x81_1_0_0_1_n_n none l r),
    nullary main_cst_13 (constant S_ .f32 0x40C90FDB#32),
    unary main_cst_13 main_v132 (broadcastInDim S32x81 ![] bcast_S_S32x81),
    binary main_v132 main_v131 main_v133 mulf,
    unary main_v133 main_v134 Host.cos,
    binary main_v134 main_v127 main_v135 (fun l r => Host.dotGeneral dot_S32x81_S512x512x81_S32x512x512_1_2_0_01_n_n none l r),
    unary main_v133 main_v136 Host.sin,
    binary main_v136 main_v127 main_v137 (fun l r => Host.dotGeneral dot_S32x81_S512x512x81_S32x512x512_1_2_0_01_n_n none l r),
    nullary main_c_14 (constantI S_ 32 0#32),
    unary main_c_14 main_v138 (broadcastInDim S512 ![] bcast_S_S512),
    binary main_arg1 main_v138 main_v139 (cmpi .slt),
    nullary main_c_15 (constantI S_ 32 4#32),
    unary main_c_15 main_v140 (broadcastInDim S512 ![] bcast_S_S512),
    binary main_arg1 main_v140 main_v141 addi,
    ternary main_v139 main_v141 main_arg1 main_v142 select,
    unary main_v142 main_v143 (broadcastInDim S512x1 ![0] bcast_S512_S512x1_0),
    binary main_arg4 main_v143 main_v144 (fun x i => Host.gather gather_S4_S512x1_S512_n_0_n_n_0_1_1 x i) ]

/-- The fourth call's body, the select it calls inlined after its own ten operations: the vector
    padded by nothing, the row and column indices, their equality mask, the vector broadcast
    along rows, the scalar zero; then the column broadcast, the zero broadcast, the select. -/
abbrev opsDg : List (HloOp τ sig (Elt F)) :=
  [ TRef.nullary main_call3.cst (constant S_ .f32 0x00000000#32),
    TRef.binary (.of main_v144) main_call3.cst main_call3.v0 (fun x v => pad S512 ![0] ![0] ![0] x v pads_S512_S512_000 h_S_),
    TRef.nullary main_call3.v1 (iotaInDim S512x512 32 0),
    TRef.nullary main_call3.v2 (iotaInDim S512x512 32 1),
    TRef.nullary main_call3.c (constantI S_ 32 0#32),
    TRef.unary main_call3.c main_call3.v3 (broadcastInDim S512x512 ![] bcast_S_S512x512),
    TRef.binary main_call3.v1 main_call3.v3 main_call3.v4 addi,
    TRef.binary main_call3.v4 main_call3.v2 main_call3.v5 (cmpi .eq),
    TRef.unary main_call3.v0 main_call3.v6 (broadcastInDim S512x1 ![0] bcast_S512_S512x1_0),
    TRef.nullary main_call3.cst_0 (constant S_ .f32 0x00000000#32),
    TRef.unary main_call3.v6 main_call3.call0.v0 (broadcastInDim S512x512 ![0, 1] bcast_S512x1_S512x512_0_1),
    TRef.unary main_call3.cst_0 main_call3.call0.v1 (broadcastInDim S512x512 ![] bcast_S_S512x512),
    TRef.ternary main_call3.v5 main_call3.call0.v0 main_call3.call0.v1 main_call3.call0.v2 select ]

/-- Statements 165 … 170: the diagonal broadcast over the wave vectors and added to the real
    part; both parts given a leading unit axis and stacked along it. -/
abbrev opsG : List (HloOp τ sig (Elt F)) :=
  [ unary main_v145 main_v146 (broadcastInDim S1x512x512 ![1, 2] bcast_S512x512_S1x512x512_1_2),
    unary main_v146 main_v147 (broadcastInDim S32x512x512 ![0, 1, 2] bcast_S1x512x512_S32x512x512_0_1_2),
    binary main_v135 main_v147 main_v148 addf,
    unary main_v148 main_v149 (broadcastInDim S1x32x512x512 ![1, 2, 3] bcast_S32x512x512_S1x32x512x512_1_2_3),
    unary main_v137 main_v150 (broadcastInDim S1x32x512x512 ![1, 2, 3] bcast_S32x512x512_S1x32x512x512_1_2_3),
    binary main_v149 main_v150 main_v151 (fun a b => concatenate S2x32x512x512 0 [⟨S1x32x512x512, a⟩, ⟨S1x32x512x512, b⟩] concatenates_S1x32x512x512_S1x32x512x512_S2x32x512x512_d0) ]

/-- The last window is its five stretches in order, then the return. -/
theorem part2_eq (c : Dev nD) : main_part2 (F := F) c
    = Pipeline.chain [seq opsD, seq opsW2, seq opsE, seq opsDg, seq opsG] := by
  chain_rfl

/-! Each operation of the stretches touches TensorCore references only, and none allocates. -/

theorem subD : (opsD : List (HloOp τ sig (Elt F))).Forall fun op => op.bufs ⊆ tcRefs τ sig :=
  ⟨unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub ..⟩
theorem subW2 : (opsW2 : List (HloOp τ sig (Elt F))).Forall fun op => op.bufs ⊆ tcRefs τ sig :=
  ⟨unary_bufs_sub .., unary_bufs_sub .., ternary_bufs_sub ..⟩
theorem subE : (opsE : List (HloOp τ sig (Elt F))).Forall fun op => op.bufs ⊆ tcRefs τ sig :=
  ⟨unary_bufs_sub .., binary_bufs_sub .., unary_bufs_sub .., binary_bufs_sub .., nullary_bufs_sub .., unary_bufs_sub ..,
    binary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..⟩
theorem subDg : (opsDg : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..⟩
theorem subG : (opsG : List (HloOp τ sig (Elt F))).Forall fun op => op.bufs ⊆ tcRefs τ sig :=
  ⟨unary_bufs_sub .., unary_bufs_sub .., binary_bufs_sub .., unary_bufs_sub .., unary_bufs_sub .., binary_bufs_sub ..⟩

theorem freshD : ∀ op ∈ (opsD : List (HloOp τ sig (Elt F))), op.fresh = ∅ := by ops_fresh
theorem freshW2 : ∀ op ∈ (opsW2 : List (HloOp τ sig (Elt F))), op.fresh = ∅ := by ops_fresh
theorem freshE : ∀ op ∈ (opsE : List (HloOp τ sig (Elt F))), op.fresh = ∅ := by ops_fresh
theorem freshDg : ∀ op ∈ (opsDg : List (HloOp τ sig (Elt F))), op.fresh = ∅ := by ops_fresh
theorem freshG : ∀ op ∈ (opsG : List (HloOp τ sig (Elt F))), op.fresh = ∅ := by ops_fresh

end Cert.ReferenceIdeal.RefRun

end
-- ==== Proof.RefRunMain.lean ====
/- The reference program as ONE straight line of host operations, and its run.

   `ops` is the concatenation, in program order, of the three windows' stretches with the four
   calls' bodies inlined where they are called. `main_eq` states that the program is that line:
   each window is the chain of its stretches, a chain of lines is the line of their concatenation,
   and the closing return adds nothing. `run_after` is the library's run of a straight line at this
   list: every weakly fair execution terminates, and each buffer ends at the fold of the
   operations' results over the launch contents. -/
import proofs.«129299_j34935263986162_1_alg».proof.Proof.RefRunW0
import proofs.«129299_j34935263986162_1_alg».proof.Proof.RefRunW1
import proofs.«129299_j34935263986162_1_alg».proof.Proof.RefRunW2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 188 operations in order: the 166 of its own 170 statements that are not calls,
    and the twenty-two of the four called bodies (three selects of three operations each, the
    diagonal's ten and the three of the select it calls). -/
abbrev ops : List (HloOp τ sig (Elt F)) :=
  opsA ++ (opsW0 ++ (opsB ++ (opsW1 ++ (opsC ++ (opsP1 ++ (opsD ++ (opsW2 ++ (opsE ++ (opsDg ++ opsG)))))))))

/-- The program is that line. -/
theorem main_eq (c : Dev nD) : main (F := F) c = seq ops := by
  show (main_part0 (F := F) c >>= fun _ => main_part1 (F := F) c >>= fun _ => main_part2 (F := F) c)
    = seq (opsA ++ (opsW0 ++ (opsB ++ (opsW1 ++ (opsC ++ (opsP1 ++ (opsD ++ (opsW2 ++ (opsE ++ (opsDg ++ opsG))))))))))
  rw [part0_eq, part1_eq, part2_eq]
  rw [seq_append, seq_append, seq_append, seq_append, seq_append, seq_append, seq_append, seq_append, seq_append,
    seq_append]
  simp only [Pipeline.chainK, Pipeline.chain_cons, Pipeline.chain_nil, bind_assoc, seq_bind_pure]

/-- The signature scopes no buffer and no semaphore: the program has no kernel. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: each stretch's do. -/
theorem ops_sub : (ops : List (HloOp τ sig (Elt F))).Forall fun op => op.bufs ⊆ tcRefs τ sig :=
  List.forall_iff_forall_mem.mpr
    (mem_append_all (List.forall_iff_forall_mem.mp subA)
    (mem_append_all (List.forall_iff_forall_mem.mp subW0)
    (mem_append_all (List.forall_iff_forall_mem.mp subB)
    (mem_append_all (List.forall_iff_forall_mem.mp subW1)
    (mem_append_all (List.forall_iff_forall_mem.mp subC)
    (mem_append_all (List.forall_iff_forall_mem.mp subP1)
    (mem_append_all (List.forall_iff_forall_mem.mp subD)
    (mem_append_all (List.forall_iff_forall_mem.mp subW2)
    (mem_append_all (List.forall_iff_forall_mem.mp subE)
    (mem_append_all (List.forall_iff_forall_mem.mp subDg) (List.forall_iff_forall_mem.mp subG)))))))))))

/-- No operation of the line allocates an uninitialised buffer: none of any stretch does. -/
theorem ops_fresh_all : ∀ op ∈ (ops : List (HloOp τ sig (Elt F))), op.fresh = ∅ :=
  mem_append_all freshA (mem_append_all freshW0 (mem_append_all freshB (mem_append_all freshW1
    (mem_append_all freshC (mem_append_all freshP1 (mem_append_all freshD (mem_append_all freshW2
      (mem_append_all freshE (mem_append_all freshDg freshG)))))))))

/-- On every device, for any float values, from any memory with zero counters: every weakly fair
    execution of the program terminates, and every buffer ends at the fold of the operations'
    results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (b : DevRef τ sig) :=
  run_seq scopedRefs_eq scopedSems_eq defs main (fun _ => ops) main_eq (fun _ => ops_sub) m ρ
    (fun _ => ops_fresh_all)

end Cert.ReferenceIdeal.RefRun

end
-- ==== Proof.RefRunVal0.lean ====
/- The first window's stretches, value by value: after each stretch, from any contents `W`, what
   each buffer a later stretch reads holds — a named function of what `W` holds at the buffers
   the stretch reads — and that the buffers it does not write are as before. Each is the fold of
   the stretch's operations computed at that buffer. -/
import proofs.«129299_j34935263986162_1_alg».proof.Proof.RefRunW0
import proofs.«129299_j34935263986162_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### Statements 1 … 28 -/

theorem valA_v21 (W : Valuation τ sig (Elt F)) :
    after opsA W (main_v21 : DevRef τ sig)
      = dr2 (W (main_arg0 : DevRef τ sig)) (W (main_arg5 : DevRef τ sig)) := by
  after_results_simp
  rfl

theorem valA_v23 (W : Valuation τ sig (Elt F)) :
    after opsA W (main_v23 : DevRef τ sig)
      = pos (W (main_arg0 : DevRef τ sig)) (W (main_arg5 : DevRef τ sig)) := by
  after_results_simp
  rfl

theorem valA_cst_2 (W : Valuation τ sig (Elt F)) :
    after opsA W (main_cst_2 : DevRef τ sig) = constant S_ .f32 0x3F800000#32 := by
  after_results_simp

theorem valA_cst (W : Valuation τ sig (Elt F)) :
    after opsA W (main_cst : DevRef τ sig) = invLat := by
  after_results_simp
  rfl

theorem keepA : KeepsArgs (opsA (F := F)) := fun W =>
  ⟨by after_results_simp, by after_results_simp, by after_results_simp, by after_results_simp,
    by after_results_simp, by after_results_simp⟩

/-! ### The first call -/

theorem valW0_v24 (W : Valuation τ sig (Elt F)) :
    after opsW0 W (main_v24 : DevRef τ sig)
      = sel (W (main_v23 : DevRef τ sig)) (W (main_v21 : DevRef τ sig)) (W (main_cst_2 : DevRef τ sig)) := by
  after_results_simp
  rfl

theorem keepW0_v21 (W : Valuation τ sig (Elt F)) :
    after opsW0 W (main_v21 : DevRef τ sig) = W (main_v21 : DevRef τ sig) := by
  after_results_simp

theorem keepW0_cst (W : Valuation τ sig (Elt F)) :
    after opsW0 W (main_cst : DevRef τ sig) = W (main_cst : DevRef τ sig) := by
  after_results_simp

theorem keepW0 : KeepsArgs (opsW0 (F := F)) := fun W =>
  ⟨by after_results_simp, by after_results_simp, by after_results_simp, by after_results_simp,
    by after_results_simp, by after_results_simp⟩

/-! ### Statements 30 … 34 -/

theorem valB_v25 (W : Valuation τ sig (Elt F)) :
    after opsB W (main_v25 : DevRef τ sig) = Host.sqrt (W (main_v24 : DevRef τ sig)) := by
  after_results_simp

theorem valB_v27 (W : Valuation τ sig (Elt F)) :
    after opsB W (main_v27 : DevRef τ sig) = posOf (W (main_v21 : DevRef τ sig)) := by
  after_results_simp
  rfl

theorem valB_cst_4 (W : Valuation τ sig (Elt F)) :
    after opsB W (main_cst_4 : DevRef τ sig) = constant S_ .f32 0x00000000#32 := by
  after_results_simp

theorem keepB_cst (W : Valuation τ sig (Elt F)) :
    after opsB W (main_cst : DevRef τ sig) = W (main_cst : DevRef τ sig) := by
  after_results_simp

theorem keepB : KeepsArgs (opsB (F := F)) := fun W =>
  ⟨by after_results_simp, by after_results_simp, by after_results_simp, by after_results_simp,
    by after_results_simp, by after_results_simp⟩

/-! ### The second call -/

theorem valW1_v28 (W : Valuation τ sig (Elt F)) :
    after opsW1 W (main_v28 : DevRef τ sig)
      = sel (W (main_v27 : DevRef τ sig)) (W (main_v25 : DevRef τ sig)) (W (main_cst_4 : DevRef τ sig)) := by
  after_results_simp
  rfl

theorem keepW1_cst (W : Valuation τ sig (Elt F)) :
    after opsW1 W (main_cst : DevRef τ sig) = W (main_cst : DevRef τ sig) := by
  after_results_simp

theorem keepW1 : KeepsArgs (opsW1 (F := F)) := fun W =>
  ⟨by after_results_simp, by after_results_simp, by after_results_simp, by after_results_simp,
    by after_results_simp, by after_results_simp⟩

/-! ### Statements 36 … 60 -/

theorem valC_v30 (W : Valuation τ sig (Elt F)) :
    after opsC W (main_v30 : DevRef τ sig) = scaled (W (main_v28 : DevRef τ sig)) := by
  after_results_simp
  rfl

theorem valC_v48 (W : Valuation τ sig (Elt F)) :
    after opsC W (main_v48 : DevRef τ sig)
      = coeffs (W (main_arg1 : DevRef τ sig)) (W (main_arg3 : DevRef τ sig)) := by
  after_results_simp
  rfl

theorem keepC_v28 (W : Valuation τ sig (Elt F)) :
    after opsC W (main_v28 : DevRef τ sig) = W (main_v28 : DevRef τ sig) := by
  after_results_simp

theorem keepC_cst (W : Valuation τ sig (Elt F)) :
    after opsC W (main_cst : DevRef τ sig) = W (main_cst : DevRef τ sig) := by
  after_results_simp

theorem keepC : KeepsArgs (opsC (F := F)) := fun W =>
  ⟨by after_results_simp, by after_results_simp, by after_results_simp, by after_results_simp,
    by after_results_simp, by after_results_simp⟩

end Cert.ReferenceIdeal.RefRun

end
-- ==== Proof.RefRunVal1.lean ====
/- The second window's list, value by value: after it, from any contents `W`, the accumulator of
   the Horner evaluation after nine steps, multiplied once more by the variable, and the
   coefficient plane of degree two, as functions of the variable and the coefficient table `W`
   holds; and the buffers later stretches read, and the arguments, as before. -/
import proofs.«129299_j34935263986162_1_alg».proof.Proof.RefRunW1
import proofs.«129299_j34935263986162_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem valP1_v104 (W : Valuation τ sig (Elt F)) :
    after opsP1 W (main_v104 : DevRef τ sig)
      = mulf (hornerHi (W (main_v30 : DevRef τ sig)) (W (main_v48 : DevRef τ sig))) (W (main_v30 : DevRef τ sig)) := by
  after_results_simp
  rfl

theorem valP1_v107 (W : Valuation τ sig (Elt F)) :
    after opsP1 W (main_v107 : DevRef τ sig)
      = preplane (W (main_v48 : DevRef τ sig)) ![0, 0, 2] slices_S512x512x12_S512x512x1_0_0_2 := by
  after_results_simp
  rfl

theorem keepP1_v28 (W : Valuation τ sig (Elt F)) :
    after opsP1 W (main_v28 : DevRef τ sig) = W (main_v28 : DevRef τ sig) := by
  after_results_simp

theorem keepP1_v30 (W : Valuation τ sig (Elt F)) :
    after opsP1 W (main_v30 : DevRef τ sig) = W (main_v30 : DevRef τ sig) := by
  after_results_simp

theorem keepP1_v48 (W : Valuation τ sig (Elt F)) :
    after opsP1 W (main_v48 : DevRef τ sig) = W (main_v48 : DevRef τ sig) := by
  after_results_simp

theorem keepP1_cst (W : Valuation τ sig (Elt F)) :
    after opsP1 W (main_cst : DevRef τ sig) = W (main_cst : DevRef τ sig) := by
  after_results_simp

theorem keepP1_arg0 (W : Valuation τ sig (Elt F)) :
    after opsP1 W (main_arg0 : DevRef τ sig) = W (main_arg0 : DevRef τ sig) := by
  after_results_simp

theorem keepP1_arg1 (W : Valuation τ sig (Elt F)) :
    after opsP1 W (main_arg1 : DevRef τ sig) = W (main_arg1 : DevRef τ sig) := by
  after_results_simp

theorem keepP1_arg2 (W : Valuation τ sig (Elt F)) :
    after opsP1 W (main_arg2 : DevRef τ sig) = W (main_arg2 : DevRef τ sig) := by
  after_results_simp

theorem keepP1_arg3 (W : Valuation τ sig (Elt F)) :
    after opsP1 W (main_arg3 : DevRef τ sig) = W (main_arg3 : DevRef τ sig) := by
  after_results_simp

theorem keepP1_arg4 (W : Valuation τ sig (Elt F)) :
    after opsP1 W (main_arg4 : DevRef τ sig) = W (main_arg4 : DevRef τ sig) := by
  after_results_simp

theorem keepP1_arg5 (W : Valuation τ sig (Elt F)) :
    after opsP1 W (main_arg5 : DevRef τ sig) = W (main_arg5 : DevRef τ sig) := by
  after_results_simp

theorem keepP1 : KeepsArgs (opsP1 (F := F)) := fun W =>
  ⟨keepP1_arg0 W, keepP1_arg1 W, keepP1_arg2 W, keepP1_arg3 W, keepP1_arg4 W, keepP1_arg5 W⟩

end Cert.ReferenceIdeal.RefRun

end
-- ==== Proof.RefRunVal2.lean ====
/- The last window's stretches, value by value: after each stretch, from any contents `W`, what
   each buffer a later stretch reads holds — a named function of what `W` holds at the buffers
   the stretch reads — and that the buffers it does not write are as before. -/
import proofs.«129299_j34935263986162_1_alg».proof.Proof.RefRunW2
import proofs.«129299_j34935263986162_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### Statements 121 … 142 -/

theorem valD_v121 (W : Valuation τ sig (Elt F)) :
    after opsD W (main_v121 : DevRef τ sig)
      = hornerLo (W (main_v104 : DevRef τ sig)) (W (main_v107 : DevRef τ sig)) (W (main_v30 : DevRef τ sig))
          (W (main_v48 : DevRef τ sig)) := by
  after_results_simp
  rfl

theorem valD_v126 (W : Valuation τ sig (Elt F)) :
    after opsD W (main_v126 : DevRef τ sig) = rangeOf (W (main_v28 : DevRef τ sig)) := by
  after_results_simp
  rfl

theorem valD_cst_12 (W : Valuation τ sig (Elt F)) :
    after opsD W (main_cst_12 : DevRef τ sig) = constant S_ .f32 0x00000000#32 := by
  after_results_simp

theorem keepD_cst (W : Valuation τ sig (Elt F)) :
    after opsD W (main_cst : DevRef τ sig) = W (main_cst : DevRef τ sig) := by
  after_results_simp

theorem keepD : KeepsArgs (opsD (F := F)) := fun W =>
  ⟨by after_results_simp, by after_results_simp, by after_results_simp, by after_results_simp,
    by after_results_simp, by after_results_simp⟩

/-! ### The third call -/

theorem valW2_v127 (W : Valuation τ sig (Elt F)) :
    after opsW2 W (main_v127 : DevRef τ sig)
      = sel (W (main_v126 : DevRef τ sig)) (W (main_v121 : DevRef τ sig)) (W (main_cst_12 : DevRef τ sig)) := by
  after_results_simp
  rfl

theorem keepW2_cst (W : Valuation τ sig (Elt F)) :
    after opsW2 W (main_cst : DevRef τ sig) = W (main_cst : DevRef τ sig) := by
  after_results_simp

theorem keepW2 : KeepsArgs (opsW2 (F := F)) := fun W =>
  ⟨by after_results_simp, by after_results_simp, by after_results_simp, by after_results_simp,
    by after_results_simp, by after_results_simp⟩

/-! ### Statements 144 … 163 -/

theorem valE_v135 (W : Valuation τ sig (Elt F)) :
    after opsE W (main_v135 : DevRef τ sig)
      = Host.dotGeneral dot_S32x81_S512x512x81_S32x512x512_1_2_0_01_n_n none
          (Host.cos (angL (W (main_cst : DevRef τ sig)) (W (main_arg2 : DevRef τ sig)) (W (main_arg5 : DevRef τ sig))))
          (W (main_v127 : DevRef τ sig)) := by
  after_results_simp
  rfl

theorem valE_v137 (W : Valuation τ sig (Elt F)) :
    after opsE W (main_v137 : DevRef τ sig)
      = Host.dotGeneral dot_S32x81_S512x512x81_S32x512x512_1_2_0_01_n_n none
          (Host.sin (angL (W (main_cst : DevRef τ sig)) (W (main_arg2 : DevRef τ sig)) (W (main_arg5 : DevRef τ sig))))
          (W (main_v127 : DevRef τ sig)) := by
  after_results_simp
  rfl

theorem valE_v144 (W : Valuation τ sig (Elt F)) :
    after opsE W (main_v144 : DevRef τ sig)
      = onsiteAt (W (main_arg1 : DevRef τ sig)) (W (main_arg4 : DevRef τ sig)) := by
  after_results_simp
  rfl

theorem keepE : KeepsArgs (opsE (F := F)) := fun W =>
  ⟨by after_results_simp, by after_results_simp, by after_results_simp, by after_results_simp,
    by after_results_simp, by after_results_simp⟩

/-! ### The fourth call -/

theorem valDg_v145 (W : Valuation τ sig (Elt F)) :
    after opsDg W (main_v145 : DevRef τ sig) = diagOf (W (main_v144 : DevRef τ sig)) := by
  after_results_simp
  rfl

theorem keepDg_v135 (W : Valuation τ sig (Elt F)) :
    after opsDg W (main_v135 : DevRef τ sig) = W (main_v135 : DevRef τ sig) := by
  after_results_simp

theorem keepDg_v137 (W : Valuation τ sig (Elt F)) :
    after opsDg W (main_v137 : DevRef τ sig) = W (main_v137 : DevRef τ sig) := by
  after_results_simp

theorem keepDg : KeepsArgs (opsDg (F := F)) := fun W =>
  ⟨by after_results_simp, by after_results_simp, by after_results_simp, by after_results_simp,
    by after_results_simp, by after_results_simp⟩

/-! ### Statements 165 … 170 -/

theorem valG_v151 (W : Valuation τ sig (Elt F)) :
    after opsG W (main_v151 : DevRef τ sig)
      = stack (W (main_v135 : DevRef τ sig)) (W (main_v137 : DevRef τ sig)) (W (main_v145 : DevRef τ sig)) := by
  after_results_simp
  rfl

theorem keepG : KeepsArgs (opsG (F := F)) := fun W =>
  ⟨by after_results_simp, by after_results_simp, by after_results_simp, by after_results_simp,
    by after_results_simp, by after_results_simp⟩

end Cert.ReferenceIdeal.RefRun

end
-- ==== Proof.RefRun.lean ====
/- The reference's run, read back: every weakly fair execution of the reference program
   terminates, faults nowhere, leaves the six argument buffers unchanged and ends with the result
   buffer holding `out` of the argument arrays (`run`).

   The proof follows the program stretch by stretch. `Ik a W` says what the buffers `W` hold
   after the first `k` stretches, for argument arrays `a`: each buffer a later stretch reads is
   the named value of the arguments, and the argument buffers still hold `a`. `stepk` carries
   `I(k-1)` over stretch `k` by that stretch's value lemmas; `after_ops` chains the eleven
   steps along the split of the operation list; `run` reads the library's run of a straight
   line through it. -/
import proofs.«129299_j34935263986162_1_alg».proof.Proof.RefRunMain
import proofs.«129299_j34935263986162_1_alg».proof.Proof.RefRunVal0
import proofs.«129299_j34935263986162_1_alg».proof.Proof.RefRunVal1
import proofs.«129299_j34935263986162_1_alg».proof.Proof.RefRunVal2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result as a function of the six argument arrays: `out`, the program's last value. -/
abbrev res (a0 : CF F S512x3) (a1 : CI F S512) (a2 : CF F S32x3) (a3 : CF F S4x4x12) (a4 : CF F S4)
    (a5 : CF F S81x3) : CF F S2x32x512x512 :=
  out a0 a1 a2 a3 a4 a5

/-! ## What the buffers hold after each stretch -/

/-- After statements 1 … 28. -/
abbrev I1 (a : ArgVals F) (W : Valuation τ sig (Elt F)) : Prop :=
  W (main_v21 : DevRef τ sig) = dr2 a.a0 a.a5
  ∧ W (main_v23 : DevRef τ sig) = pos a.a0 a.a5
  ∧ W (main_cst_2 : DevRef τ sig) = constant S_ .f32 0x3F800000#32
  ∧ W (main_cst : DevRef τ sig) = invLat
  ∧ HasArgs a W

/-- After the first call. -/
abbrev I2 (a : ArgVals F) (W : Valuation τ sig (Elt F)) : Prop :=
  W (main_v24 : DevRef τ sig) = sel (pos a.a0 a.a5) (dr2 a.a0 a.a5) (constant S_ .f32 0x3F800000#32)
  ∧ W (main_v21 : DevRef τ sig) = dr2 a.a0 a.a5
  ∧ W (main_cst : DevRef τ sig) = invLat
  ∧ HasArgs a W

/-- After statements 30 … 34. -/
abbrev I3 (a : ArgVals F) (W : Valuation τ sig (Elt F)) : Prop :=
  W (main_v25 : DevRef τ sig)
      = Host.sqrt (sel (pos a.a0 a.a5) (dr2 a.a0 a.a5) (constant S_ .f32 0x3F800000#32))
  ∧ W (main_v27 : DevRef τ sig) = pos a.a0 a.a5
  ∧ W (main_cst_4 : DevRef τ sig) = constant S_ .f32 0x00000000#32
  ∧ W (main_cst : DevRef τ sig) = invLat
  ∧ HasArgs a W

/-- After the second call. -/
abbrev I4 (a : ArgVals F) (W : Valuation τ sig (Elt F)) : Prop :=
  W (main_v28 : DevRef τ sig) = dr a.a0 a.a5
  ∧ W (main_cst : DevRef τ sig) = invLat
  ∧ HasArgs a W

/-- After the first window. -/
abbrev I5 (a : ArgVals F) (W : Valuation τ sig (Elt F)) : Prop :=
  W (main_v28 : DevRef τ sig) = dr a.a0 a.a5
  ∧ W (main_v30 : DevRef τ sig) = x a.a0 a.a5
  ∧ W (main_v48 : DevRef τ sig) = coeffs a.a1 a.a3
  ∧ W (main_cst : DevRef τ sig) = invLat
  ∧ HasArgs a W

/-- After the second window. -/
abbrev I6 (a : ArgVals F) (W : Valuation τ sig (Elt F)) : Prop :=
  W (main_v28 : DevRef τ sig) = dr a.a0 a.a5
  ∧ W (main_v30 : DevRef τ sig) = x a.a0 a.a5
  ∧ W (main_v48 : DevRef τ sig) = coeffs a.a1 a.a3
  ∧ W (main_v104 : DevRef τ sig) = mulf (hornerHi (x a.a0 a.a5) (coeffs a.a1 a.a3)) (x a.a0 a.a5)
  ∧ W (main_v107 : DevRef τ sig) = preplane (coeffs a.a1 a.a3) ![0, 0, 2] slices_S512x512x12_S512x512x1_0_0_2
  ∧ W (main_cst : DevRef τ sig) = invLat
  ∧ HasArgs a W

/-- After statements 121 … 142. -/
abbrev I7 (a : ArgVals F) (W : Valuation τ sig (Elt F)) : Prop :=
  W (main_v121 : DevRef τ sig) = y a.a0 a.a1 a.a3 a.a5
  ∧ W (main_v126 : DevRef τ sig) = inRange a.a0 a.a5
  ∧ W (main_cst_12 : DevRef τ sig) = constant S_ .f32 0x00000000#32
  ∧ W (main_cst : DevRef τ sig) = invLat
  ∧ HasArgs a W

/-- After the third call. -/
abbrev I8 (a : ArgVals F) (W : Valuation τ sig (Elt F)) : Prop :=
  W (main_v127 : DevRef τ sig) = V a.a0 a.a1 a.a3 a.a5
  ∧ W (main_cst : DevRef τ sig) = invLat
  ∧ HasArgs a W

/-- After statements 144 … 163. -/
abbrev I9 (a : ArgVals F) (W : Valuation τ sig (Elt F)) : Prop :=
  W (main_v135 : DevRef τ sig) = hr a.a0 a.a1 a.a2 a.a3 a.a5
  ∧ W (main_v137 : DevRef τ sig) = hi a.a0 a.a1 a.a2 a.a3 a.a5
  ∧ W (main_v144 : DevRef τ sig) = onsiteAt a.a1 a.a4
  ∧ HasArgs a W

/-- After the fourth call. -/
abbrev I10 (a : ArgVals F) (W : Valuation τ sig (Elt F)) : Prop :=
  W (main_v135 : DevRef τ sig) = hr a.a0 a.a1 a.a2 a.a3 a.a5
  ∧ W (main_v137 : DevRef τ sig) = hi a.a0 a.a1 a.a2 a.a3 a.a5
  ∧ W (main_v145 : DevRef τ sig) = diag a.a1 a.a4
  ∧ HasArgs a W

/-- At the end. -/
abbrev I11 (a : ArgVals F) (W : Valuation τ sig (Elt F)) : Prop :=
  W (main_v151 : DevRef τ sig) = out a.a0 a.a1 a.a2 a.a3 a.a4 a.a5
  ∧ HasArgs a W

/-! ## One stretch at a time -/

variable {a : ArgVals F} {W : Valuation τ sig (Elt F)}

theorem step1 (h : HasArgs a W) : I1 a (after opsA W) :=
  ⟨by rw [valA_v21 W, h.1, h.2.2.2.2.2], by rw [valA_v23 W, h.1, h.2.2.2.2.2], valA_cst_2 W, valA_cst W,
    keepA.hasArgs h⟩

theorem step2 (h : I1 a W) : I2 a (after opsW0 W) := by
  obtain ⟨h21, h23, hc2, hc, ha⟩ := h
  exact ⟨by rw [valW0_v24 W, h23, h21, hc2], by rw [keepW0_v21 W, h21], by rw [keepW0_cst W, hc],
    keepW0.hasArgs ha⟩

theorem step3 (h : I2 a W) : I3 a (after opsB W) := by
  obtain ⟨h24, h21, hc, ha⟩ := h
  exact ⟨by rw [valB_v25 W, h24], by rw [valB_v27 W, h21]; rfl, valB_cst_4 W, by rw [keepB_cst W, hc],
    keepB.hasArgs ha⟩

theorem step4 (h : I3 a W) : I4 a (after opsW1 W) := by
  obtain ⟨h25, h27, hc4, hc, ha⟩ := h
  exact ⟨by rw [valW1_v28 W, h27, h25, hc4]; rfl, by rw [keepW1_cst W, hc], keepW1.hasArgs ha⟩

theorem step5 (h : I4 a W) : I5 a (after opsC W) := by
  obtain ⟨h28, hc, ha⟩ := h
  exact ⟨by rw [keepC_v28 W, h28], by rw [valC_v30 W, h28]; rfl, by rw [valC_v48 W, ha.2.1, ha.2.2.2.1],
    by rw [keepC_cst W, hc], keepC.hasArgs ha⟩

theorem step6 (h : I5 a W) : I6 a (after opsP1 W) := by
  obtain ⟨h28, h30, h48, hc, ha⟩ := h
  exact ⟨by rw [keepP1_v28 W, h28], by rw [keepP1_v30 W, h30], by rw [keepP1_v48 W, h48],
    by rw [valP1_v104 W, h30, h48], by rw [valP1_v107 W, h48], by rw [keepP1_cst W, hc], keepP1.hasArgs ha⟩

theorem step7 (h : I6 a W) : I7 a (after opsD W) := by
  obtain ⟨h28, h30, h48, h104, h107, hc, ha⟩ := h
  exact ⟨by rw [valD_v121 W, h104, h107, h30, h48]; rfl, by rw [valD_v126 W, h28]; rfl, valD_cst_12 W,
    by rw [keepD_cst W, hc], keepD.hasArgs ha⟩

theorem step8 (h : I7 a W) : I8 a (after opsW2 W) := by
  obtain ⟨h121, h126, hc12, hc, ha⟩ := h
  exact ⟨by rw [valW2_v127 W, h126, h121, hc12]; rfl, by rw [keepW2_cst W, hc], keepW2.hasArgs ha⟩

theorem step9 (h : I8 a W) : I9 a (after opsE W) := by
  obtain ⟨h127, hc, ha⟩ := h
  exact ⟨by rw [valE_v135 W, hc, ha.2.2.1, ha.2.2.2.2.2, h127]; rfl,
    by rw [valE_v137 W, hc, ha.2.2.1, ha.2.2.2.2.2, h127]; rfl,
    by rw [valE_v144 W, ha.2.1, ha.2.2.2.2.1], keepE.hasArgs ha⟩

theorem step10 (h : I9 a W) : I10 a (after opsDg W) := by
  obtain ⟨h135, h137, h144, ha⟩ := h
  exact ⟨by rw [keepDg_v135 W, h135], by rw [keepDg_v137 W, h137], by rw [valDg_v145 W, h144]; rfl,
    keepDg.hasArgs ha⟩

theorem step11 (h : I10 a W) : I11 a (after opsG W) := by
  obtain ⟨h135, h137, h145, ha⟩ := h
  exact ⟨by rw [valG_v151 W, h135, h137, h145]; rfl, keepG.hasArgs ha⟩

/-! ## The whole line -/

/-- From buffers holding the argument arrays `a`, after the program's operations the result
    buffer holds `out` of them and the argument buffers still hold them. -/
theorem after_ops (h : HasArgs a W) : I11 a (after ops W) := by
  show I11 a (after (opsA ++ (opsW0 ++ (opsB ++ (opsW1 ++ (opsC ++ (opsP1 ++ (opsD ++ (opsW2 ++ (opsE ++
    (opsDg ++ opsG)))))))))) W)
  rw [after_app, after_app, after_app, after_app, after_app, after_app, after_app, after_app, after_app,
    after_app]
  exact step11 (step10 (step9 (step8 (step7 (step6 (step5 (step4 (step3 (step2 (step1 h))))))))))

/-- On every device, for any float values, from any memory with zero counters: every weakly fair
    execution of the reference program terminates with the result buffer at `res` of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151)
          = res (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have e := after_ops (F := F)
        (a := ⟨m ((c.tc : Thread nD τ).loc main_arg0), m ((c.tc : Thread nD τ).loc main_arg1),
          m ((c.tc : Thread nD τ).loc main_arg2), m ((c.tc : Thread nD τ).loc main_arg3),
          m ((c.tc : Thread nD τ).loc main_arg4), m ((c.tc : Thread nD τ).loc main_arg5)⟩)
        (W := launchContents m c) ⟨rfl, rfl, rfl, rfl, rfl, rfl⟩
      exact ⟨(h c main_v151).trans e.1, (h c main_arg0).trans e.2.1, (h c main_arg1).trans e.2.2.1,
        (h c main_arg2).trans e.2.2.2.1, (h c main_arg3).trans e.2.2.2.2.1,
        (h c main_arg4).trans e.2.2.2.2.2.1, (h c main_arg5).trans e.2.2.2.2.2.2⟩)
    (run_after m ρ)

end Cert.ReferenceIdeal.RefRun

end
-- ==== Proof.lean ====
/-
  A tight-binding Hamiltonian assembled block by block equals its whole-array definition, over the extended reals.

  For 512 atoms, 81 lattice shifts and 32 k-points, the Hamiltonian's entry for k-point k, row atom i and column atom j is
  the sum over the shifts s of V(i, j, s) times the Bloch phase factor of (k, s) — its cosine for the real part, its sine
  for the imaginary — plus, on the diagonal of the real part, the onsite energy of atom i. V(i, j, s) is the pair
  potential: a degree-11 polynomial, with the coefficients of the two atoms' species, in the distance between atom i and
  atom j displaced by shift s, kept where the distance lies in (0.1, 6] and zero elsewhere.

  One program forms V for all 512 × 512 × 81 triples at once and contracts it with the phases. The other walks a 16 × 4
  grid of blocks of 32 row atoms by 128 column atoms: for each block it forms V for the block's pairs and all shifts,
  multiplies the flattened block with the phase matrix, and writes the product back as the block of the output; the
  diagonal is added afterwards. The gather of the species' coefficients, the phase angles and the gather of the onsite
  energies are the same operations of the same arguments in both programs and are never opened.

  The two results agree entry by entry: the pair potential is the same scalar function of the same three coordinate rows
  and twelve coefficients on both sides; the blocks tile the arrays, so the blockwise output is one whole-array function;
  the sum over the three coordinates and the sum over the shifts are the same finite sums in a different arrangement; a
  product is commuted inside the shift sum; and 1 · x = x, 0 · x = 0 turn the diagonal written as a product with the identity
  matrix into the diagonal written as a selection. None of these needs a finite operand, so the precondition is not used.

  Each program also runs to its end, faults nowhere and leaves its six arguments as they were: for the blockwise program
  the two windows that read the positions each hold half of that array while the grid runs.
-/
import proofs.«129299_j34935263986162_1_alg».proof.Defs
import proofs.«129299_j34935263986162_1_alg».proof.Proof.Gen.Kernel
import proofs.«129299_j34935263986162_1_alg».proof.Proof.Gen.KernelIdeal
import proofs.«129299_j34935263986162_1_alg».proof.Proof.Gen.ReferenceIdeal
import proofs.«129299_j34935263986162_1_alg».proof.Proof.Gen.Pre_finite_inputs
import proofs.«129299_j34935263986162_1_alg».proof.Proof.KRunFrame
import proofs.«129299_j34935263986162_1_alg».proof.Proof.KRunBitsFrame
import proofs.«129299_j34935263986162_1_alg».proof.Proof.KRunMain
import proofs.«129299_j34935263986162_1_alg».proof.Proof.KTailRun
import proofs.«129299_j34935263986162_1_alg».proof.Proof.KFinal
import proofs.«129299_j34935263986162_1_alg».proof.Proof.Bridge
import proofs.«129299_j34935263986162_1_alg».proof.Proof.RefRun
import Idealize.ShloMosaic.Adequacy
import Idealize.ShloMosaic.Init

noncomputable section

namespace Cert.Proof

open Idealize.ShloMosaic Idealize.ShloMosaic.TcCoe Idealize.SL.Sem

/-- The blockwise program at the word level runs and keeps its arguments. -/
theorem frame_kernel : Cert.frame_Kernel (hKernel := Cert.Kernel.Gen.facts) (hPre_finite_inputs := Cert.Pre_finite_inputs.Gen.facts) :=
  fun m g _ => Cert.Kernel.KRun.frame m g

/-- So does its reading over the extended reals. -/
theorem frame_kernelIdeal :
    Cert.frame_KernelIdeal (hKernelIdeal := Cert.KernelIdeal.Gen.facts) (hPre_finite_inputs := Cert.Pre_finite_inputs.Gen.facts) :=
  fun m g _ => Cert.KernelIdeal.KRun.frame m g

/-- The whole-array program runs and keeps its arguments: its run with the result dropped. -/
theorem frame_reference :
    Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.RefRun.run (F := Ideal) m g)

/-- From memories that agree on the six arguments both programs end with the whole-array Hamiltonian of those arguments:
    the blockwise program's two outputs are the phase sums with the cosine and the sine block, its tail adds the diagonal
    and stacks them, and that is the whole-array program's result. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' _ hagree
  refine ⟨fun c => Cert.ReferenceIdeal.RefRun.res
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KRun.run_main (F := Ideal) m g)
    rw [Cert.KernelIdeal.KHost.V₂_result, Cert.KernelIdeal.KFin.final6, Cert.KernelIdeal.KFin.final7]
    exact Cert.Bridge.result_eq _ _ _ _ _ _
  · refine (θ_run Cert.ReferenceIdeal.defs _ _).mono (fun r h c => ⟨?_, (h c).2⟩)
      (Cert.ReferenceIdeal.RefRun.run (F := Ideal) m' g')
    rw [(h c).1, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
